-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x512 : Shape := ⟨2, ![8192, 512]⟩
abbrev S8192x1 : Shape := ⟨2, ![8192, 1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x1 : S_.BroadcastsInDim S8192x1 (![] : Fin 0 → Fin S8192x1.rank)
  reducesTo_S8192x1_S_d0_1 : S8192x1.ReducesTo [0, 1] S_

variable [Facts]

def fn_part1 {F : FTy → Type} [FloatOps F] (main_arg4 : FVec F S8192x1 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x1 .f32 := Host.absf main_arg4
  let main_cst_6 : FVec F S_ .f32 := constant S_ .f32 0x7F800000#32
  let main_v20 : FVec F S8192x1 .f32 := broadcastInDim S8192x1 ![] bcast_S_S8192x1 main_cst_6
  let main_v21 : IVec S8192x1 1 := cmpf .olt main_v19 main_v20
  let main_c_7 : IVec S_ 1 := constantI S_ 1 1#1
  let main_v22 : IVec S_ 1 := (fun x v => Host.reduce IntOp.andi x v reducesTo_S8192x1_S_d0_1 h_S_) main_v21 main_c_7
  let main_v23 : IVec S_ 1 := andi main_v18 main_v22
  main_v23

def fn {F : FTy → Type} [FloatOps F] (main_arg0 : FVec F S8192x4096 .f32) (main_arg1 : FVec F S8192x4096 .f32) (main_arg2 : FVec F S8192x512 .f32) (main_arg3 : FVec F S8192x512 .f32) (main_arg4 : FVec F S8192x1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_v13 main_v16
-- ==== Kernel.lean ====
abbrev S8192x4096 : Shape := ⟨2, ![8192, 4096]⟩
abbrev S8192x512 : Shape := ⟨2, ![8192, 512]⟩
abbrev S8192x1 : Shape := ⟨2, ![8192, 1]⟩
abbrev S1x4096 : Shape := ⟨2, ![1, 4096]⟩
abbrev S512x2048 : Shape := ⟨2, ![512, 2048]⟩
abbrev S512x1 : Shape := ⟨2, ![512, 1]⟩
abbrev S1x2048 : Shape := ⟨2, ![1, 2048]⟩
abbrev S2048 : Shape := ⟨1, ![2048]⟩
abbrev S_ : Shape := ⟨0, ![]⟩
abbrev S1x256 : Shape := ⟨2, ![1, 256]⟩
abbrev S2048x512 : Shape := ⟨2, ![2048, 512]⟩
abbrev S1x128 : Shape := ⟨2, ![1, 128]⟩
abbrev S2048x1 : Shape := ⟨2, ![2048, 1]⟩
abbrev S1 : Shape := ⟨1, ![1]⟩
abbrev S1x1 : Shape := ⟨2, ![1, 1]⟩

abbrev nBuf : Space → Nat
  | .hbm => 70
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x512, .f32⟩
  | .hbm, ⟨3, _⟩ => ⟨S8192x512, .f32⟩
  | .hbm, ⟨4, _⟩ => ⟨S8192x1, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S_, .f32⟩
  | .hbm, ⟨14, _⟩ => ⟨S1x4096, .f32⟩
  | .hbm, ⟨15, _⟩ => ⟨S1x4096, .f32⟩
  | .hbm, ⟨16, _⟩ => ⟨S_, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S_, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S1x4096, .i1⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x256, .f32⟩
  | .hbm, ⟨61, _⟩ => ⟨S1x1, .f32⟩
  | .hbm, ⟨62, _⟩ => ⟨S_, .f32⟩
  | .hbm, ⟨63, _⟩ => ⟨S1x1, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S1x128, .f32⟩
  | .local _ .vmem, ⟨21, _⟩ => ⟨S1x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_13 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1x2048_S1x2048_0_0 : ∀ a, (![0, 0] : Fin 2 → Nat) a + S1x2048.size a ≤ S1x2048.size a
  h_S1x2048 : 0 < S1x2048.numel
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  broadcasts_S512x1_S512x2048 : S512x1.Broadcasts S512x2048
  shapeCasts_S1x2048_S1x2048 : S1x2048.ShapeCasts S1x2048
  reduces_S512x2048_S2048 : S512x2048.Reduces [0] S2048
  shapeCasts_S2048_S1x2048 : S2048.ShapeCasts S1x2048
  bcast_S_S1x4096 : S_.BroadcastsInDim S1x4096 (![] : Fin 0 → Fin S1x4096.rank)
  reducesTo_S1x4096_S_d0_1 : S1x4096.ReducesTo [0, 1] S_
  h_S_ : 0 < S_.numel
  inb_S1x128_S1x128_0_0 : ∀ a, (![0, 0] : Fin 2 → Nat) a + S1x128.size a ≤ S1x128.size a
  h_S1x128 : 0 < S1x128.numel
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  reduces_S2048x1_S1 : S2048x1.Reduces [0] S1
  shapeCasts_S1_S1x1 : S1.ShapeCasts S1x1
  shapeCasts_S1x128_S1x128 : S1x128.ShapeCasts S1x128
  shapeCasts_S1x1_S1x1 : S1x1.ShapeCasts S1x1
  broadcasts_S1x1_S1x128 : S1x1.Broadcasts S1x128
  slices_S1x256_S1x1_0_0 : S1x256.Slices ![0, 0] S1x1
  shapeCasts_S1x1_S_ : S1x1.ShapeCasts S_
  slices_S1x256_S1x1_0_128 : S1x256.Slices ![0, 128] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x4096.size a
  hwx0_1 : ∀ i : grid0.Coords, EltTy.bits .f32 = 32 ∨ (Rect.block (s := S8192x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x4096.size a
  hwx0_5 : ∀ i : grid0.Coords, EltTy.bits .f32 = 32 ∨ (Rect.block (s := S1x4096) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x4096.size a
  hwx0_6 : ∀ i : grid0.Coords, EltTy.bits .f32 = 32 ∨ (Rect.block (s := S1x4096) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x4096.size a
  hwx0_7 : ∀ i : grid0.Coords, EltTy.bits .f32 = 32 ∨ (Rect.block (s := S1x4096) S1x2048.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .f32 = 32 ∨ (Rect.block (s := S8192x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .f32 = 32 ∨ (Rect.block (s := S8192x512) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x256.size a
  hwx1_2 : ∀ i : grid1.Coords, EltTy.bits .f32 = 32 ∨ (Rect.block (s := S1x256) S1x128.size (cc1_transform_2 i) (hinb1_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S8192x512 : Shape := ⟨2, ![8192, 512]⟩
abbrev S8192x1 : Shape := ⟨2, ![8192, 1]⟩
abbrev S_ : Shape := ⟨0, ![]⟩
abbrev S8192 : Shape := ⟨1, ![8192]⟩
abbrev S4096x8192 : Shape := ⟨2, ![4096, 8192]⟩
abbrev S4096 : Shape := ⟨1, ![4096]⟩
abbrev S4096x1 : Shape := ⟨2, ![4096, 1]⟩

abbrev nBuf : Space → Nat
  | .hbm => 129
  | .vmem => 0
  | .smem => 0
  | _ => 0

abbrev hbmTy0_0 (i : Nat) : BufTy := match i % 128 with
  | 0 => ⟨S8192x4096, .f32⟩
  | 1 => ⟨S8192x4096, .f32⟩
  | 2 => ⟨S8192x512, .f32⟩
  | 3 => ⟨S8192x512, .f32⟩
  | 4 => ⟨S8192x1, .f32⟩
  | 5 => ⟨S8192x4096, .f32⟩
  | 6 => ⟨S8192x4096, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S_, .f32⟩
  | 25 => ⟨S8192, .f32⟩
  | 26 => ⟨S_, .f32⟩
  | 27 => ⟨S8192, .f32⟩
  | 28 => ⟨S8192, .f32⟩
  | 29 => ⟨S8192, .f32⟩
  | 30 => ⟨S8192x512, .f32⟩
  | 31 => ⟨S_, .f32⟩
  | 32 => ⟨S8192, .f32⟩
  | 33 => ⟨S_, .f32⟩
  | 34 => ⟨S8192, .f32⟩
  | 35 => ⟨S8192, .f32⟩
  | 36 => ⟨S8192, .f32⟩
  | 37 => ⟨S8192x512, .f32⟩
  | 38 => ⟨S_, .f32⟩
  | 39 => ⟨S8192, .f32⟩
  | 40 => ⟨S_, .f32⟩
  | 41 => ⟨S8192, .f32⟩
  | 42 => ⟨S8192, .f32⟩
  | 43 => ⟨S8192, .f32⟩
  | 44 => ⟨S8192, .f32⟩
  | 45 => ⟨S8192, .i1⟩
  | 46 => ⟨S_, .f32⟩
  | 47 => ⟨S8192, .f32⟩
  | 48 => ⟨S8192, .f32⟩
  | 49 => ⟨S8192, .i1⟩
  | 50 => ⟨S8192, .i1⟩
  | 51 => ⟨S8192, .i32⟩
  | 52 => ⟨S8192, .f32⟩
  | 53 => ⟨S_, .f32⟩
  | 54 => ⟨S_, .f32⟩
  | 55 => ⟨S8192, .i1⟩
  | 56 => ⟨S_, .f32⟩
  | 57 => ⟨S8192, .f32⟩
  | 58 => ⟨S8192, .f32⟩
  | 59 => ⟨S_, .f32⟩
  | 60 => ⟨S_, .f32⟩
  | 61 => ⟨S_, .f32⟩
  | 62 => ⟨S_, .f32⟩
  | 63 => ⟨S_, .f32⟩
  | 64 => ⟨S4096x8192, .f32⟩
  | 65 => ⟨S4096x8192, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096, .f32⟩
  | 74 => ⟨S4096x1, .f32⟩
  | 75 => ⟨S_, .f32⟩
  | 76 => ⟨S4096x1, .f32⟩
  | 77 => ⟨S4096x1, .f32⟩
  | 78 => ⟨S4096x8192, .f32⟩
  | 79 => ⟨S4096x8192, .f32⟩
  | 80 => ⟨S4096x8192, .f32⟩
  | 81 => ⟨S4096x8192, .f32⟩
  | 82 => ⟨S4096x8192, .f32⟩
  | 83 => ⟨S_, .f32⟩
  | 84 => ⟨S4096, .f32⟩
  | 85 => ⟨S_, .f32⟩
  | 86 => ⟨S4096, .f32⟩
  | 87 => ⟨S4096, .f32⟩
  | 88 => ⟨S4096, .f32⟩
  | 89 => ⟨S4096x8192, .f32⟩
  | 90 => ⟨S_, .f32⟩
  | 91 => ⟨S4096, .f32⟩
  | 92 => ⟨S_, .f32⟩
  | 93 => ⟨S4096, .f32⟩
  | 94 => ⟨S4096, .f32⟩
  | 95 => ⟨S4096, .f32⟩
  | 96 => ⟨S4096x8192, .f32⟩
  | 97 => ⟨S_, .f32⟩
  | 98 => ⟨S4096, .f32⟩
  | 99 => ⟨S_, .f32⟩
  | 100 => ⟨S4096, .f32⟩
  | 101 => ⟨S4096, .f32⟩
  | 102 => ⟨S4096, .f32⟩
  | 103 => ⟨S4096, .f32⟩
  | 104 => ⟨S4096, .i1⟩
  | 105 => ⟨S_, .f32⟩
  | 106 => ⟨S4096, .f32⟩
  | 107 => ⟨S4096, .f32⟩
  | 108 => ⟨S4096, .i1⟩
  | 109 => ⟨S4096, .i1⟩
  | 110 => ⟨S4096, .i32⟩
  | 111 => ⟨S4096, .f32⟩
  | 112 => ⟨S_, .f32⟩
  | 113 => ⟨S_, .f32⟩
  | 114 => ⟨S4096, .i1⟩
  | 115 => ⟨S_, .f32⟩
  | 116 => ⟨S4096, .f32⟩
  | 117 => ⟨S4096, .f32⟩
  | 118 => ⟨S_, .f32⟩
  | 119 => ⟨S_, .f32⟩
  | 120 => ⟨S_, .f32⟩
  | 121 => ⟨S_, .f32⟩
  | 122 => ⟨S_, .f32⟩
  | 123 => ⟨S8192x4096, .f32⟩
  | 124 => ⟨S8192x4096, .f32⟩
  | 125 => ⟨S_, .f32⟩
  | 126 => ⟨S_, .f32⟩
  | 127 => ⟨S_, .f32⟩
  | _ => ⟨S8192x4096, .f32⟩

abbrev hbmTy0_1 (i : Nat) : BufTy := match i % 128 with
  | 0 => ⟨S_, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_cst : Ref sig .tc := ⟨.hbm, 53, rfl⟩
abbrev main_call1_v4 : Ref sig .tc := ⟨.hbm, 54, rfl⟩
abbrev main_call1_call0_v0 : Ref sig .tc := ⟨.hbm, 55, rfl⟩
abbrev main_call1_call0_cst : Ref sig .tc := ⟨.hbm, 56, rfl⟩
abbrev main_call1_call0_call0_v0 : Ref sig .tc := ⟨.hbm, 57, rfl⟩
abbrev main_call1_call0_v1 : Ref sig .tc := ⟨.hbm, 58, rfl⟩
abbrev main_call1_call0_cst_0 : Ref sig .tc := ⟨.hbm, 59, rfl⟩
abbrev main_call1_v5 : Ref sig .tc := ⟨.hbm, 60, rfl⟩
abbrev main_v33 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_11 : Ref sig .tc := ⟨.hbm, 66, rfl⟩
abbrev main_v37 : Ref sig .tc := ⟨.hbm, 67, rfl⟩
abbrev main_v38 : Ref sig .tc := ⟨.hbm, 68, rfl⟩
abbrev main_cst_12 : Ref sig .tc := ⟨.hbm, 69, rfl⟩
abbrev main_v39 : Ref sig .tc := ⟨.hbm, 70, rfl⟩
abbrev main_v40 : Ref sig .tc := ⟨.hbm, 71, rfl⟩
abbrev main_cst_13 : Ref sig .tc := ⟨.hbm, 72, rfl⟩
abbrev main_v41 : Ref sig .tc := ⟨.hbm, 73, rfl⟩
abbrev main_v42 : Ref sig .tc := ⟨.hbm, 74, rfl⟩
abbrev main_cst_14 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_15 : Ref sig .tc := ⟨.hbm, 83, rfl⟩
abbrev main_v50 : Ref sig .tc := ⟨.hbm, 84, rfl⟩
abbrev main_cst_16 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_17 : Ref sig .tc := ⟨.hbm, 90, rfl⟩
abbrev main_v55 : Ref sig .tc := ⟨.hbm, 91, rfl⟩
abbrev main_cst_18 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_19 : Ref sig .tc := ⟨.hbm, 97, rfl⟩
abbrev main_v60 : Ref sig .tc := ⟨.hbm, 98, rfl⟩
abbrev main_cst_20 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_21 : Ref sig .tc := ⟨.hbm, 105, rfl⟩
abbrev main_v66 : Ref sig .tc := ⟨.hbm, 106, rfl⟩
abbrev main_v67 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_cst : Ref sig .tc := ⟨.hbm, 112, rfl⟩
abbrev main_call3_v4 : Ref sig .tc := ⟨.hbm, 113, rfl⟩
abbrev main_call3_call0_v0 : Ref sig .tc := ⟨.hbm, 114, rfl⟩
abbrev main_call3_call0_cst : Ref sig .tc := ⟨.hbm, 115, rfl⟩
abbrev main_call3_call0_call0_v0 : Ref sig .tc := ⟨.hbm, 116, rfl⟩
abbrev main_call3_call0_v1 : Ref sig .tc := ⟨.hbm, 117, rfl⟩
abbrev main_call3_call0_cst_0 : Ref sig .tc := ⟨.hbm, 118, rfl⟩
abbrev main_call3_v5 : Ref sig .tc := ⟨.hbm, 119, rfl⟩
abbrev main_v68 : Ref sig .tc := ⟨.hbm, 120, rfl⟩
abbrev main_cst_22 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_23 : Ref sig .tc := ⟨.hbm, 125, rfl⟩
abbrev main_v72 : Ref sig .tc := ⟨.hbm, 126, rfl⟩
abbrev main_cst_24 : Ref sig .tc := ⟨.hbm, 127, rfl⟩
abbrev main_v73 : Ref sig .tc := ⟨.hbm, 128, rfl⟩

abbrev nD : Nat := 1
abbrev τ : Topo := Topo.v7x

variable {F : FTy → Type} [FloatOps F]

class Facts₀ : Prop where
  bcast_S8192x1_S8192x4096_0_1 : S8192x1.BroadcastsInDim S8192x4096 (![0, 1] : Fin 2 → Fin S8192x4096.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192 : S_.BroadcastsInDim S8192 (![] : Fin 0 → Fin S8192.rank)
  natLt_1_32 : 1 < 32
  reducesTo_S8192_S_d0 : S8192.ReducesTo [0] S_
  transposes_S8192x4096_S4096x8192_1_0 : S8192x4096.Transposes [1, 0] S4096x8192
  reducesTo_S4096x8192_S4096_d1 : S4096x8192.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  bcast_S_S4096 : S_.BroadcastsInDim S4096 (![] : Fin 0 → Fin S4096.rank)
  reducesTo_S4096_S_d0 : S4096.ReducesTo [0] S_
  reducesTo_S8192x4096_S_d0_1 : S8192x4096.ReducesTo [0, 1] S_

variable [Facts₀]

class Facts : Prop extends Facts₀ where

variable [Facts]
-- ==== Proof.KRun.lean ====
/-
  The tiled program's whole run, read at its results.

  From any memory with zero counters, every weakly fair execution of the program terminates, nothing faulting, and in
  every final state each unscoped buffer of each core holds the last boundary's contents `W6`: the launch memory folded
  through the first pass's write-backs, the host operations between the passes, the second pass's write-backs and the
  host operations after it (`run_all`). Here that run is read at the three result buffers, which are unscoped, and at
  the five argument arrays, which no operation and no pass writes.
-/
import proofs.«173397_j30520037605625_2_alg».proof.Proof.KRunAll

noncomputable section

namespace Cert.KernelIdeal.KRun

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The run read at the three result buffers and the five argument arrays. -/
theorem results_run : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_v36) = W6 m ρ c (Proc.devRef .tc main_v36)
      ∧ r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v44 (by decide)), h c _ (mem_uc main_v36 (by decide)), h c _ (mem_uc main_v30 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.KRun

end
-- ==== Proof.Spec.lean ====
/-
  The mathematics both programs are compared through, over the extended reals, with no program in sight.

  Inputs, as families over literal index types: `sf p : Fin 8192 → Fin 4096 → EReal` (features and predictions, spot by
  gene), `nu : Fin 8192 → EReal` (one weight per spot), `a b : Fin 8192 → Fin 512 → EReal` (two latent codes per spot).
  Three scalars are computed: one minus the mean over spots of the row-wise Pearson correlation of `a` and `b`; the mean
  squared difference of `o = p · nu` and `sf`; one minus the mean over genes of the column-wise Pearson correlation of
  `sf` and `o`.

  The tiled program accumulates per-gene sums (Σ sf, Σ o, Σ sf², Σ o², Σ sf·o) and forms variance and covariance in one
  pass, E[x²] − E[x]², clamped below at zero; for the latent codes it centres first and clamps the variance, and adds the
  two halves of the spots separately (`K_*`). The plain program centres first everywhere and divides by a count obtained
  by summing ones (`R_*`). Float literals stay the words the programs spell (`w512`, `w8192`, …); their real values are
  `w512_eq` … below.
-/
import Idealize.ShloMosaic.PureOps.Ideal
import Idealize.ShloMosaic.PureOps.Ideal.Laws

noncomputable section

namespace Cert.Spec

open Idealize.ShloMosaic

/-! ## The float words the two programs spell, and the reals they denote -/

def w0 : EReal := Ideal.ofBits .f32 0x00000000#32
def w1 : EReal := Ideal.ofBits .f32 0x3F800000#32
def w2 : EReal := Ideal.ofBits .f32 0x40000000#32
def w512 : EReal := Ideal.ofBits .f32 0x44000000#32
def w4096 : EReal := Ideal.ofBits .f32 0x45800000#32
def w8192 : EReal := Ideal.ofBits .f32 0x46000000#32
def w2p25 : EReal := Ideal.ofBits .f32 0x4C000000#32

theorem w0_eq : w0 = 0 := by unfold w0; simp [Ideal.ofBits, Ideal.ieee]
theorem w1_eq : w1 = ((1 : ℝ) : EReal) := by unfold w1; simp [Ideal.ofBits, Ideal.ieee, -EReal.coe_mul]; norm_num
theorem w2_eq : w2 = ((2 : ℝ) : EReal) := by unfold w2; simp [Ideal.ofBits, Ideal.ieee, -EReal.coe_mul]; norm_num
theorem w512_eq : w512 = ((512 : ℝ) : EReal) := by unfold w512; simp [Ideal.ofBits, Ideal.ieee, -EReal.coe_mul]; norm_num
theorem w4096_eq : w4096 = ((4096 : ℝ) : EReal) := by unfold w4096; simp [Ideal.ofBits, Ideal.ieee, -EReal.coe_mul]; norm_num
theorem w8192_eq : w8192 = ((8192 : ℝ) : EReal) := by unfold w8192; simp [Ideal.ofBits, Ideal.ieee, -EReal.coe_mul]; norm_num
theorem w2p25_eq : w2p25 = ((33554432 : ℝ) : EReal) := by unfold w2p25; simp [Ideal.ofBits, Ideal.ieee, -EReal.coe_mul]; norm_num

/-! ## Shared pieces -/

/-- The weighted predictions `o = p · nu`. -/
def scaled (p : Fin 8192 → Fin 4096 → EReal) (nu : Fin 8192 → EReal) : Fin 8192 → Fin 4096 → EReal :=
  fun r c => p r c * nu r

/-- The sum of `f` over one half of the spots: spots `4096·h … 4096·h + 4095`. -/
def halfSum (f : Fin 8192 → EReal) (h : Fin 2) : EReal :=
  ∑ j : Fin 4096, f ⟨4096 * h.val + j.val, by have := h.isLt; have := j.isLt; omega⟩

/-! ## The plain program's forms: centre first, divide by the count word, start every sum from the zero word -/

/-- The mean as the plain program takes it: the zero word plus the sum, over the count word `n`. -/
def meanR {K : Type} [Fintype K] (n : EReal) (x : K → EReal) : EReal := Ideal.div (w0 + ∑ k, x k) n

/-- Two-pass Pearson correlation of two finite families with count word `n`. -/
def pearsonR {K : Type} [Fintype K] (n : EReal) (x y : K → EReal) : EReal :=
  Ideal.div (meanR n fun k => (x k - meanR n x) * (y k - meanR n y))
    (Ideal.sqrt (meanR n fun k => (x k - meanR n x) * (x k - meanR n x))
      * Ideal.sqrt (meanR n fun k => (y k - meanR n y) * (y k - meanR n y)))

def R_lat (a b : Fin 8192 → Fin 512 → EReal) : EReal :=
  w1 - Ideal.div (w0 + ∑ i : Fin 8192, pearsonR w512 (a i) (b i)) (w0 + ∑ _i : Fin 8192, (1 : EReal))

def R_mse (sf o : Fin 8192 → Fin 4096 → EReal) : EReal :=
  Ideal.div (w0 + ∑ r : Fin 8192, ∑ c : Fin 4096, (o r c - sf r c) * (o r c - sf r c)) w2p25

def R_pcc (sf o : Fin 8192 → Fin 4096 → EReal) : EReal :=
  w1 - Ideal.div (w0 + ∑ c : Fin 4096, pearsonR w8192 (fun r => sf r c) (fun r => o r c)) (w0 + ∑ _c : Fin 4096, (1 : EReal))

/-! ## The tiled program's forms -/

/-- The mean as the tiled program's body takes it: the bare sum over the count word. -/
def meanK {K : Type} [Fintype K] (n : EReal) (x : K → EReal) : EReal := Ideal.div (∑ k, x k) n

/-- Pearson correlation as the tiled program's second body takes it: centred, each variance clamped below at the zero word. -/
def pearsonK {K : Type} [Fintype K] (n : EReal) (x y : K → EReal) : EReal :=
  Ideal.div (meanK n fun k => (x k - meanK n x) * (y k - meanK n y))
    (Ideal.sqrt (max (meanK n fun k => (x k - meanK n x) * (x k - meanK n x)) w0)
      * Ideal.sqrt (max (meanK n fun k => (y k - meanK n y) * (y k - meanK n y)) w0))

/-- The per-spot latent correlation of the tiled program. -/
def rowK (a b : Fin 8192 → Fin 512 → EReal) : Fin 8192 → EReal := fun i => pearsonK w512 (a i) (b i)

/-- The sum of `f` down one gene's column. -/
def colSum (f : Fin 8192 → Fin 4096 → EReal) (c : Fin 4096) : EReal := ∑ r : Fin 8192, f r c

/-- One gene's correlation from its five column sums, in one pass: means `S/N`, variances `Q/N − mean²` clamped below at
    the zero word, covariance `X/N − mean₁·mean₂`. -/
def pccCol (S1 S2 Q1 Q2 X : EReal) : EReal :=
  Ideal.div (Ideal.div X w8192 - Ideal.div S1 w8192 * Ideal.div S2 w8192)
    (Ideal.sqrt (max (Ideal.div Q1 w8192 - Ideal.div S1 w8192 * Ideal.div S1 w8192) w0)
      * Ideal.sqrt (max (Ideal.div Q2 w8192 - Ideal.div S2 w8192 * Ideal.div S2 w8192) w0))

def K_lat (a b : Fin 8192 → Fin 512 → EReal) : EReal :=
  w1 - Ideal.div (halfSum (rowK a b) 0 + halfSum (rowK a b) 1) w8192

def K_mse (sf o : Fin 8192 → Fin 4096 → EReal) : EReal :=
  Ideal.div (w0 + ∑ c : Fin 4096,
      ((colSum (fun r c => sf r c * sf r c) c - w2 * colSum (fun r c => sf r c * o r c) c)
        + colSum (fun r c => o r c * o r c) c)) w2p25

def K_pcc (sf o : Fin 8192 → Fin 4096 → EReal) : EReal :=
  w1 - Ideal.div (w0 + ∑ c : Fin 4096,
      pccCol (colSum sf c) (colSum o c) (colSum (fun r c => sf r c * sf r c) c) (colSum (fun r c => o r c * o r c) c)
        (colSum (fun r c => sf r c * o r c) c)) w4096

end Cert.Spec

end
-- ==== Proof.Arr.lean ====
/-
  Arrays as families over their coordinates: a rank-2 array read at the index built from a row and a column, and a
  one-column array read at a row. Every statement about a program's buffers is made through these two readings, so the
  mathematics in `Spec` never meets an index type.
-/
import Idealize.ShloMosaic.Lib.ValueIdx
import proofs.«173397_j30520037605625_2_alg».proof.Proof.Spec

noncomputable section

namespace Cert.Spec

open Idealize.ShloMosaic Idealize.ShloMosaic.ValueIdx

/-- A rank-2 array as a family over (row, column). -/
def arr2 {n0 n1 : Nat} (x : (⟨2, ![n0, n1]⟩ : Shape).Idx → EReal) : Fin n0 → Fin n1 → EReal := fun r c => x (ix2 r c)

/-- A one-column array as a family over its rows. -/
def col1 {n0 : Nat} (x : (⟨2, ![n0, 1]⟩ : Shape).Idx → EReal) : Fin n0 → EReal := fun r => x (ix2 r (0 : Fin 1))

end Cert.Spec

end
-- ==== Proof.Iface.lean ====
/-
  What each of the tiled program's two accumulation passes leaves in its result arrays, as propositions about the
  arrays the pass is entered with (`V`).

  The first pass walks 2 column chunks × 16 row tiles and leaves, for every gene `g`, the five column sums over all 8192
  spots: Σ sf, Σ o, Σ sf², Σ o², Σ sf·o with `o = p · nu`. The second pass walks 2 halves × 2 row tiles of the spots
  and leaves, in every lane of half `h`'s 128-lane slot, the sum over that half's 4096 spots of the per-spot latent
  correlation.
-/
import proofs.«173397_j30520037605625_2_alg».proof.Proof.Gen.KernelIdeal.Frame
import proofs.«173397_j30520037605625_2_alg».proof.Proof.Arr

noncomputable section

namespace Cert.KernelIdeal.Iface

open Cert.KernelIdeal Cert.KernelIdeal.Gen Cert.Spec
open Idealize.ShloMosaic Idealize.ShloMosaic.TcCoe Idealize.ShloMosaic.ValueIdx Idealize.SL.Sem

/-- After the first pass: each of its five result arrays holds, at gene `g`, the named column sum. -/
def Region0 (V : (c : Dev nD) → (b : Ref sig .tc) → Buf (Elt Ideal) ((c : Thread nD τ).loc b)) : Prop :=
  ∀ (c : Dev nD) (g : Fin 4096),
    (dat0 (F := Ideal) V c).arrAt 3 cfg0.N (ix2 (0 : Fin 1) g) = colSum (arr2 (V c main_arg0)) g
    ∧ (dat0 (F := Ideal) V c).arrAt 4 cfg0.N (ix2 (0 : Fin 1) g)
        = colSum (scaled (arr2 (V c main_arg1)) (col1 (V c main_arg4))) g
    ∧ (dat0 (F := Ideal) V c).arrAt 5 cfg0.N (ix2 (0 : Fin 1) g)
        = colSum (fun r k => arr2 (V c main_arg0) r k * arr2 (V c main_arg0) r k) g
    ∧ (dat0 (F := Ideal) V c).arrAt 6 cfg0.N (ix2 (0 : Fin 1) g)
        = colSum (fun r k => scaled (arr2 (V c main_arg1)) (col1 (V c main_arg4)) r k
            * scaled (arr2 (V c main_arg1)) (col1 (V c main_arg4)) r k) g
    ∧ (dat0 (F := Ideal) V c).arrAt 7 cfg0.N (ix2 (0 : Fin 1) g)
        = colSum (fun r k => arr2 (V c main_arg0) r k * scaled (arr2 (V c main_arg1)) (col1 (V c main_arg4)) r k) g

/-- After the second pass: lane `l` of its result array holds the sum of the per-spot correlations over half `l / 128`
    of the spots. -/
def Region1 (V : (c : Dev nD) → (b : Ref sig .tc) → Buf (Elt Ideal) ((c : Thread nD τ).loc b)) : Prop :=
  ∀ (c : Dev nD) (l : Fin 256),
    (dat1 (F := Ideal) V c).arrAt 2 cfg1.N (ix2 (0 : Fin 1) l)
      = halfSum (rowK (arr2 (V c main_arg2)) (arr2 (V c main_arg3))) ⟨l.val / 128, by have := l.isLt; omega⟩

/-- What the whole tiled program leaves in its three result buffers, as the last boundary's contents `W6` read at them:
    the three scalars of `Spec` in their tiled forms, of the launch memory's argument arrays. -/
def Results (m : (ℓ : Loc nD τ sig) → Buf (Elt Ideal) ℓ) (ρ : Dev nD → PrngReg) : Prop :=
  ∀ c : Dev nD,
    W6 (F := Ideal) m ρ c (Proc.devRef .tc main_v44)
        = (fun _ => K_lat (arr2 (m ((c.tc : Thread nD τ).loc main_arg2))) (arr2 (m ((c.tc : Thread nD τ).loc main_arg3))))
    ∧ W6 (F := Ideal) m ρ c (Proc.devRef .tc main_v36)
        = (fun _ => K_mse (arr2 (m ((c.tc : Thread nD τ).loc main_arg0)))
            (scaled (arr2 (m ((c.tc : Thread nD τ).loc main_arg1))) (col1 (m ((c.tc : Thread nD τ).loc main_arg4)))))
    ∧ W6 (F := Ideal) m ρ c (Proc.devRef .tc main_v30)
        = (fun _ => K_pcc (arr2 (m ((c.tc : Thread nD τ).loc main_arg0)))
            (scaled (arr2 (m ((c.tc : Thread nD τ).loc main_arg1))) (col1 (m ((c.tc : Thread nD τ).loc main_arg4)))))

end Cert.KernelIdeal.Iface

end
-- ==== Proof.Assemble.lean ====
/-
  The claims, assembled from their parts taken as hypotheses.

  The tiled program's run ends with its three results at the last boundary's contents; those are the tiled forms
  `K_lat`, `K_mse`, `K_pcc` of the launch memory's argument arrays (`hres`). The plain program's run ends with every
  buffer at the fold of its operations over its launch memory (`hrun`), whose three results are the plain forms `R_lat`,
  `R_mse`, `R_pcc` of its argument arrays (`h34`, `h73`, `h69`), and no operation writes an argument (`hk0` … `hk4`).
  Under the precondition every entry of every argument is a real number (`hfin`), and for real entries the tiled and
  the plain forms are equal (`hlat`, `hmse`, `hpcc`). With the two memories agreeing on the arguments, the results are
  equal, element by element.
-/
import proofs.«173397_j30520037605625_2_alg».proof.Defs
import proofs.«173397_j30520037605625_2_alg».proof.Proof.Gen.ReferenceIdeal
import proofs.«173397_j30520037605625_2_alg».proof.Proof.Gen.Pre_finite_inputs
import proofs.«173397_j30520037605625_2_alg».proof.Proof.KRun
import proofs.«173397_j30520037605625_2_alg».proof.Proof.Iface
import Idealize.ShloMosaic.Lib.StableHlo.Run

noncomputable section

namespace Cert.Proof.Assemble

open Idealize.ShloMosaic Idealize.ShloMosaic.TcCoe Idealize.SL.Sem Idealize.ShloMosaic.StableHlo
open Cert.Spec

/-- The plain program's frame from its run: the run ends with every buffer at the fold of the operations, and the fold
    leaves each argument as launched. -/
theorem frame_ri (ops : List (HloOp Cert.ReferenceIdeal.τ Cert.ReferenceIdeal.sig (Elt Ideal)))
    (hrun : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ fun r =>
        ∀ (c : Dev Cert.ReferenceIdeal.nD) (b : Ref Cert.ReferenceIdeal.sig .tc), r.2.mem ((c.tc : Thread Cert.ReferenceIdeal.nD Cert.ReferenceIdeal.τ).loc b) = after ops (launchContents m c) (b : DevRef Cert.ReferenceIdeal.τ Cert.ReferenceIdeal.sig))
    (hk0 : ∀ V : Valuation Cert.ReferenceIdeal.τ Cert.ReferenceIdeal.sig (Elt Ideal), after ops V (Cert.ReferenceIdeal.main_arg0 : DevRef Cert.ReferenceIdeal.τ Cert.ReferenceIdeal.sig) = V (Cert.ReferenceIdeal.main_arg0 : DevRef Cert.ReferenceIdeal.τ Cert.ReferenceIdeal.sig))
    (hk1 : ∀ V : Valuation Cert.ReferenceIdeal.τ Cert.ReferenceIdeal.sig (Elt Ideal), after ops V (Cert.ReferenceIdeal.main_arg1 : DevRef Cert.ReferenceIdeal.τ Cert.ReferenceIdeal.sig) = V (Cert.ReferenceIdeal.main_arg1 : DevRef Cert.ReferenceIdeal.τ Cert.ReferenceIdeal.sig))
    (hk2 : ∀ V : Valuation Cert.ReferenceIdeal.τ Cert.ReferenceIdeal.sig (Elt Ideal), after ops V (Cert.ReferenceIdeal.main_arg2 : DevRef Cert.ReferenceIdeal.τ Cert.ReferenceIdeal.sig) = V (Cert.ReferenceIdeal.main_arg2 : DevRef Cert.ReferenceIdeal.τ Cert.ReferenceIdeal.sig))
    (hk3 : ∀ V : Valuation Cert.ReferenceIdeal.τ Cert.ReferenceIdeal.sig (Elt Ideal), after ops V (Cert.ReferenceIdeal.main_arg3 : DevRef Cert.ReferenceIdeal.τ Cert.ReferenceIdeal.sig) = V (Cert.ReferenceIdeal.main_arg3 : DevRef Cert.ReferenceIdeal.τ Cert.ReferenceIdeal.sig))
    (hk4 : ∀ V : Valuation Cert.ReferenceIdeal.τ Cert.ReferenceIdeal.sig (Elt Ideal), after ops V (Cert.ReferenceIdeal.main_arg4 : DevRef Cert.ReferenceIdeal.τ Cert.ReferenceIdeal.sig) = V (Cert.ReferenceIdeal.main_arg4 : DevRef Cert.ReferenceIdeal.τ Cert.ReferenceIdeal.sig)) :
    Cert.frame_ReferenceIdeal := fun m ρ _ =>
  (θ_run (Cert.ReferenceIdeal.defs (F := Ideal)) _ _).mono (fun r h c =>
    ⟨(h c Cert.ReferenceIdeal.main_arg0).trans (hk0 _), (h c Cert.ReferenceIdeal.main_arg1).trans (hk1 _), (h c Cert.ReferenceIdeal.main_arg2).trans (hk2 _),
     (h c Cert.ReferenceIdeal.main_arg3).trans (hk3 _), (h c Cert.ReferenceIdeal.main_arg4).trans (hk4 _)⟩) (hrun m ρ)

/-- The two idealized programs end with equal results. -/
theorem algebraic (ops : List (HloOp Cert.ReferenceIdeal.τ Cert.ReferenceIdeal.sig (Elt Ideal)))
    (hres : ∀ (m : (ℓ : Loc Cert.KernelIdeal.nD Cert.KernelIdeal.τ Cert.KernelIdeal.sig) → Buf (Elt Ideal) ℓ) (ρ : Dev Cert.KernelIdeal.nD → PrngReg), Cert.KernelIdeal.Iface.Results m ρ)
    (hrun : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ fun r =>
        ∀ (c : Dev Cert.ReferenceIdeal.nD) (b : Ref Cert.ReferenceIdeal.sig .tc), r.2.mem ((c.tc : Thread Cert.ReferenceIdeal.nD Cert.ReferenceIdeal.τ).loc b) = after ops (launchContents m c) (b : DevRef Cert.ReferenceIdeal.τ Cert.ReferenceIdeal.sig))
    (hk0 : ∀ V : Valuation Cert.ReferenceIdeal.τ Cert.ReferenceIdeal.sig (Elt Ideal), after ops V (Cert.ReferenceIdeal.main_arg0 : DevRef Cert.ReferenceIdeal.τ Cert.ReferenceIdeal.sig) = V (Cert.ReferenceIdeal.main_arg0 : DevRef Cert.ReferenceIdeal.τ Cert.ReferenceIdeal.sig))
    (hk1 : ∀ V : Valuation Cert.ReferenceIdeal.τ Cert.ReferenceIdeal.sig (Elt Ideal), after ops V (Cert.ReferenceIdeal.main_arg1 : DevRef Cert.ReferenceIdeal.τ Cert.ReferenceIdeal.sig) = V (Cert.ReferenceIdeal.main_arg1 : DevRef Cert.ReferenceIdeal.τ Cert.ReferenceIdeal.sig))
    (hk2 : ∀ V : Valuation Cert.ReferenceIdeal.τ Cert.ReferenceIdeal.sig (Elt Ideal), after ops V (Cert.ReferenceIdeal.main_arg2 : DevRef Cert.ReferenceIdeal.τ Cert.ReferenceIdeal.sig) = V (Cert.ReferenceIdeal.main_arg2 : DevRef Cert.ReferenceIdeal.τ Cert.ReferenceIdeal.sig))
    (hk3 : ∀ V : Valuation Cert.ReferenceIdeal.τ Cert.ReferenceIdeal.sig (Elt Ideal), after ops V (Cert.ReferenceIdeal.main_arg3 : DevRef Cert.ReferenceIdeal.τ Cert.ReferenceIdeal.sig) = V (Cert.ReferenceIdeal.main_arg3 : DevRef Cert.ReferenceIdeal.τ Cert.ReferenceIdeal.sig))
    (hk4 : ∀ V : Valuation Cert.ReferenceIdeal.τ Cert.ReferenceIdeal.sig (Elt Ideal), after ops V (Cert.ReferenceIdeal.main_arg4 : DevRef Cert.ReferenceIdeal.τ Cert.ReferenceIdeal.sig) = V (Cert.ReferenceIdeal.main_arg4 : DevRef Cert.ReferenceIdeal.τ Cert.ReferenceIdeal.sig))
    (h34 : ∀ V : Valuation Cert.ReferenceIdeal.τ Cert.ReferenceIdeal.sig (Elt Ideal), after ops V (Cert.ReferenceIdeal.main_v34 : DevRef Cert.ReferenceIdeal.τ Cert.ReferenceIdeal.sig)
      = fun _ => R_lat (arr2 (V (Cert.ReferenceIdeal.main_arg2 : DevRef Cert.ReferenceIdeal.τ Cert.ReferenceIdeal.sig))) (arr2 (V (Cert.ReferenceIdeal.main_arg3 : DevRef Cert.ReferenceIdeal.τ Cert.ReferenceIdeal.sig))))
    (h73 : ∀ V : Valuation Cert.ReferenceIdeal.τ Cert.ReferenceIdeal.sig (Elt Ideal), after ops V (Cert.ReferenceIdeal.main_v73 : DevRef Cert.ReferenceIdeal.τ Cert.ReferenceIdeal.sig)
      = fun _ => R_mse (arr2 (V (Cert.ReferenceIdeal.main_arg0 : DevRef Cert.ReferenceIdeal.τ Cert.ReferenceIdeal.sig)))
          (scaled (arr2 (V (Cert.ReferenceIdeal.main_arg1 : DevRef Cert.ReferenceIdeal.τ Cert.ReferenceIdeal.sig))) (col1 (V (Cert.ReferenceIdeal.main_arg4 : DevRef Cert.ReferenceIdeal.τ Cert.ReferenceIdeal.sig)))))
    (h69 : ∀ V : Valuation Cert.ReferenceIdeal.τ Cert.ReferenceIdeal.sig (Elt Ideal), after ops V (Cert.ReferenceIdeal.main_v69 : DevRef Cert.ReferenceIdeal.τ Cert.ReferenceIdeal.sig)
      = fun _ => R_pcc (arr2 (V (Cert.ReferenceIdeal.main_arg0 : DevRef Cert.ReferenceIdeal.τ Cert.ReferenceIdeal.sig)))
          (scaled (arr2 (V (Cert.ReferenceIdeal.main_arg1 : DevRef Cert.ReferenceIdeal.τ Cert.ReferenceIdeal.sig))) (col1 (V (Cert.ReferenceIdeal.main_arg4 : DevRef Cert.ReferenceIdeal.τ Cert.ReferenceIdeal.sig)))))
    (hfin : ∀ (m : (ℓ : Loc Cert.KernelIdeal.nD Cert.KernelIdeal.τ Cert.KernelIdeal.sig) → Buf (Elt Ideal) ℓ), Cert.Pre_KernelIdeal m → ∀ c : Dev Cert.KernelIdeal.nD,
        (∀ r k, ∃ x : ℝ, arr2 (m ((c.tc : Thread Cert.KernelIdeal.nD Cert.KernelIdeal.τ).loc Cert.KernelIdeal.main_arg0)) r k = (x : EReal))
      ∧ (∀ r k, ∃ x : ℝ, arr2 (m ((c.tc : Thread Cert.KernelIdeal.nD Cert.KernelIdeal.τ).loc Cert.KernelIdeal.main_arg1)) r k = (x : EReal))
      ∧ (∀ i k, ∃ x : ℝ, arr2 (m ((c.tc : Thread Cert.KernelIdeal.nD Cert.KernelIdeal.τ).loc Cert.KernelIdeal.main_arg2)) i k = (x : EReal))
      ∧ (∀ i k, ∃ x : ℝ, arr2 (m ((c.tc : Thread Cert.KernelIdeal.nD Cert.KernelIdeal.τ).loc Cert.KernelIdeal.main_arg3)) i k = (x : EReal))
      ∧ (∀ r, ∃ x : ℝ, col1 (m ((c.tc : Thread Cert.KernelIdeal.nD Cert.KernelIdeal.τ).loc Cert.KernelIdeal.main_arg4)) r = (x : EReal)))
    (hlat : ∀ (a b : Fin 8192 → Fin 512 → EReal), (∀ i k, ∃ x : ℝ, a i k = (x : EReal)) → (∀ i k, ∃ x : ℝ, b i k = (x : EReal)) →
      K_lat a b = R_lat a b)
    (hmse : ∀ (sf p : Fin 8192 → Fin 4096 → EReal) (nu : Fin 8192 → EReal), (∀ r c, ∃ x : ℝ, sf r c = (x : EReal)) →
      (∀ r c, ∃ x : ℝ, p r c = (x : EReal)) → (∀ r, ∃ x : ℝ, nu r = (x : EReal)) → K_mse sf (scaled p nu) = R_mse sf (scaled p nu))
    (hpcc : ∀ (sf p : Fin 8192 → Fin 4096 → EReal) (nu : Fin 8192 → EReal), (∀ r c, ∃ x : ℝ, sf r c = (x : EReal)) →
      (∀ r c, ∃ x : ℝ, p r c = (x : EReal)) → (∀ r, ∃ x : ℝ, nu r = (x : EReal)) → K_pcc sf (scaled p nu) = R_pcc sf (scaled p nu)) :
    Cert.algebraic_KernelIdeal_ReferenceIdeal := by
  intro m ρ m' ρ' hpre hagree
  refine ⟨fun c => fun _ => K_lat (arr2 (m ((c.tc : Thread Cert.KernelIdeal.nD Cert.KernelIdeal.τ).loc Cert.KernelIdeal.main_arg2))) (arr2 (m ((c.tc : Thread Cert.KernelIdeal.nD Cert.KernelIdeal.τ).loc Cert.KernelIdeal.main_arg3))),
    fun c => fun _ => K_mse (arr2 (m ((c.tc : Thread Cert.KernelIdeal.nD Cert.KernelIdeal.τ).loc Cert.KernelIdeal.main_arg0)))
      (scaled (arr2 (m ((c.tc : Thread Cert.KernelIdeal.nD Cert.KernelIdeal.τ).loc Cert.KernelIdeal.main_arg1))) (col1 (m ((c.tc : Thread Cert.KernelIdeal.nD Cert.KernelIdeal.τ).loc Cert.KernelIdeal.main_arg4)))),
    fun c => fun _ => K_pcc (arr2 (m ((c.tc : Thread Cert.KernelIdeal.nD Cert.KernelIdeal.τ).loc Cert.KernelIdeal.main_arg0)))
      (scaled (arr2 (m ((c.tc : Thread Cert.KernelIdeal.nD Cert.KernelIdeal.τ).loc Cert.KernelIdeal.main_arg1))) (col1 (m ((c.tc : Thread Cert.KernelIdeal.nD Cert.KernelIdeal.τ).loc Cert.KernelIdeal.main_arg4)))), ?_, ?_⟩
  · exact (θ_run (Cert.KernelIdeal.defs (F := Ideal)) _ _).mono (fun r h c =>
      ⟨(h c).1.trans (hres m ρ c).1, (h c).2.1.trans (hres m ρ c).2.1, (h c).2.2.1.trans (hres m ρ c).2.2, (h c).2.2.2⟩)
      (Cert.KernelIdeal.KRun.results_run m ρ)
  · refine (θ_run (Cert.ReferenceIdeal.defs (F := Ideal)) _ _).mono (fun r h c => ?_) (hrun m' ρ')
    obtain ⟨e0, e1, e2, e3, e4⟩ := hagree c
    obtain ⟨f0, f1, f2, f3, f4⟩ := hfin m hpre c
    have a0 : launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := e0
    have a1 : launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := e1
    have a2 : launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) := e2
    have a3 : launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := e3
    have a4 : launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := e4
    refine ⟨?_, ?_, ?_, (h c Cert.ReferenceIdeal.main_arg0).trans (hk0 _), (h c Cert.ReferenceIdeal.main_arg1).trans (hk1 _), (h c Cert.ReferenceIdeal.main_arg2).trans (hk2 _),
      (h c Cert.ReferenceIdeal.main_arg3).trans (hk3 _), (h c Cert.ReferenceIdeal.main_arg4).trans (hk4 _)⟩
    · rw [h c Cert.ReferenceIdeal.main_v34, h34, a2, a3]; exact funext fun _ => (hlat _ _ f2 f3).symm
    · rw [h c Cert.ReferenceIdeal.main_v73, h73, a0, a1, a4]; exact funext fun _ => (hmse _ _ _ f0 f1 f4).symm
    · rw [h c Cert.ReferenceIdeal.main_v69, h69, a0, a1, a4]; exact funext fun _ => (hpcc _ _ _ f0 f1 f4).symm

end Cert.Proof.Assemble

end
-- ==== Proof.Region0Piece.lean ====
/-
  The first accumulation pass, one grid point at a time: what the body leaves in each of its five resident result
  blocks, as the body's own arithmetic applied to the three input blocks and to what the block held before. At a chunk's
  first row tile the block is first set to zero; at every other tile it keeps what the tile before left.
-/
import proofs.«173397_j30520037605625_2_alg».proof.Proof.Iface
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable {F : FTy → Type} [FloatOps F]

theorem hz : (![0, 0] : Fin 2 → Nat) = fun _ => 0 := funext fun a => by fin_cases a <;> rfl

/-- Away from a chunk's first tile the body leaves in result block 0 (the features' column sums) its accumulation
    payload over what the block held. -/
theorem out_B_3 (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (hc : ¬cond0_0 i)
    (x0 x1 : Vec F S512x2048 .f32) (x2 : Vec F S512x1 .f32) (xo3 xo4 xo5 xo6 xo7 : Vec F S1x2048 .f32) :
    out0_B_3 c i a2 h2 a3 h3 a4 h4 a5 h5 a6 h6 a7 h7 a8 h8 a9 h9 hc x0 x1 x2 xo3 xo4 xo5 xo6 xo7 = k0_pay9 x0 xo3 := by
  unfold out0_B_3
  rw [View.read_writes_eq_canon _ _ _ (cover0_B_3 c i a2 h2 a3 h3 a4 h4 a5 h5 a6 h6 a7 h7 a8 h8 a9 h9 hc x0 x1 x2 xo3 xo4 xo5 xo6 xo7)]
  unfold kernelRun0_B
  dsimp only
  rw [View.canon_unit_zero hz]
  simp only [View.readAt_eq_ld, h2.read_unread, h3.read_unread, h4.read_unread, h5.read_unread, h6.read_unread,
    h7.read_unread, h8.read_unread, h9.read_unread, View.ld_unit_zero (S := S512x2048) hz,
    View.ld_unit_zero (S := S1x2048) hz, View.ld_unit_zero (S := S512x1) hz]

/-- At a chunk's first tile the body first stores the zero block and then leaves in result block 0 its accumulation
    payload over that zero block. -/
theorem out_A_3 (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (hc : cond0_0 i)
    (x0 x1 : Vec F S512x2048 .f32) (x2 : Vec F S512x1 .f32) :
    out0_A_3 c i a2 h2 a3 h3 a4 h4 a5 h5 a6 h6 a7 h7 a8 h8 a9 h9 hc x0 x1 x2 = k0_pay9 x0 (k0_pay3 (F := F)) := by
  unfold out0_A_3
  rw [View.read_writes_eq_canon _ _ _ (cover0_A_3 c i a2 h2 a3 h3 a4 h4 a5 h5 a6 h6 a7 h7 a8 h8 a9 h9 hc x0 x1 x2)]
  unfold kernelRun0_A
  dsimp only
  sl_unfold_words
  rw [View.canon_cons_unit_zero (S := S1x2048) hz, View.readCov_unit_zero (S := S1x2048) _ hz]
  simp only [View.readAt_eq_ld, h2.read_unread, h3.read_unread, h4.read_unread, View.ld_unit_zero (S := S512x2048) hz,
    View.ld_unit_zero (S := S1x2048) hz, View.ld_unit_zero (S := S512x1) hz]

/-- Away from a chunk's first tile the body leaves in result block 1 (the weighted predictions' column sums) its accumulation
    payload over what the block held. -/
theorem out_B_4 (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (hc : ¬cond0_0 i)
    (x0 x1 : Vec F S512x2048 .f32) (x2 : Vec F S512x1 .f32) (xo3 xo4 xo5 xo6 xo7 : Vec F S1x2048 .f32) :
    out0_B_4 c i a2 h2 a3 h3 a4 h4 a5 h5 a6 h6 a7 h7 a8 h8 a9 h9 hc x0 x1 x2 xo3 xo4 xo5 xo6 xo7 = k0_pay10 x1 x2 xo4 := by
  unfold out0_B_4
  rw [View.read_writes_eq_canon _ _ _ (cover0_B_4 c i a2 h2 a3 h3 a4 h4 a5 h5 a6 h6 a7 h7 a8 h8 a9 h9 hc x0 x1 x2 xo3 xo4 xo5 xo6 xo7)]
  unfold kernelRun0_B
  dsimp only
  rw [View.canon_unit_zero hz]
  simp only [View.readAt_eq_ld, h2.read_unread, h3.read_unread, h4.read_unread, h5.read_unread, h6.read_unread,
    h7.read_unread, h8.read_unread, h9.read_unread, View.ld_unit_zero (S := S512x2048) hz,
    View.ld_unit_zero (S := S1x2048) hz, View.ld_unit_zero (S := S512x1) hz]

/-- At a chunk's first tile the body first stores the zero block and then leaves in result block 1 its accumulation
    payload over that zero block. -/
theorem out_A_4 (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (hc : cond0_0 i)
    (x0 x1 : Vec F S512x2048 .f32) (x2 : Vec F S512x1 .f32) :
    out0_A_4 c i a2 h2 a3 h3 a4 h4 a5 h5 a6 h6 a7 h7 a8 h8 a9 h9 hc x0 x1 x2 = k0_pay10 x1 x2 (k0_pay4 (F := F)) := by
  unfold out0_A_4
  rw [View.read_writes_eq_canon _ _ _ (cover0_A_4 c i a2 h2 a3 h3 a4 h4 a5 h5 a6 h6 a7 h7 a8 h8 a9 h9 hc x0 x1 x2)]
  unfold kernelRun0_A
  dsimp only
  sl_unfold_words
  rw [View.canon_cons_unit_zero (S := S1x2048) hz, View.readCov_unit_zero (S := S1x2048) _ hz]
  simp only [View.readAt_eq_ld, h2.read_unread, h3.read_unread, h4.read_unread, View.ld_unit_zero (S := S512x2048) hz,
    View.ld_unit_zero (S := S1x2048) hz, View.ld_unit_zero (S := S512x1) hz]

/-- Away from a chunk's first tile the body leaves in result block 2 (the column sums of the squared features) its accumulation
    payload over what the block held. -/
theorem out_B_5 (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (hc : ¬cond0_0 i)
    (x0 x1 : Vec F S512x2048 .f32) (x2 : Vec F S512x1 .f32) (xo3 xo4 xo5 xo6 xo7 : Vec F S1x2048 .f32) :
    out0_B_5 c i a2 h2 a3 h3 a4 h4 a5 h5 a6 h6 a7 h7 a8 h8 a9 h9 hc x0 x1 x2 xo3 xo4 xo5 xo6 xo7 = k0_pay11 x0 xo5 := by
  unfold out0_B_5
  rw [View.read_writes_eq_canon _ _ _ (cover0_B_5 c i a2 h2 a3 h3 a4 h4 a5 h5 a6 h6 a7 h7 a8 h8 a9 h9 hc x0 x1 x2 xo3 xo4 xo5 xo6 xo7)]
  unfold kernelRun0_B
  dsimp only
  rw [View.canon_unit_zero hz]
  simp only [View.readAt_eq_ld, h2.read_unread, h3.read_unread, h4.read_unread, h5.read_unread, h6.read_unread,
    h7.read_unread, h8.read_unread, h9.read_unread, View.ld_unit_zero (S := S512x2048) hz,
    View.ld_unit_zero (S := S1x2048) hz, View.ld_unit_zero (S := S512x1) hz]

/-- At a chunk's first tile the body first stores the zero block and then leaves in result block 2 its accumulation
    payload over that zero block. -/
theorem out_A_5 (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (hc : cond0_0 i)
    (x0 x1 : Vec F S512x2048 .f32) (x2 : Vec F S512x1 .f32) :
    out0_A_5 c i a2 h2 a3 h3 a4 h4 a5 h5 a6 h6 a7 h7 a8 h8 a9 h9 hc x0 x1 x2 = k0_pay11 x0 (k0_pay5 (F := F)) := by
  unfold out0_A_5
  rw [View.read_writes_eq_canon _ _ _ (cover0_A_5 c i a2 h2 a3 h3 a4 h4 a5 h5 a6 h6 a7 h7 a8 h8 a9 h9 hc x0 x1 x2)]
  unfold kernelRun0_A
  dsimp only
  sl_unfold_words
  rw [View.canon_cons_unit_zero (S := S1x2048) hz, View.readCov_unit_zero (S := S1x2048) _ hz]
  simp only [View.readAt_eq_ld, h2.read_unread, h3.read_unread, h4.read_unread, View.ld_unit_zero (S := S512x2048) hz,
    View.ld_unit_zero (S := S1x2048) hz, View.ld_unit_zero (S := S512x1) hz]

/-- Away from a chunk's first tile the body leaves in result block 3 (the column sums of the squared weighted predictions) its accumulation
    payload over what the block held. -/
theorem out_B_6 (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (hc : ¬cond0_0 i)
    (x0 x1 : Vec F S512x2048 .f32) (x2 : Vec F S512x1 .f32) (xo3 xo4 xo5 xo6 xo7 : Vec F S1x2048 .f32) :
    out0_B_6 c i a2 h2 a3 h3 a4 h4 a5 h5 a6 h6 a7 h7 a8 h8 a9 h9 hc x0 x1 x2 xo3 xo4 xo5 xo6 xo7 = k0_pay1 (k0_pay8 x1 x2) (k0_pay12 xo6) := by
  unfold out0_B_6
  rw [View.read_writes_eq_canon _ _ _ (cover0_B_6 c i a2 h2 a3 h3 a4 h4 a5 h5 a6 h6 a7 h7 a8 h8 a9 h9 hc x0 x1 x2 xo3 xo4 xo5 xo6 xo7)]
  unfold kernelRun0_B
  dsimp only
  sl_unfold_words
  rw [View.canon_unit_zero hz]
  simp only [View.readAt_eq_ld, h2.read_unread, h3.read_unread, h4.read_unread, h5.read_unread, h6.read_unread,
    h7.read_unread, h8.read_unread, h9.read_unread, View.ld_unit_zero (S := S512x2048) hz,
    View.ld_unit_zero (S := S1x2048) hz, View.ld_unit_zero (S := S512x1) hz]

/-- At a chunk's first tile the body first stores the zero block and then leaves in result block 3 its accumulation
    payload over that zero block. -/
theorem out_A_6 (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (hc : cond0_0 i)
    (x0 x1 : Vec F S512x2048 .f32) (x2 : Vec F S512x1 .f32) :
    out0_A_6 c i a2 h2 a3 h3 a4 h4 a5 h5 a6 h6 a7 h7 a8 h8 a9 h9 hc x0 x1 x2 = k0_pay1 (k0_pay8 x1 x2) (k0_pay12 (k0_pay6 (F := F))) := by
  unfold out0_A_6
  rw [View.read_writes_eq_canon _ _ _ (cover0_A_6 c i a2 h2 a3 h3 a4 h4 a5 h5 a6 h6 a7 h7 a8 h8 a9 h9 hc x0 x1 x2)]
  unfold kernelRun0_A
  dsimp only
  sl_unfold_words
  rw [View.canon_cons_unit_zero (S := S1x2048) hz, View.readCov_unit_zero (S := S1x2048) _ hz]
  simp only [View.readAt_eq_ld, h2.read_unread, h3.read_unread, h4.read_unread, View.ld_unit_zero (S := S512x2048) hz,
    View.ld_unit_zero (S := S1x2048) hz, View.ld_unit_zero (S := S512x1) hz]

/-- Away from a chunk's first tile the body leaves in result block 4 (the column sums of the products of features and weighted predictions) its accumulation
    payload over what the block held. -/
theorem out_B_7 (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (hc : ¬cond0_0 i)
    (x0 x1 : Vec F S512x2048 .f32) (x2 : Vec F S512x1 .f32) (xo3 xo4 xo5 xo6 xo7 : Vec F S1x2048 .f32) :
    out0_B_7 c i a2 h2 a3 h3 a4 h4 a5 h5 a6 h6 a7 h7 a8 h8 a9 h9 hc x0 x1 x2 xo3 xo4 xo5 xo6 xo7 = k0_pay2 x0 (k0_pay8 x1 x2) xo7 := by
  unfold out0_B_7
  rw [View.read_writes_eq_canon _ _ _ (cover0_B_7 c i a2 h2 a3 h3 a4 h4 a5 h5 a6 h6 a7 h7 a8 h8 a9 h9 hc x0 x1 x2 xo3 xo4 xo5 xo6 xo7)]
  unfold kernelRun0_B
  dsimp only
  sl_unfold_words
  rw [View.canon_unit_zero hz]
  simp only [View.readAt_eq_ld, h2.read_unread, h3.read_unread, h4.read_unread, h5.read_unread, h6.read_unread,
    h7.read_unread, h8.read_unread, h9.read_unread, View.ld_unit_zero (S := S512x2048) hz,
    View.ld_unit_zero (S := S1x2048) hz, View.ld_unit_zero (S := S512x1) hz]

/-- At a chunk's first tile the body first stores the zero block and then leaves in result block 4 its accumulation
    payload over that zero block. -/
theorem out_A_7 (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (hc : cond0_0 i)
    (x0 x1 : Vec F S512x2048 .f32) (x2 : Vec F S512x1 .f32) :
    out0_A_7 c i a2 h2 a3 h3 a4 h4 a5 h5 a6 h6 a7 h7 a8 h8 a9 h9 hc x0 x1 x2 = k0_pay2 x0 (k0_pay8 x1 x2) (k0_pay7 (F := F)) := by
  unfold out0_A_7
  rw [View.read_writes_eq_canon _ _ _ (cover0_A_7 c i a2 h2 a3 h3 a4 h4 a5 h5 a6 h6 a7 h7 a8 h8 a9 h9 hc x0 x1 x2)]
  unfold kernelRun0_A
  dsimp only
  sl_unfold_words
  rw [View.canon_cons_unit_zero (S := S1x2048) hz, View.readCov_unit_zero (S := S1x2048) _ hz]
  simp only [View.readAt_eq_ld, h2.read_unread, h3.read_unread, h4.read_unread, View.ld_unit_zero (S := S512x2048) hz,
    View.ld_unit_zero (S := S1x2048) hz, View.ld_unit_zero (S := S512x1) hz]

end Cert.KernelIdeal.Region0

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.Region0Pay.lean ====
/-
  The arithmetic of the first accumulation pass's body over the extended reals, read at a lane.

  Every one of the five resident result blocks is updated in the same way: a [512, 2048] block `z` of per-element terms
  is summed down its 512 rows, the [2048] vector of column sums is given a leading unit axis, and the result is added to
  what the block held. So at lane `j` the block goes from `acc j` to `acc j + ∑ r, z (r, j)`. The five terms are: the
  feature `sf`; the weighted prediction `o = p · nu` (the one-column weight block broadcast along the lanes); `sf²`; `o²`;
  and `sf · o`.
-/
import proofs.«173397_j30520037605625_2_alg».proof.Proof.Iface
import proofs.«173397_j30520037605625_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Region0

open Cert.KernelIdeal Cert.KernelIdeal.Gen Cert.Spec

/-- A column index of a reduced-over-rows vector, with the row put back, is the pair. -/
theorem lift_col {n m : ℕ} (h : (⟨2, ![n, m]⟩ : Shape).Reduces [0] (⟨1, ![m]⟩ : Shape)) (j : Fin m)
    (k : Fin ((⟨2, ![n, m]⟩ : Shape).size 0)) : h.lift (ix1 j) k = ix2 (⟨k.val, k.isLt⟩ : Fin n) j := by
  funext c; apply Fin.ext
  fin_cases c <;> rfl

/-- A sum of an `[n, m]` vector over its rows, at column `j`, is the sum down that column. -/
theorem multiReduction_add_col {n m : ℕ} (z : FVec Ideal ⟨2, ![n, m]⟩ .f32)
    (h : (⟨2, ![n, m]⟩ : Shape).Reduces [0] (⟨1, ![m]⟩ : Shape)) (hφ : FKind.Formats .f32)
    (hacc : (0x00000000#32 : BitVec 32) = 0x00000000#32) (j : Fin m) :
    multiReduction .add [0] ⟨1, ![m]⟩ z 0x00000000#32 h hφ hacc (ix1 j) = ∑ r : Fin n, z (ix2 r j) := by
  refine (Ideal.multiReduction_add_single z 0x00000000#32 h hφ hacc (ix1 j)).trans ?_
  exact Finset.sum_congr rfl fun k _ => congrArg z (lift_col h j k)

/-- THE UPDATE OF A RESIDENT BLOCK at lane `j`: what it held plus the sum of the term block down its 512 rows. -/
theorem acc_col (z : FVec Ideal S512x2048 .f32) (acc : FVec Ideal S1x2048 .f32)
    (hr : S512x2048.Reduces [0] S2048) (hφ : FKind.Formats .f32)
    (hacc : (0x00000000#32 : BitVec 32) = 0x00000000#32) (hc : S2048.ShapeCasts S1x2048) (j : Fin 2048) :
    addf acc (shapeCast S1x2048 (multiReduction .add [0] S2048 z 0x00000000#32 hr hφ hacc) hc) (ix2 (0 : Fin 1) j)
      = acc (ix2 (0 : Fin 1) j) + ∑ r : Fin 512, z (ix2 r j) := by
  show acc (ix2 (0 : Fin 1) j)
      + shapeCast S1x2048 (multiReduction .add [0] S2048 z 0x00000000#32 hr hφ hacc) hc (ix2 (0 : Fin 1) j) = _
  refine congrArg (acc (ix2 (0 : Fin 1) j) + ·) ?_
  exact (shapeCast_a_1a_apply _ hc (0 : Fin 1) j).trans (multiReduction_add_col z hr hφ hacc j)

/-- The zero block a chunk's first tile stores holds the zero word in every lane. -/
theorem pay3_apply (i : S1x2048.Idx) : k0_pay3 (F := Ideal) i = w0 := rfl
theorem pay4_apply (i : S1x2048.Idx) : k0_pay4 (F := Ideal) i = w0 := rfl
theorem pay5_apply (i : S1x2048.Idx) : k0_pay5 (F := Ideal) i = w0 := rfl
theorem pay6_apply (i : S1x2048.Idx) : k0_pay6 (F := Ideal) i = w0 := rfl
theorem pay7_apply (i : S1x2048.Idx) : k0_pay7 (F := Ideal) i = w0 := rfl

/-- The weighted prediction block: the prediction times its spot's weight. -/
theorem pay8_apply (x1 : Vec Ideal S512x2048 .f32) (x2 : Vec Ideal S512x1 .f32) (r : Fin 512) (j : Fin 2048) :
    k0_pay8 (F := Ideal) x1 x2 (ix2 r j) = x1 (ix2 r j) * x2 (ix2 r (0 : Fin 1)) := by
  unfold k0_pay8
  show x1 (ix2 r j) * broadcastTo S512x2048 x2 broadcasts_S512x1_S512x2048 (ix2 r j) = _
  exact congrArg (x1 (ix2 r j) * ·) (Cert.Lib.broadcastTo_a1_ab_apply x2 broadcasts_S512x1_S512x2048 r j)

/-- The carried block of squared weighted predictions is passed through unchanged. -/
theorem pay12_eq (acc : Vec Ideal S1x2048 .f32) : k0_pay12 (F := Ideal) acc = acc := by
  unfold k0_pay12
  exact shapeCast_self acc _

/-- Result block 0, the features' column sums. -/
theorem pay9_apply (x0 : Vec Ideal S512x2048 .f32) (acc : Vec Ideal S1x2048 .f32) (j : Fin 2048) :
    k0_pay9 (F := Ideal) x0 acc (ix2 (0 : Fin 1) j) = acc (ix2 (0 : Fin 1) j) + ∑ r : Fin 512, x0 (ix2 r j) := by
  unfold k0_pay9
  dsimp only
  rw [shapeCast_self]
  exact acc_col x0 acc _ _ _ _ j

/-- Result block 1, the weighted predictions' column sums. -/
theorem pay10_apply (x1 : Vec Ideal S512x2048 .f32) (x2 : Vec Ideal S512x1 .f32) (acc : Vec Ideal S1x2048 .f32)
    (j : Fin 2048) :
    k0_pay10 (F := Ideal) x1 x2 acc (ix2 (0 : Fin 1) j)
      = acc (ix2 (0 : Fin 1) j) + ∑ r : Fin 512, x1 (ix2 r j) * x2 (ix2 r (0 : Fin 1)) := by
  unfold k0_pay10
  dsimp only
  rw [shapeCast_self]
  refine (acc_col (k0_pay8 x1 x2) acc _ _ _ _ j).trans ?_
  exact congrArg (acc (ix2 (0 : Fin 1) j) + ·) (Finset.sum_congr rfl fun r _ => pay8_apply x1 x2 r j)

/-- Result block 2, the column sums of the squared features. -/
theorem pay11_apply (x0 : Vec Ideal S512x2048 .f32) (acc : Vec Ideal S1x2048 .f32) (j : Fin 2048) :
    k0_pay11 (F := Ideal) x0 acc (ix2 (0 : Fin 1) j)
      = acc (ix2 (0 : Fin 1) j) + ∑ r : Fin 512, x0 (ix2 r j) * x0 (ix2 r j) := by
  unfold k0_pay11
  dsimp only
  rw [shapeCast_self]
  exact acc_col (mulf x0 x0) acc _ _ _ _ j

/-- Result block 3, the column sums of the squared weighted predictions. -/
theorem pay1_apply (x1 : Vec Ideal S512x2048 .f32) (x2 : Vec Ideal S512x1 .f32) (acc : Vec Ideal S1x2048 .f32)
    (j : Fin 2048) :
    k0_pay1 (F := Ideal) (k0_pay8 x1 x2) (k0_pay12 acc) (ix2 (0 : Fin 1) j)
      = acc (ix2 (0 : Fin 1) j)
        + ∑ r : Fin 512, (x1 (ix2 r j) * x2 (ix2 r (0 : Fin 1))) * (x1 (ix2 r j) * x2 (ix2 r (0 : Fin 1))) := by
  rw [pay12_eq]
  unfold k0_pay1
  dsimp only
  refine (acc_col (mulf (k0_pay8 x1 x2) (k0_pay8 x1 x2)) acc _ _ _ _ j).trans ?_
  refine congrArg (acc (ix2 (0 : Fin 1) j) + ·) (Finset.sum_congr rfl fun r _ => ?_)
  show k0_pay8 x1 x2 (ix2 r j) * k0_pay8 x1 x2 (ix2 r j) = _
  rw [pay8_apply]

/-- Result block 4, the column sums of the products of features and weighted predictions. -/
theorem pay2_apply (x0 x1 : Vec Ideal S512x2048 .f32) (x2 : Vec Ideal S512x1 .f32) (acc : Vec Ideal S1x2048 .f32)
    (j : Fin 2048) :
    k0_pay2 (F := Ideal) x0 (k0_pay8 x1 x2) acc (ix2 (0 : Fin 1) j)
      = acc (ix2 (0 : Fin 1) j) + ∑ r : Fin 512, x0 (ix2 r j) * (x1 (ix2 r j) * x2 (ix2 r (0 : Fin 1))) := by
  unfold k0_pay2
  dsimp only
  rw [shapeCast_self]
  refine (acc_col (mulf x0 (k0_pay8 x1 x2)) acc _ _ _ _ j).trans ?_
  refine congrArg (acc (ix2 (0 : Fin 1) j) + ·) (Finset.sum_congr rfl fun r _ => ?_)
  show x0 (ix2 r j) * k0_pay8 x1 x2 (ix2 r j) = _
  rw [pay8_apply]

end Cert.KernelIdeal.Region0

end
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.Region0Sum.lean ====
/-
  The arithmetic of an accumulation over a grid of 2 column chunks × 16 row tiles, with no program in sight.

  A running total is kept per lane `j` of a 2048-lane block. At the first tile of a chunk it restarts from zero and takes
  that tile's contribution; at each later tile it adds the tile's contribution to what it held. The contribution of tile
  `n % 16` of chunk `n / 16` is the sum of `f` down the tile's 512 rows in column `2048·(n / 16) + j`. After a chunk's
  last tile the total is the sum of `f` down the whole column: sixteen tile sums of 512 rows regroup into one sum over
  all 8192 rows, because addition of extended reals is commutative and associative.
-/
import proofs.«173397_j30520037605625_2_alg».proof.Proof.Spec
import proofs.«173397_j30520037605625_2_alg».proof.Proof.LibBlockSum

noncomputable section

open scoped BigOperators

namespace Cert.KernelIdeal.Region0

open Cert.Spec Cert.LibBlockSum

/-- What grid point `n` (row tile `n % 16` of column chunk `n / 16`) adds at lane `j`: the sum of `f` down the tile's 512
    rows, in column `2048·(n / 16) + j`; zero past the grid. -/
def addend (f : Fin 8192 → Fin 4096 → EReal) (n : ℕ) (j : Fin 2048) : EReal :=
  if h : n < 32 then
    ∑ r : Fin 512, f ⟨512 * (n % 16) + r.val, by have := r.isLt; omega⟩ ⟨2048 * (n / 16) + j.val, by have := j.isLt; omega⟩
  else 0

/-- Inside the grid the contribution is the tile's column sum. -/
theorem addend_of_lt (f : Fin 8192 → Fin 4096 → EReal) (n : ℕ) (h : n < 32) (j : Fin 2048) :
    addend f n j
      = ∑ r : Fin 512, f ⟨512 * (n % 16) + r.val, by have := r.isLt; omega⟩ ⟨2048 * (n / 16) + j.val, by have := j.isLt; omega⟩ :=
  dif_pos h

/-- A TOTAL THAT RESTARTS AT EACH CHUNK AND ADDS EACH TILE IS, AFTER THE CHUNK'S LAST TILE, THE COLUMN SUM. -/
theorem acc_chunk (f : Fin 8192 → Fin 4096 → EReal) (T : (n : ℕ) → n < 32 → Fin 2048 → EReal)
    (hA : ∀ (n : ℕ) (hn : n < 32), n % 16 = 0 → ∀ j, T n hn j = 0 + addend f n j)
    (hB : ∀ (n : ℕ) (hn : n + 1 < 32), ¬(n + 1) % 16 = 0 →
      ∀ j, T (n + 1) hn j = T n (Nat.lt_of_succ_lt hn) j + addend f (n + 1) j)
    (q : Fin 2) (j : Fin 2048) :
    T (16 * q.val + 15) (by have := q.isLt; omega) j
      = colSum f ⟨2048 * q.val + j.val, by have := q.isLt; have := j.isLt; omega⟩ := by
  have hq := q.isLt
  have key : ∀ (k : ℕ) (hk : 16 * q.val + k < 32), k < 16 →
      T (16 * q.val + k) hk j = ∑ s ∈ Finset.range (k + 1), addend f (16 * q.val + s) j := by
    intro k
    induction k with
    | zero =>
      intro hk _
      rw [Finset.sum_range_succ, Finset.sum_range_zero, hA _ hk (by omega) j]
    | succ k ih =>
      intro hk hk'
      rw [Finset.sum_range_succ _ (k + 1), ← ih (by omega) (by omega)]
      exact hB (16 * q.val + k) hk (by omega) j
  rw [key 15 _ (by omega), sum_range_eq_sum_fin]
  unfold colSum
  refine Eq.trans ?_ (sum_blocks_mul 16 512
    (fun i : Fin (16 * 512) => f i ⟨2048 * q.val + j.val, by have := j.isLt; omega⟩))
  refine Finset.sum_congr rfl fun k _ => ?_
  have hk := k.isLt
  rw [addend_of_lt f _ (by omega) j]
  refine Finset.sum_congr rfl fun r _ => ?_
  have hr := r.isLt
  exact congrArg₂ f (Fin.ext (by show 512 * ((16 * q.val + k.val) % 16) + r.val = 512 * k.val + r.val; omega))
    (Fin.ext (by show 2048 * ((16 * q.val + k.val) / 16) + j.val = 2048 * q.val + j.val; omega))

end Cert.KernelIdeal.Region0

end
-- ==== Proof.Region0Block.lean ====
/-
  The first accumulation pass's input blocks as pieces of the whole arrays. Grid point `t` is row tile `t % 16` of column
  chunk `t / 16`: its feature and prediction blocks hold rows `512·(t % 16) …` and columns `2048·(t / 16) …` of their
  arrays, and its weight block the same rows of the one-column weight array. So what the point adds to each of the five
  running column sums at lane `j` is the sum, down those 512 rows, of the corresponding term in column `2048·(t / 16) + j`.
-/
import proofs.«173397_j30520037605625_2_alg».proof.Proof.Iface
import proofs.«173397_j30520037605625_2_alg».proof.Proof.Region0Sum
import Idealize.ShloMosaic.Lib.Pipeline.Value
import Idealize.ShloMosaic.Lib.ValueIdx

noncomputable section

open Idealize.ShloMosaic Idealize.ShloMosaic.TcCoe Idealize.SL.Sem
open Idealize.ShloMosaic.ValueIdx

namespace Cert.KernelIdeal.Region0

open Cert.KernelIdeal Cert.KernelIdeal.Gen Cert.Spec

variable (V : (c : Dev nD) → (b : Ref sig .tc) → Buf (Elt Ideal) ((c : Thread nD τ).loc b))

/-- The grid has 32 points. -/
theorem lt_N {n : ℕ} (h : n < 32) : n < cfg0.N := by
  have hN : cfg0.N = 32 := N_0
  omega

theorem lt_32 {n : ℕ} (h : n < cfg0.N) : n < 32 := by
  have hN : cfg0.N = 32 := N_0
  omega

/-- Where each window's block sits at point `t`, decided once over the grid: the two big inputs at (row tile, chunk), the
    weights at (row tile, 0), every result block at (0, chunk). -/
theorem idx_in : ∀ t : Fin cfg0.N,
    win0_0.index t (0 : Fin 2) = t.val % 16 ∧ win0_0.index t (1 : Fin 2) = t.val / 16
    ∧ win0_1.index t (0 : Fin 2) = t.val % 16 ∧ win0_1.index t (1 : Fin 2) = t.val / 16
    ∧ win0_2.index t (0 : Fin 2) = t.val % 16 ∧ win0_2.index t (1 : Fin 2) = 0 :=
  (by decide +kernel : ∀ t : Fin grid0.N, _)

theorem idx_out : ∀ t : Fin cfg0.N,
    (win0_3.index t (0 : Fin 2) = 0 ∧ win0_3.index t (1 : Fin 2) = t.val / 16)
    ∧ (win0_4.index t (0 : Fin 2) = 0 ∧ win0_4.index t (1 : Fin 2) = t.val / 16)
    ∧ (win0_5.index t (0 : Fin 2) = 0 ∧ win0_5.index t (1 : Fin 2) = t.val / 16)
    ∧ (win0_6.index t (0 : Fin 2) = 0 ∧ win0_6.index t (1 : Fin 2) = t.val / 16)
    ∧ (win0_7.index t (0 : Fin 2) = 0 ∧ win0_7.index t (1 : Fin 2) = t.val / 16) :=
  (by decide +kernel : ∀ t : Fin grid0.N, _)

/-- The three input blocks at point `t`, as vectors over their literal shapes. -/
abbrev sfBlk (c : Dev nD) (t : Fin cfg0.N) : Vec Ideal S512x2048 .f32 := iblk0 V c 0 t
abbrev prBlk (c : Dev nD) (t : Fin cfg0.N) : Vec Ideal S512x2048 .f32 := iblk0 V c 1 t
abbrev nuBlk (c : Dev nD) (t : Fin cfg0.N) : Vec Ideal S512x1 .f32 := iblk0 V c 2 t

/-- The feature block at point `t`, element `(r, j)`: row `512·(t % 16) + r`, column `2048·(t / 16) + j` of the array. -/
theorem iblk0_0_apply (c : Dev nD) (t : Fin cfg0.N) (r : Fin 512) (j : Fin 2048) :
    sfBlk V c t (ix2 r j)
      = arr2 (V c main_arg0) ⟨512 * (t.val % 16) + r.val, by have := r.isLt; omega⟩
          ⟨2048 * (t.val / 16) + j.val, by have := j.isLt; have := lt_32 t.isLt; omega⟩ := by
  obtain ⟨e0, e1, -⟩ := idx_in t
  unfold sfBlk iblk0
  rw [View.read_apply]
  show V c main_arg0 _ = V c main_arg0 _
  refine congrArg (V c main_arg0) ?_
  funext a
  apply Fin.ext
  match a with
  | ⟨0, _⟩ => show win0_0.index t (0 : Fin 2) * 512 + 1 * r.val = 512 * (t.val % 16) + r.val; rw [e0]; omega
  | ⟨1, _⟩ => show win0_0.index t (1 : Fin 2) * 2048 + 1 * j.val = 2048 * (t.val / 16) + j.val; rw [e1]; omega

/-- The prediction block at point `t`, likewise. -/
theorem iblk0_1_apply (c : Dev nD) (t : Fin cfg0.N) (r : Fin 512) (j : Fin 2048) :
    prBlk V c t (ix2 r j)
      = arr2 (V c main_arg1) ⟨512 * (t.val % 16) + r.val, by have := r.isLt; omega⟩
          ⟨2048 * (t.val / 16) + j.val, by have := j.isLt; have := lt_32 t.isLt; omega⟩ := by
  obtain ⟨-, -, e0, e1, -⟩ := idx_in t
  unfold prBlk iblk0
  rw [View.read_apply]
  show V c main_arg1 _ = V c main_arg1 _
  refine congrArg (V c main_arg1) ?_
  funext a
  apply Fin.ext
  match a with
  | ⟨0, _⟩ => show win0_1.index t (0 : Fin 2) * 512 + 1 * r.val = 512 * (t.val % 16) + r.val; rw [e0]; omega
  | ⟨1, _⟩ => show win0_1.index t (1 : Fin 2) * 2048 + 1 * j.val = 2048 * (t.val / 16) + j.val; rw [e1]; omega

/-- The weight block at point `t`, element `(r, 0)`: row `512·(t % 16) + r` of the one-column weight array. -/
theorem iblk0_2_apply (c : Dev nD) (t : Fin cfg0.N) (r : Fin 512) :
    nuBlk V c t (ix2 r (0 : Fin 1))
      = col1 (V c main_arg4) ⟨512 * (t.val % 16) + r.val, by have := r.isLt; omega⟩ := by
  obtain ⟨-, -, -, -, e0, e1⟩ := idx_in t
  unfold nuBlk iblk0
  rw [View.read_apply]
  show V c main_arg4 _ = V c main_arg4 _
  refine congrArg (V c main_arg4) ?_
  funext a
  apply Fin.ext
  match a with
  | ⟨0, _⟩ => show win0_2.index t (0 : Fin 2) * 512 + 1 * r.val = 512 * (t.val % 16) + r.val; rw [e0]; omega
  | ⟨1, _⟩ => show win0_2.index t (1 : Fin 2) * 1 + 1 * 0 = 0; rw [e1]

/-! ## What point `t` adds to each running column sum -/

/-- The features. -/
theorem tile3 (c : Dev nD) (t : Fin cfg0.N) (j : Fin 2048) :
    ∑ r : Fin 512, sfBlk V c t (ix2 r j) = addend (arr2 (V c main_arg0)) t.val j := by
  rw [addend_of_lt _ _ (lt_32 t.isLt)]
  exact Finset.sum_congr rfl fun r _ => iblk0_0_apply V c t r j

/-- The weighted predictions. -/
theorem tile4 (c : Dev nD) (t : Fin cfg0.N) (j : Fin 2048) :
    ∑ r : Fin 512, prBlk V c t (ix2 r j)
        * nuBlk V c t (ix2 r (0 : Fin 1))
      = addend (scaled (arr2 (V c main_arg1)) (col1 (V c main_arg4))) t.val j := by
  rw [addend_of_lt _ _ (lt_32 t.isLt)]
  refine Finset.sum_congr rfl fun r _ => ?_
  rw [iblk0_1_apply V c t r j, iblk0_2_apply V c t r]
  rfl

/-- The squared features. -/
theorem tile5 (c : Dev nD) (t : Fin cfg0.N) (j : Fin 2048) :
    ∑ r : Fin 512, sfBlk V c t (ix2 r j)
        * sfBlk V c t (ix2 r j)
      = addend (fun r k => arr2 (V c main_arg0) r k * arr2 (V c main_arg0) r k) t.val j := by
  rw [addend_of_lt _ _ (lt_32 t.isLt)]
  refine Finset.sum_congr rfl fun r _ => ?_
  rw [iblk0_0_apply V c t r j]

/-- The squared weighted predictions. -/
theorem tile6 (c : Dev nD) (t : Fin cfg0.N) (j : Fin 2048) :
    ∑ r : Fin 512, (prBlk V c t (ix2 r j)
          * nuBlk V c t (ix2 r (0 : Fin 1)))
        * (prBlk V c t (ix2 r j)
          * nuBlk V c t (ix2 r (0 : Fin 1)))
      = addend (fun r k => scaled (arr2 (V c main_arg1)) (col1 (V c main_arg4)) r k
          * scaled (arr2 (V c main_arg1)) (col1 (V c main_arg4)) r k) t.val j := by
  rw [addend_of_lt _ _ (lt_32 t.isLt)]
  refine Finset.sum_congr rfl fun r _ => ?_
  rw [iblk0_1_apply V c t r j, iblk0_2_apply V c t r]
  rfl

/-- The products of features and weighted predictions. -/
theorem tile7 (c : Dev nD) (t : Fin cfg0.N) (j : Fin 2048) :
    ∑ r : Fin 512, sfBlk V c t (ix2 r j)
        * (prBlk V c t (ix2 r j)
          * nuBlk V c t (ix2 r (0 : Fin 1)))
      = addend (fun r k => arr2 (V c main_arg0) r k * scaled (arr2 (V c main_arg1)) (col1 (V c main_arg4)) r k) t.val j := by
  rw [addend_of_lt _ _ (lt_32 t.isLt)]
  refine Finset.sum_congr rfl fun r _ => ?_
  rw [iblk0_0_apply V c t r j, iblk0_1_apply V c t r j, iblk0_2_apply V c t r]
  rfl

end Cert.KernelIdeal.Region0

end
-- ==== Proof.Region0Acc.lean ====
/-
  The invariant of the first accumulation pass. The grid walks 2 column chunks × 16 row tiles, point `t` being row tile
  `t % 16` of chunk `t / 16`. Each of the five resident result blocks restarts from zero at a chunk's first tile and adds
  one tile's column sums at every tile; so after the chunk's last tile it holds, at lane `j`, the sum over all 8192 rows
  of its term in column `2048·(t / 16) + j`.
-/
import proofs.«173397_j30520037605625_2_alg».proof.Proof.Iface
import proofs.«173397_j30520037605625_2_alg».proof.Proof.Region0Piece
import proofs.«173397_j30520037605625_2_alg».proof.Proof.Region0Pay
import proofs.«173397_j30520037605625_2_alg».proof.Proof.Region0Block

noncomputable section

open Idealize.ShloMosaic Idealize.ShloMosaic.TcCoe Idealize.SL.Sem
open Idealize.ShloMosaic.ValueIdx

namespace Cert.KernelIdeal.Region0

open Cert.KernelIdeal Cert.KernelIdeal.Gen Cert.Spec

variable (V : (c : Dev nD) → (b : Ref sig .tc) → Buf (Elt Ideal) ((c : Thread nD τ).loc b))

/-! ## Result block 0: the features -/

/-- At a chunk's first tile the block restarts from zero and takes the tile's contribution. -/
theorem start3 (c : Dev nD) (t : Fin cfg0.N) (h0 : t.val % 16 = 0) (j : Fin 2048) :
    (outsAt0 (F := Ideal) V c t.val t.isLt).1 (ix2 (0 : Fin 1) j) = 0 + addend (arr2 (V c main_arg0)) t.val j := by
  rw [outsAt0_A V c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)
    (iblk0 V c 0 t) (iblk0 V c 1 t) (iblk0 V c 2 t)) (ix2 (0 : Fin 1) j)).trans ?_
  refine (pay9_apply (sfBlk V c t) (k0_pay3 (F := Ideal)) j).trans ?_
  rw [pay3_apply, w0_eq, tile3 V c t j]

/-- At every other tile it adds the tile's contribution to what the tile before left. -/
theorem step3 (c : Dev nD) (t : Fin cfg0.N) (h0 : ¬t.val % 16 = 0) (j : Fin 2048) :
    (outsAt0 (F := Ideal) V c t.val t.isLt).1 (ix2 (0 : Fin 1) j)
      = (outsAt0 (F := Ideal) V c (t.val - 1) (Nat.lt_of_le_of_lt (Nat.sub_le _ _) t.isLt)).1 (ix2 (0 : Fin 1) j) + addend (arr2 (V c main_arg0)) t.val j := by
  rw [outsAt0_B V c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h))
    (iblk0 V c 0 t) (iblk0 V c 1 t) (iblk0 V c 2 t)
    (outsAt0 (F := Ideal) V c (t.val - 1) (Nat.lt_of_le_of_lt (Nat.sub_le _ _) t.isLt)).1 (outsAt0 (F := Ideal) V c (t.val - 1) (Nat.lt_of_le_of_lt (Nat.sub_le _ _) t.isLt)).2.1
    (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1
    (outsAt0 (F := Ideal) V c (t.val - 1) (Nat.lt_of_le_of_lt (Nat.sub_le _ _) t.isLt)).2.2.2.2) (ix2 (0 : Fin 1) j)).trans ?_
  refine (pay9_apply (sfBlk V c t) (outsAt0 (F := Ideal) V c (t.val - 1) (Nat.lt_of_le_of_lt (Nat.sub_le _ _) t.isLt)).1 j).trans ?_
  rw [tile3 V c t j]

/-- So after a chunk's last tile the block holds, at lane `j`, the whole column sum of column `2048·q + j`. -/
theorem chunk3 (c : Dev nD) (q : Fin 2) (j : Fin 2048) :
    (outsAt0 (F := Ideal) V c (16 * q.val + 15) (lt_N (by have := q.isLt; omega))).1 (ix2 (0 : Fin 1) j)
      = colSum (arr2 (V c main_arg0)) ⟨2048 * q.val + j.val, by have := q.isLt; have := j.isLt; omega⟩ :=
  acc_chunk (arr2 (V c main_arg0))
    (fun n hn j => (outsAt0 (F := Ideal) V c n (lt_N hn)).1 (ix2 (0 : Fin 1) j))
    (fun n hn h0 j => start3 V c ⟨n, lt_N hn⟩ h0 j) (fun n hn h0 j => step3 V c ⟨n + 1, lt_N hn⟩ h0 j) q j

/-! ## Result block 1: the weighted predictions -/

/-- At a chunk's first tile the block restarts from zero and takes the tile's contribution. -/
theorem start4 (c : Dev nD) (t : Fin cfg0.N) (h0 : t.val % 16 = 0) (j : Fin 2048) :
    (outsAt0 (F := Ideal) V c t.val t.isLt).2.1 (ix2 (0 : Fin 1) j) = 0 + addend (scaled (arr2 (V c main_arg1)) (col1 (V c main_arg4))) t.val j := by
  rw [outsAt0_A V c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)
    (iblk0 V c 0 t) (iblk0 V c 1 t) (iblk0 V c 2 t)) (ix2 (0 : Fin 1) j)).trans ?_
  refine (pay10_apply (prBlk V c t) (nuBlk V c t) (k0_pay4 (F := Ideal)) j).trans ?_
  rw [pay4_apply, w0_eq, tile4 V c t j]

/-- At every other tile it adds the tile's contribution to what the tile before left. -/
theorem step4 (c : Dev nD) (t : Fin cfg0.N) (h0 : ¬t.val % 16 = 0) (j : Fin 2048) :
    (outsAt0 (F := Ideal) V c t.val t.isLt).2.1 (ix2 (0 : Fin 1) j)
      = (outsAt0 (F := Ideal) V c (t.val - 1) (Nat.lt_of_le_of_lt (Nat.sub_le _ _) t.isLt)).2.1 (ix2 (0 : Fin 1) j) + addend (scaled (arr2 (V c main_arg1)) (col1 (V c main_arg4))) t.val j := by
  rw [outsAt0_B V c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h))
    (iblk0 V c 0 t) (iblk0 V c 1 t) (iblk0 V c 2 t)
    (outsAt0 (F := Ideal) V c (t.val - 1) (Nat.lt_of_le_of_lt (Nat.sub_le _ _) t.isLt)).1 (outsAt0 (F := Ideal) V c (t.val - 1) (Nat.lt_of_le_of_lt (Nat.sub_le _ _) t.isLt)).2.1
    (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1
    (outsAt0 (F := Ideal) V c (t.val - 1) (Nat.lt_of_le_of_lt (Nat.sub_le _ _) t.isLt)).2.2.2.2) (ix2 (0 : Fin 1) j)).trans ?_
  refine (pay10_apply (prBlk V c t) (nuBlk V c t) (outsAt0 (F := Ideal) V c (t.val - 1) (Nat.lt_of_le_of_lt (Nat.sub_le _ _) t.isLt)).2.1 j).trans ?_
  rw [tile4 V c t j]

/-- So after a chunk's last tile the block holds, at lane `j`, the whole column sum of column `2048·q + j`. -/
theorem chunk4 (c : Dev nD) (q : Fin 2) (j : Fin 2048) :
    (outsAt0 (F := Ideal) V c (16 * q.val + 15) (lt_N (by have := q.isLt; omega))).2.1 (ix2 (0 : Fin 1) j)
      = colSum (scaled (arr2 (V c main_arg1)) (col1 (V c main_arg4))) ⟨2048 * q.val + j.val, by have := q.isLt; have := j.isLt; omega⟩ :=
  acc_chunk (scaled (arr2 (V c main_arg1)) (col1 (V c main_arg4)))
    (fun n hn j => (outsAt0 (F := Ideal) V c n (lt_N hn)).2.1 (ix2 (0 : Fin 1) j))
    (fun n hn h0 j => start4 V c ⟨n, lt_N hn⟩ h0 j) (fun n hn h0 j => step4 V c ⟨n + 1, lt_N hn⟩ h0 j) q j

/-! ## Result block 2: the squared features -/

/-- At a chunk's first tile the block restarts from zero and takes the tile's contribution. -/
theorem start5 (c : Dev nD) (t : Fin cfg0.N) (h0 : t.val % 16 = 0) (j : Fin 2048) :
    (outsAt0 (F := Ideal) V c t.val t.isLt).2.2.1 (ix2 (0 : Fin 1) j) = 0 + addend (fun r k => arr2 (V c main_arg0) r k * arr2 (V c main_arg0) r k) t.val j := by
  rw [outsAt0_A V c t h0]
  dsimp only
  refine (congrFun (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)
    (iblk0 V c 0 t) (iblk0 V c 1 t) (iblk0 V c 2 t)) (ix2 (0 : Fin 1) j)).trans ?_
  refine (pay11_apply (sfBlk V c t) (k0_pay5 (F := Ideal)) j).trans ?_
  rw [pay5_apply, w0_eq, tile5 V c t j]

/-- At every other tile it adds the tile's contribution to what the tile before left. -/
theorem step5 (c : Dev nD) (t : Fin cfg0.N) (h0 : ¬t.val % 16 = 0) (j : Fin 2048) :
    (outsAt0 (F := Ideal) V c t.val t.isLt).2.2.1 (ix2 (0 : Fin 1) j)
      = (outsAt0 (F := Ideal) V c (t.val - 1) (Nat.lt_of_le_of_lt (Nat.sub_le _ _) t.isLt)).2.2.1 (ix2 (0 : Fin 1) j) + addend (fun r k => arr2 (V c main_arg0) r k * arr2 (V c main_arg0) r k) t.val j := by
  rw [outsAt0_B V c t h0]
  dsimp only
  refine (congrFun (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h))
    (iblk0 V c 0 t) (iblk0 V c 1 t) (iblk0 V c 2 t)
    (outsAt0 (F := Ideal) V c (t.val - 1) (Nat.lt_of_le_of_lt (Nat.sub_le _ _) t.isLt)).1 (outsAt0 (F := Ideal) V c (t.val - 1) (Nat.lt_of_le_of_lt (Nat.sub_le _ _) t.isLt)).2.1
    (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1
    (outsAt0 (F := Ideal) V c (t.val - 1) (Nat.lt_of_le_of_lt (Nat.sub_le _ _) t.isLt)).2.2.2.2) (ix2 (0 : Fin 1) j)).trans ?_
  refine (pay11_apply (sfBlk V c t) (outsAt0 (F := Ideal) V c (t.val - 1) (Nat.lt_of_le_of_lt (Nat.sub_le _ _) t.isLt)).2.2.1 j).trans ?_
  rw [tile5 V c t j]

/-- So after a chunk's last tile the block holds, at lane `j`, the whole column sum of column `2048·q + j`. -/
theorem chunk5 (c : Dev nD) (q : Fin 2) (j : Fin 2048) :
    (outsAt0 (F := Ideal) V c (16 * q.val + 15) (lt_N (by have := q.isLt; omega))).2.2.1 (ix2 (0 : Fin 1) j)
      = colSum (fun r k => arr2 (V c main_arg0) r k * arr2 (V c main_arg0) r k) ⟨2048 * q.val + j.val, by have := q.isLt; have := j.isLt; omega⟩ :=
  acc_chunk (fun r k => arr2 (V c main_arg0) r k * arr2 (V c main_arg0) r k)
    (fun n hn j => (outsAt0 (F := Ideal) V c n (lt_N hn)).2.2.1 (ix2 (0 : Fin 1) j))
    (fun n hn h0 j => start5 V c ⟨n, lt_N hn⟩ h0 j) (fun n hn h0 j => step5 V c ⟨n + 1, lt_N hn⟩ h0 j) q j

/-! ## Result block 3: the squared weighted predictions -/

/-- At a chunk's first tile the block restarts from zero and takes the tile's contribution. -/
theorem start6 (c : Dev nD) (t : Fin cfg0.N) (h0 : t.val % 16 = 0) (j : Fin 2048) :
    (outsAt0 (F := Ideal) V c t.val t.isLt).2.2.2.1 (ix2 (0 : Fin 1) j) = 0 + addend (fun r k => scaled (arr2 (V c main_arg1)) (col1 (V c main_arg4)) r k
        * scaled (arr2 (V c main_arg1)) (col1 (V c main_arg4)) r k) t.val j := by
  rw [outsAt0_A V c t h0]
  dsimp only
  refine (congrFun (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)
    (iblk0 V c 0 t) (iblk0 V c 1 t) (iblk0 V c 2 t)) (ix2 (0 : Fin 1) j)).trans ?_
  refine (pay1_apply (prBlk V c t) (nuBlk V c t) (k0_pay6 (F := Ideal)) j).trans ?_
  rw [pay6_apply, w0_eq, tile6 V c t j]

/-- At every other tile it adds the tile's contribution to what the tile before left. -/
theorem step6 (c : Dev nD) (t : Fin cfg0.N) (h0 : ¬t.val % 16 = 0) (j : Fin 2048) :
    (outsAt0 (F := Ideal) V c t.val t.isLt).2.2.2.1 (ix2 (0 : Fin 1) j)
      = (outsAt0 (F := Ideal) V c (t.val - 1) (Nat.lt_of_le_of_lt (Nat.sub_le _ _) t.isLt)).2.2.2.1 (ix2 (0 : Fin 1) j) + addend (fun r k => scaled (arr2 (V c main_arg1)) (col1 (V c main_arg4)) r k
        * scaled (arr2 (V c main_arg1)) (col1 (V c main_arg4)) r k) t.val j := by
  rw [outsAt0_B V c t h0]
  dsimp only
  refine (congrFun (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h))
    (iblk0 V c 0 t) (iblk0 V c 1 t) (iblk0 V c 2 t)
    (outsAt0 (F := Ideal) V c (t.val - 1) (Nat.lt_of_le_of_lt (Nat.sub_le _ _) t.isLt)).1 (outsAt0 (F := Ideal) V c (t.val - 1) (Nat.lt_of_le_of_lt (Nat.sub_le _ _) t.isLt)).2.1
    (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1
    (outsAt0 (F := Ideal) V c (t.val - 1) (Nat.lt_of_le_of_lt (Nat.sub_le _ _) t.isLt)).2.2.2.2) (ix2 (0 : Fin 1) j)).trans ?_
  refine (pay1_apply (prBlk V c t) (nuBlk V c t) (outsAt0 (F := Ideal) V c (t.val - 1) (Nat.lt_of_le_of_lt (Nat.sub_le _ _) t.isLt)).2.2.2.1 j).trans ?_
  rw [tile6 V c t j]

/-- So after a chunk's last tile the block holds, at lane `j`, the whole column sum of column `2048·q + j`. -/
theorem chunk6 (c : Dev nD) (q : Fin 2) (j : Fin 2048) :
    (outsAt0 (F := Ideal) V c (16 * q.val + 15) (lt_N (by have := q.isLt; omega))).2.2.2.1 (ix2 (0 : Fin 1) j)
      = colSum (fun r k => scaled (arr2 (V c main_arg1)) (col1 (V c main_arg4)) r k
        * scaled (arr2 (V c main_arg1)) (col1 (V c main_arg4)) r k) ⟨2048 * q.val + j.val, by have := q.isLt; have := j.isLt; omega⟩ :=
  acc_chunk (fun r k => scaled (arr2 (V c main_arg1)) (col1 (V c main_arg4)) r k
        * scaled (arr2 (V c main_arg1)) (col1 (V c main_arg4)) r k)
    (fun n hn j => (outsAt0 (F := Ideal) V c n (lt_N hn)).2.2.2.1 (ix2 (0 : Fin 1) j))
    (fun n hn h0 j => start6 V c ⟨n, lt_N hn⟩ h0 j) (fun n hn h0 j => step6 V c ⟨n + 1, lt_N hn⟩ h0 j) q j

/-! ## Result block 4: the products of features and weighted predictions -/

/-- At a chunk's first tile the block restarts from zero and takes the tile's contribution. -/
theorem start7 (c : Dev nD) (t : Fin cfg0.N) (h0 : t.val % 16 = 0) (j : Fin 2048) :
    (outsAt0 (F := Ideal) V c t.val t.isLt).2.2.2.2 (ix2 (0 : Fin 1) j) = 0 + addend (fun r k => arr2 (V c main_arg0) r k * scaled (arr2 (V c main_arg1)) (col1 (V c main_arg4)) r k) t.val j := by
  rw [outsAt0_A V c t h0]
  dsimp only
  refine (congrFun (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)
    (iblk0 V c 0 t) (iblk0 V c 1 t) (iblk0 V c 2 t)) (ix2 (0 : Fin 1) j)).trans ?_
  refine (pay2_apply (sfBlk V c t) (prBlk V c t) (nuBlk V c t) (k0_pay7 (F := Ideal)) j).trans ?_
  rw [pay7_apply, w0_eq, tile7 V c t j]

/-- At every other tile it adds the tile's contribution to what the tile before left. -/
theorem step7 (c : Dev nD) (t : Fin cfg0.N) (h0 : ¬t.val % 16 = 0) (j : Fin 2048) :
    (outsAt0 (F := Ideal) V c t.val t.isLt).2.2.2.2 (ix2 (0 : Fin 1) j)
      = (outsAt0 (F := Ideal) V c (t.val - 1) (Nat.lt_of_le_of_lt (Nat.sub_le _ _) t.isLt)).2.2.2.2 (ix2 (0 : Fin 1) j) + addend (fun r k => arr2 (V c main_arg0) r k * scaled (arr2 (V c main_arg1)) (col1 (V c main_arg4)) r k) t.val j := by
  rw [outsAt0_B V c t h0]
  dsimp only
  refine (congrFun (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h))
    (iblk0 V c 0 t) (iblk0 V c 1 t) (iblk0 V c 2 t)
    (outsAt0 (F := Ideal) V c (t.val - 1) (Nat.lt_of_le_of_lt (Nat.sub_le _ _) t.isLt)).1 (outsAt0 (F := Ideal) V c (t.val - 1) (Nat.lt_of_le_of_lt (Nat.sub_le _ _) t.isLt)).2.1
    (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1
    (outsAt0 (F := Ideal) V c (t.val - 1) (Nat.lt_of_le_of_lt (Nat.sub_le _ _) t.isLt)).2.2.2.2) (ix2 (0 : Fin 1) j)).trans ?_
  refine (pay2_apply (sfBlk V c t) (prBlk V c t) (nuBlk V c t) (outsAt0 (F := Ideal) V c (t.val - 1) (Nat.lt_of_le_of_lt (Nat.sub_le _ _) t.isLt)).2.2.2.2 j).trans ?_
  rw [tile7 V c t j]

/-- So after a chunk's last tile the block holds, at lane `j`, the whole column sum of column `2048·q + j`. -/
theorem chunk7 (c : Dev nD) (q : Fin 2) (j : Fin 2048) :
    (outsAt0 (F := Ideal) V c (16 * q.val + 15) (lt_N (by have := q.isLt; omega))).2.2.2.2 (ix2 (0 : Fin 1) j)
      = colSum (fun r k => arr2 (V c main_arg0) r k * scaled (arr2 (V c main_arg1)) (col1 (V c main_arg4)) r k) ⟨2048 * q.val + j.val, by have := q.isLt; have := j.isLt; omega⟩ :=
  acc_chunk (fun r k => arr2 (V c main_arg0) r k * scaled (arr2 (V c main_arg1)) (col1 (V c main_arg4)) r k)
    (fun n hn j => (outsAt0 (F := Ideal) V c n (lt_N hn)).2.2.2.2 (ix2 (0 : Fin 1) j))
    (fun n hn h0 j => start7 V c ⟨n, lt_N hn⟩ h0 j) (fun n hn h0 j => step7 V c ⟨n + 1, lt_N hn⟩ h0 j) q j

end Cert.KernelIdeal.Region0

end
-- ==== Proof.Region0.lean ====
/-
  The first accumulation pass, from its resident blocks to its result arrays. A result block is written back once per
  column chunk, at the chunk's last row tile (points 15 and 31), and the two blocks written tile the [1, 4096] result
  array: gene `g` lies under the block of chunk `g / 2048`. Each written block holds whole column sums, so every result
  array ends holding, at gene `g`, the sum of its term over all 8192 spots.
-/
import proofs.«173397_j30520037605625_2_alg».proof.Proof.Iface
import proofs.«173397_j30520037605625_2_alg».proof.Proof.Region0Acc
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen Cert.Spec

/-- The [1, 4096] array of the column sums of `f`. -/
def colArr (f : Fin 8192 → Fin 4096 → EReal) : (⟨2, ![1, 4096]⟩ : Shape).Idx → EReal :=
  fun i => colSum f ⟨(i 1).val, idx2_lt1 i⟩

theorem colArr_apply (f : Fin 8192 → Fin 4096 → EReal) (g : Fin 4096) : colArr f (ix2 (0 : Fin 1) g) = colSum f g := rfl

variable (V : (c : Dev nD) → (b : Ref sig .tc) → Buf (Elt Ideal) ((c : Thread nD τ).loc b))

/-- The five terms summed, as families over (spot, gene), of the arrays the pass is entered with. -/
abbrev f3 (c : Dev nD) : Fin 8192 → Fin 4096 → EReal := arr2 (V c main_arg0)
abbrev f4 (c : Dev nD) : Fin 8192 → Fin 4096 → EReal := scaled (arr2 (V c main_arg1)) (col1 (V c main_arg4))
abbrev f5 (c : Dev nD) : Fin 8192 → Fin 4096 → EReal := fun r k => arr2 (V c main_arg0) r k * arr2 (V c main_arg0) r k
abbrev f6 (c : Dev nD) : Fin 8192 → Fin 4096 → EReal :=
  fun r k => scaled (arr2 (V c main_arg1)) (col1 (V c main_arg4)) r k
    * scaled (arr2 (V c main_arg1)) (col1 (V c main_arg4)) r k
abbrev f7 (c : Dev nD) : Fin 8192 → Fin 4096 → EReal := fun r k => arr2 (V c main_arg0) r k * scaled (arr2 (V c main_arg1)) (col1 (V c main_arg4)) r k

/-! ## Result array 0: the features -/

/-- What a chunk's last point writes back is its block of the array of whole column sums. -/
theorem flushed3 (c : Dev nD) (t : Fin cfg0.N) (hf : (cfg0.win 3).flush t = true) :
    (dat0 (F := Ideal) V c).flushed 3 t = ((cfg0.win 3).blk t).view.read (Elt Ideal) (colArr (f3 V c)) := by
  have h15 : t.val % 16 = 15 := (flush0_3 t).mp hf
  have h32 : t.val < 32 := lt_32 t.isLt
  obtain ⟨⟨e0, e1⟩, -⟩ := idx_out t
  show (cfg0.win 3).cut (grid0.coords t) ((dat0 (F := Ideal) V c).after 3 t) = _
  rw [after0_3]
  funext y
  obtain ⟨u, j, rfl⟩ : ∃ (u : Fin 1) (j : Fin 2048), y = ix2 u j := ⟨y 0, y 1, eq_ix2 y⟩
  obtain rfl : u = 0 := Subsingleton.elim _ _
  show (outsAt0 (F := Ideal) V c t.val t.isLt).1 (ix2 (0 : Fin 1) j)
      = colArr (f3 V c) (((cfg0.win 3).blk t).view.emb (ix2 (0 : Fin 1) j))
  have hq : t.val / 16 < 2 := by omega
  have same : ∀ (n : ℕ) (hn : n < cfg0.N), n = t.val →
      (outsAt0 (F := Ideal) V c n hn).1 (ix2 (0 : Fin 1) j)
        = (outsAt0 (F := Ideal) V c t.val t.isLt).1 (ix2 (0 : Fin 1) j) := fun n hn e => by subst e; rfl
  refine ((same (16 * (t.val / 16) + 15) (lt_N (by omega)) (by omega)).symm.trans
    (chunk3 V c ⟨t.val / 16, hq⟩ j)).trans ?_
  show colSum (f3 V c) _ = colSum (f3 V c) _
  refine congrArg (colSum (f3 V c)) (Fin.ext ?_)
  show 2048 * (t.val / 16) + j.val = win0_3.index t (1 : Fin 2) * 2048 + 1 * j.val
  rw [e1]; omega

/-- Every gene's entry is under some chunk's last point's block. -/
theorem cover3 (i : S1x4096.Idx) :
    ∃ t : Fin cfg0.N, (cfg0.win 3).flush t = true ∧ i ∈ ((cfg0.win 3).blk t).view.set := by
  have h0 : (i 0).val < 1 := idx2_lt0 i
  have h1 : (i 1).val < 4096 := idx2_lt1 i
  obtain ⟨t, ht⟩ : ∃ t : Fin cfg0.N, t.val = 16 * ((i 1).val / 2048) + 15 :=
    ⟨⟨16 * ((i 1).val / 2048) + 15, lt_N (by omega)⟩, rfl⟩
  obtain ⟨⟨e0, e1⟩, -⟩ := idx_out t
  refine ⟨t, (flush0_3 t).mpr (by omega), ?_⟩
  show i ∈ ((View.whole main_v0_0).slice (win0_3.rect t)).set
  rw [View.set_slice_whole, Rect.mem_set_unit]
  intro a
  match a with
  | ⟨0, _⟩ =>
    show win0_3.index t (0 : Fin 2) * 1 ≤ (i 0).val ∧ (i 0).val < win0_3.index t (0 : Fin 2) * 1 + 1
    rw [e0]; omega
  | ⟨1, _⟩ =>
    show win0_3.index t (1 : Fin 2) * 2048 ≤ (i 1).val ∧ (i 1).val < win0_3.index t (1 : Fin 2) * 2048 + 2048
    rw [e1]; omega

/-- So the result array ends holding the whole column sums. -/
theorem final3 (c : Dev nD) : (dat0 (F := Ideal) V c).arrAt 3 cfg0.N = colArr (f3 V c) :=
  (dat0 (F := Ideal) V c).arrAt_eq_of_cover 3 (colArr (f3 V c)) (flushed3 V c) cover3

/-! ## Result array 1: the weighted predictions -/

/-- What a chunk's last point writes back is its block of the array of whole column sums. -/
theorem flushed4 (c : Dev nD) (t : Fin cfg0.N) (hf : (cfg0.win 4).flush t = true) :
    (dat0 (F := Ideal) V c).flushed 4 t = ((cfg0.win 4).blk t).view.read (Elt Ideal) (colArr (f4 V c)) := by
  have h15 : t.val % 16 = 15 := (flush0_4 t).mp hf
  have h32 : t.val < 32 := lt_32 t.isLt
  obtain ⟨-, ⟨e0, e1⟩, -⟩ := idx_out t
  show (cfg0.win 4).cut (grid0.coords t) ((dat0 (F := Ideal) V c).after 4 t) = _
  rw [after0_4]
  funext y
  obtain ⟨u, j, rfl⟩ : ∃ (u : Fin 1) (j : Fin 2048), y = ix2 u j := ⟨y 0, y 1, eq_ix2 y⟩
  obtain rfl : u = 0 := Subsingleton.elim _ _
  show (outsAt0 (F := Ideal) V c t.val t.isLt).2.1 (ix2 (0 : Fin 1) j)
      = colArr (f4 V c) (((cfg0.win 4).blk t).view.emb (ix2 (0 : Fin 1) j))
  have hq : t.val / 16 < 2 := by omega
  have same : ∀ (n : ℕ) (hn : n < cfg0.N), n = t.val →
      (outsAt0 (F := Ideal) V c n hn).2.1 (ix2 (0 : Fin 1) j)
        = (outsAt0 (F := Ideal) V c t.val t.isLt).2.1 (ix2 (0 : Fin 1) j) := fun n hn e => by subst e; rfl
  refine ((same (16 * (t.val / 16) + 15) (lt_N (by omega)) (by omega)).symm.trans
    (chunk4 V c ⟨t.val / 16, hq⟩ j)).trans ?_
  show colSum (f4 V c) _ = colSum (f4 V c) _
  refine congrArg (colSum (f4 V c)) (Fin.ext ?_)
  show 2048 * (t.val / 16) + j.val = win0_4.index t (1 : Fin 2) * 2048 + 1 * j.val
  rw [e1]; omega

/-- Every gene's entry is under some chunk's last point's block. -/
theorem cover4 (i : S1x4096.Idx) :
    ∃ t : Fin cfg0.N, (cfg0.win 4).flush t = true ∧ i ∈ ((cfg0.win 4).blk t).view.set := by
  have h0 : (i 0).val < 1 := idx2_lt0 i
  have h1 : (i 1).val < 4096 := idx2_lt1 i
  obtain ⟨t, ht⟩ : ∃ t : Fin cfg0.N, t.val = 16 * ((i 1).val / 2048) + 15 :=
    ⟨⟨16 * ((i 1).val / 2048) + 15, lt_N (by omega)⟩, rfl⟩
  obtain ⟨-, ⟨e0, e1⟩, -⟩ := idx_out t
  refine ⟨t, (flush0_4 t).mpr (by omega), ?_⟩
  show i ∈ ((View.whole main_v0_1).slice (win0_4.rect t)).set
  rw [View.set_slice_whole, Rect.mem_set_unit]
  intro a
  match a with
  | ⟨0, _⟩ =>
    show win0_4.index t (0 : Fin 2) * 1 ≤ (i 0).val ∧ (i 0).val < win0_4.index t (0 : Fin 2) * 1 + 1
    rw [e0]; omega
  | ⟨1, _⟩ =>
    show win0_4.index t (1 : Fin 2) * 2048 ≤ (i 1).val ∧ (i 1).val < win0_4.index t (1 : Fin 2) * 2048 + 2048
    rw [e1]; omega

/-- So the result array ends holding the whole column sums. -/
theorem final4 (c : Dev nD) : (dat0 (F := Ideal) V c).arrAt 4 cfg0.N = colArr (f4 V c) :=
  (dat0 (F := Ideal) V c).arrAt_eq_of_cover 4 (colArr (f4 V c)) (flushed4 V c) cover4

/-! ## Result array 2: the squared features -/

/-- What a chunk's last point writes back is its block of the array of whole column sums. -/
theorem flushed5 (c : Dev nD) (t : Fin cfg0.N) (hf : (cfg0.win 5).flush t = true) :
    (dat0 (F := Ideal) V c).flushed 5 t = ((cfg0.win 5).blk t).view.read (Elt Ideal) (colArr (f5 V c)) := by
  have h15 : t.val % 16 = 15 := (flush0_5 t).mp hf
  have h32 : t.val < 32 := lt_32 t.isLt
  obtain ⟨-, -, ⟨e0, e1⟩, -⟩ := idx_out t
  show (cfg0.win 5).cut (grid0.coords t) ((dat0 (F := Ideal) V c).after 5 t) = _
  rw [after0_5]
  funext y
  obtain ⟨u, j, rfl⟩ : ∃ (u : Fin 1) (j : Fin 2048), y = ix2 u j := ⟨y 0, y 1, eq_ix2 y⟩
  obtain rfl : u = 0 := Subsingleton.elim _ _
  show (outsAt0 (F := Ideal) V c t.val t.isLt).2.2.1 (ix2 (0 : Fin 1) j)
      = colArr (f5 V c) (((cfg0.win 5).blk t).view.emb (ix2 (0 : Fin 1) j))
  have hq : t.val / 16 < 2 := by omega
  have same : ∀ (n : ℕ) (hn : n < cfg0.N), n = t.val →
      (outsAt0 (F := Ideal) V c n hn).2.2.1 (ix2 (0 : Fin 1) j)
        = (outsAt0 (F := Ideal) V c t.val t.isLt).2.2.1 (ix2 (0 : Fin 1) j) := fun n hn e => by subst e; rfl
  refine ((same (16 * (t.val / 16) + 15) (lt_N (by omega)) (by omega)).symm.trans
    (chunk5 V c ⟨t.val / 16, hq⟩ j)).trans ?_
  show colSum (f5 V c) _ = colSum (f5 V c) _
  refine congrArg (colSum (f5 V c)) (Fin.ext ?_)
  show 2048 * (t.val / 16) + j.val = win0_5.index t (1 : Fin 2) * 2048 + 1 * j.val
  rw [e1]; omega

/-- Every gene's entry is under some chunk's last point's block. -/
theorem cover5 (i : S1x4096.Idx) :
    ∃ t : Fin cfg0.N, (cfg0.win 5).flush t = true ∧ i ∈ ((cfg0.win 5).blk t).view.set := by
  have h0 : (i 0).val < 1 := idx2_lt0 i
  have h1 : (i 1).val < 4096 := idx2_lt1 i
  obtain ⟨t, ht⟩ : ∃ t : Fin cfg0.N, t.val = 16 * ((i 1).val / 2048) + 15 :=
    ⟨⟨16 * ((i 1).val / 2048) + 15, lt_N (by omega)⟩, rfl⟩
  obtain ⟨-, -, ⟨e0, e1⟩, -⟩ := idx_out t
  refine ⟨t, (flush0_5 t).mpr (by omega), ?_⟩
  show i ∈ ((View.whole main_v0_2).slice (win0_5.rect t)).set
  rw [View.set_slice_whole, Rect.mem_set_unit]
  intro a
  match a with
  | ⟨0, _⟩ =>
    show win0_5.index t (0 : Fin 2) * 1 ≤ (i 0).val ∧ (i 0).val < win0_5.index t (0 : Fin 2) * 1 + 1
    rw [e0]; omega
  | ⟨1, _⟩ =>
    show win0_5.index t (1 : Fin 2) * 2048 ≤ (i 1).val ∧ (i 1).val < win0_5.index t (1 : Fin 2) * 2048 + 2048
    rw [e1]; omega

/-- So the result array ends holding the whole column sums. -/
theorem final5 (c : Dev nD) : (dat0 (F := Ideal) V c).arrAt 5 cfg0.N = colArr (f5 V c) :=
  (dat0 (F := Ideal) V c).arrAt_eq_of_cover 5 (colArr (f5 V c)) (flushed5 V c) cover5

/-! ## Result array 3: the squared weighted predictions -/

/-- What a chunk's last point writes back is its block of the array of whole column sums. -/
theorem flushed6 (c : Dev nD) (t : Fin cfg0.N) (hf : (cfg0.win 6).flush t = true) :
    (dat0 (F := Ideal) V c).flushed 6 t = ((cfg0.win 6).blk t).view.read (Elt Ideal) (colArr (f6 V c)) := by
  have h15 : t.val % 16 = 15 := (flush0_6 t).mp hf
  have h32 : t.val < 32 := lt_32 t.isLt
  obtain ⟨-, -, -, ⟨e0, e1⟩, -⟩ := idx_out t
  show (cfg0.win 6).cut (grid0.coords t) ((dat0 (F := Ideal) V c).after 6 t) = _
  rw [after0_6]
  funext y
  obtain ⟨u, j, rfl⟩ : ∃ (u : Fin 1) (j : Fin 2048), y = ix2 u j := ⟨y 0, y 1, eq_ix2 y⟩
  obtain rfl : u = 0 := Subsingleton.elim _ _
  show (outsAt0 (F := Ideal) V c t.val t.isLt).2.2.2.1 (ix2 (0 : Fin 1) j)
      = colArr (f6 V c) (((cfg0.win 6).blk t).view.emb (ix2 (0 : Fin 1) j))
  have hq : t.val / 16 < 2 := by omega
  have same : ∀ (n : ℕ) (hn : n < cfg0.N), n = t.val →
      (outsAt0 (F := Ideal) V c n hn).2.2.2.1 (ix2 (0 : Fin 1) j)
        = (outsAt0 (F := Ideal) V c t.val t.isLt).2.2.2.1 (ix2 (0 : Fin 1) j) := fun n hn e => by subst e; rfl
  refine ((same (16 * (t.val / 16) + 15) (lt_N (by omega)) (by omega)).symm.trans
    (chunk6 V c ⟨t.val / 16, hq⟩ j)).trans ?_
  show colSum (f6 V c) _ = colSum (f6 V c) _
  refine congrArg (colSum (f6 V c)) (Fin.ext ?_)
  show 2048 * (t.val / 16) + j.val = win0_6.index t (1 : Fin 2) * 2048 + 1 * j.val
  rw [e1]; omega

/-- Every gene's entry is under some chunk's last point's block. -/
theorem cover6 (i : S1x4096.Idx) :
    ∃ t : Fin cfg0.N, (cfg0.win 6).flush t = true ∧ i ∈ ((cfg0.win 6).blk t).view.set := by
  have h0 : (i 0).val < 1 := idx2_lt0 i
  have h1 : (i 1).val < 4096 := idx2_lt1 i
  obtain ⟨t, ht⟩ : ∃ t : Fin cfg0.N, t.val = 16 * ((i 1).val / 2048) + 15 :=
    ⟨⟨16 * ((i 1).val / 2048) + 15, lt_N (by omega)⟩, rfl⟩
  obtain ⟨-, -, -, ⟨e0, e1⟩, -⟩ := idx_out t
  refine ⟨t, (flush0_6 t).mpr (by omega), ?_⟩
  show i ∈ ((View.whole main_v0_3).slice (win0_6.rect t)).set
  rw [View.set_slice_whole, Rect.mem_set_unit]
  intro a
  match a with
  | ⟨0, _⟩ =>
    show win0_6.index t (0 : Fin 2) * 1 ≤ (i 0).val ∧ (i 0).val < win0_6.index t (0 : Fin 2) * 1 + 1
    rw [e0]; omega
  | ⟨1, _⟩ =>
    show win0_6.index t (1 : Fin 2) * 2048 ≤ (i 1).val ∧ (i 1).val < win0_6.index t (1 : Fin 2) * 2048 + 2048
    rw [e1]; omega

/-- So the result array ends holding the whole column sums. -/
theorem final6 (c : Dev nD) : (dat0 (F := Ideal) V c).arrAt 6 cfg0.N = colArr (f6 V c) :=
  (dat0 (F := Ideal) V c).arrAt_eq_of_cover 6 (colArr (f6 V c)) (flushed6 V c) cover6

/-! ## Result array 4: the products of features and weighted predictions -/

/-- What a chunk's last point writes back is its block of the array of whole column sums. -/
theorem flushed7 (c : Dev nD) (t : Fin cfg0.N) (hf : (cfg0.win 7).flush t = true) :
    (dat0 (F := Ideal) V c).flushed 7 t = ((cfg0.win 7).blk t).view.read (Elt Ideal) (colArr (f7 V c)) := by
  have h15 : t.val % 16 = 15 := (flush0_7 t).mp hf
  have h32 : t.val < 32 := lt_32 t.isLt
  obtain ⟨-, -, -, -, e0, e1⟩ := idx_out t
  show (cfg0.win 7).cut (grid0.coords t) ((dat0 (F := Ideal) V c).after 7 t) = _
  rw [after0_7]
  funext y
  obtain ⟨u, j, rfl⟩ : ∃ (u : Fin 1) (j : Fin 2048), y = ix2 u j := ⟨y 0, y 1, eq_ix2 y⟩
  obtain rfl : u = 0 := Subsingleton.elim _ _
  show (outsAt0 (F := Ideal) V c t.val t.isLt).2.2.2.2 (ix2 (0 : Fin 1) j)
      = colArr (f7 V c) (((cfg0.win 7).blk t).view.emb (ix2 (0 : Fin 1) j))
  have hq : t.val / 16 < 2 := by omega
  have same : ∀ (n : ℕ) (hn : n < cfg0.N), n = t.val →
      (outsAt0 (F := Ideal) V c n hn).2.2.2.2 (ix2 (0 : Fin 1) j)
        = (outsAt0 (F := Ideal) V c t.val t.isLt).2.2.2.2 (ix2 (0 : Fin 1) j) := fun n hn e => by subst e; rfl
  refine ((same (16 * (t.val / 16) + 15) (lt_N (by omega)) (by omega)).symm.trans
    (chunk7 V c ⟨t.val / 16, hq⟩ j)).trans ?_
  show colSum (f7 V c) _ = colSum (f7 V c) _
  refine congrArg (colSum (f7 V c)) (Fin.ext ?_)
  show 2048 * (t.val / 16) + j.val = win0_7.index t (1 : Fin 2) * 2048 + 1 * j.val
  rw [e1]; omega

/-- Every gene's entry is under some chunk's last point's block. -/
theorem cover7 (i : S1x4096.Idx) :
    ∃ t : Fin cfg0.N, (cfg0.win 7).flush t = true ∧ i ∈ ((cfg0.win 7).blk t).view.set := by
  have h0 : (i 0).val < 1 := idx2_lt0 i
  have h1 : (i 1).val < 4096 := idx2_lt1 i
  obtain ⟨t, ht⟩ : ∃ t : Fin cfg0.N, t.val = 16 * ((i 1).val / 2048) + 15 :=
    ⟨⟨16 * ((i 1).val / 2048) + 15, lt_N (by omega)⟩, rfl⟩
  obtain ⟨-, -, -, -, e0, e1⟩ := idx_out t
  refine ⟨t, (flush0_7 t).mpr (by omega), ?_⟩
  show i ∈ ((View.whole main_v0_4).slice (win0_7.rect t)).set
  rw [View.set_slice_whole, Rect.mem_set_unit]
  intro a
  match a with
  | ⟨0, _⟩ =>
    show win0_7.index t (0 : Fin 2) * 1 ≤ (i 0).val ∧ (i 0).val < win0_7.index t (0 : Fin 2) * 1 + 1
    rw [e0]; omega
  | ⟨1, _⟩ =>
    show win0_7.index t (1 : Fin 2) * 2048 ≤ (i 1).val ∧ (i 1).val < win0_7.index t (1 : Fin 2) * 2048 + 2048
    rw [e1]; omega

/-- So the result array ends holding the whole column sums. -/
theorem final7 (c : Dev nD) : (dat0 (F := Ideal) V c).arrAt 7 cfg0.N = colArr (f7 V c) :=
  (dat0 (F := Ideal) V c).arrAt_eq_of_cover 7 (colArr (f7 V c)) (flushed7 V c) cover7

/-! ## The pass's value -/

/-- After the first pass each of its five result arrays holds, at every gene, the named column sum over all spots. -/
theorem region0 (V : (c : Dev nD) → (b : Ref sig .tc) → Buf (Elt Ideal) ((c : Thread nD τ).loc b)) :
    Cert.KernelIdeal.Iface.Region0 V := fun c g =>
  ⟨(congrFun (final3 V c) (ix2 (0 : Fin 1) g)).trans (colArr_apply (f3 V c) g),
   (congrFun (final4 V c) (ix2 (0 : Fin 1) g)).trans (colArr_apply (f4 V c) g),
   (congrFun (final5 V c) (ix2 (0 : Fin 1) g)).trans (colArr_apply (f5 V c) g),
   (congrFun (final6 V c) (ix2 (0 : Fin 1) g)).trans (colArr_apply (f6 V c) g),
   (congrFun (final7 V c) (ix2 (0 : Fin 1) g)).trans (colArr_apply (f7 V c) g)⟩

end Cert.KernelIdeal.Region0

end
-- ==== Proof.Region1Row.lean ====
/-
  The arithmetic of the tiled program's second pass on one pair of blocks, read at explicit coordinates over the
  extended reals: the centred differences, the three lane means, the clamped standard deviations, the per-row quotient
  (the row-wise Pearson correlation of `Spec.pearsonK`), and the column sum of the 2048 rows' quotients added to every
  lane of the resident block.
-/
import proofs.«173397_j30520037605625_2_alg».proof.Proof.Gen.KernelIdeal.Skeleton
import proofs.«173397_j30520037605625_2_alg».proof.Proof.Arr
import proofs.«173397_j30520037605625_2_alg».proof.Proof.LibColumn

set_option maxRecDepth 16384

noncomputable section

namespace Cert.KernelIdeal.Region1

open Cert.KernelIdeal Cert.KernelIdeal.Gen Cert.Spec Cert.Lib
open Idealize.ShloMosaic Idealize.ShloMosaic.ValueIdx

/-- Row `j` of a block, as a family over its 512 lanes. -/
def rowOf (x : Vec Ideal S2048x512 .f32) (j : Fin 2048) : Fin 512 → EReal := fun k => x (ix2 j k)

/-- The count word the body divides by is `Spec.w512`. -/
theorem word512 : (Scalar.ofBits (F := Ideal) .f32 0x44000000#32 : EReal) = w512 := rfl

/-- The zero word the body clamps against is `Spec.w0`. -/
theorem word0 : (Scalar.ofBits (F := Ideal) .f32 0x00000000#32 : EReal) = w0 := rfl

/-- A lane sum over the 512-word, kept as a column, read at row `j`: the tiled program's mean of that row. -/
theorem laneMean_apply (z : FVec Ideal S2048x512 .f32) (j : Fin 2048) (u : Fin 1) :
    divf (shapeCast S2048x1 (multiReduction .add [1] S2048 z 0x00000000#32 reduces_S2048x512_S2048 (.inl rfl) rfl)
        shapeCasts_S2048_S2048x1) (broadcast S2048x1 (Scalar.ofBits (F := Ideal) .f32 0x44000000#32)) (ix2 j u)
      = meanK w512 fun k : Fin 512 => z (ix2 j k) := by
  rw [divf_apply, broadcast_apply, shapeCast_a_a1_apply, multiReduction_add_row]
  rfl

set_option maxHeartbeats 400000 in
/-- The first block's centred differences at `(j, k)`. -/
theorem pay3_apply (x : Vec Ideal S2048x512 .f32) (j : Fin 2048) (k : Fin 512) :
    k1_pay3 (F := Ideal) x (ix2 j k) = x (ix2 j k) - meanK w512 (rowOf x j) := by
  unfold k1_pay3
  rw [subf_apply, broadcastTo_a1_ab_apply, laneMean_apply]
  rfl

set_option maxHeartbeats 400000 in
/-- The second block's centred differences at `(j, k)`. -/
theorem pay4_apply (y : Vec Ideal S2048x512 .f32) (j : Fin 2048) (k : Fin 512) :
    k1_pay4 (F := Ideal) y (ix2 j k) = y (ix2 j k) - meanK w512 (rowOf y j) := by
  unfold k1_pay4
  rw [subf_apply, broadcastTo_a1_ab_apply, laneMean_apply]
  rfl

set_option maxHeartbeats 400000 in
/-- The covariance column at row `j`: the mean over the lanes of the product of the centred differences. -/
theorem pay5_apply (x y : Vec Ideal S2048x512 .f32) (j : Fin 2048) (u : Fin 1) :
    k1_pay5 (F := Ideal) x y (ix2 j u)
      = meanK w512 fun k : Fin 512 =>
          (rowOf x j k - meanK w512 (rowOf x j)) * (rowOf y j k - meanK w512 (rowOf y j)) := by
  unfold k1_pay5
  refine (laneMean_apply _ j u).trans ?_
  refine congrArg (meanK w512) (funext fun k => ?_)
  rw [mulf_apply, pay3_apply, pay4_apply]
  rfl

/-- The square root of a vector at an index is that of the element. -/
theorem sqrt_apply {s : Shape} {φ : FTy} (x : FVec Ideal s φ) (i : s.Idx) : sqrt x i = Ideal.sqrt (x i) := rfl

set_option maxHeartbeats 400000 in
/-- The product of the two clamped standard deviations at row `j`. -/
theorem pay6_apply (x y : Vec Ideal S2048x512 .f32) (j : Fin 2048) (u : Fin 1) :
    k1_pay6 (F := Ideal) x y (ix2 j u)
      = Ideal.sqrt (max (meanK w512 fun k : Fin 512 =>
            (rowOf x j k - meanK w512 (rowOf x j)) * (rowOf x j k - meanK w512 (rowOf x j))) w0)
        * Ideal.sqrt (max (meanK w512 fun k : Fin 512 =>
            (rowOf y j k - meanK w512 (rowOf y j)) * (rowOf y j k - meanK w512 (rowOf y j))) w0) := by
  unfold k1_pay6
  rw [mulf_apply, sqrt_apply, sqrt_apply, maximumf_apply, maximumf_apply, broadcast_apply,
    laneMean_apply, laneMean_apply]
  have ex : (fun k : Fin 512 => mulf (k1_pay3 (F := Ideal) x) (k1_pay3 (F := Ideal) x) (ix2 j k))
      = fun k : Fin 512 => (rowOf x j k - meanK w512 (rowOf x j)) * (rowOf x j k - meanK w512 (rowOf x j)) :=
    funext fun k => by rw [mulf_apply, pay3_apply]; rfl
  have ey : (fun k : Fin 512 => mulf (k1_pay4 (F := Ideal) y) (k1_pay4 (F := Ideal) y) (ix2 j k))
      = fun k : Fin 512 => (rowOf y j k - meanK w512 (rowOf y j)) * (rowOf y j k - meanK w512 (rowOf y j)) :=
    funext fun k => by rw [mulf_apply, pay4_apply]; rfl
  rw [ex, ey]
  rfl

/-- A reduced column index with the row put back is the pair. -/
theorem lift_col {n m : ℕ} (h : (⟨2, ![n, m]⟩ : Shape).Reduces [0] (⟨1, ![m]⟩ : Shape)) (c : Fin m)
    (k : Fin ((⟨2, ![n, m]⟩ : Shape).size 0)) : h.lift (ix1 c) k = ix2 (⟨k.val, k.isLt⟩ : Fin n) c := by
  funext a; apply Fin.ext
  fin_cases a <;> rfl

/-- A sum down the rows of an `[n, m]` vector at column `c` is the sum over that column. -/
theorem multiReduction_add_col {n m : ℕ} (z : FVec Ideal ⟨2, ![n, m]⟩ .f32)
    (h : (⟨2, ![n, m]⟩ : Shape).Reduces [0] (⟨1, ![m]⟩ : Shape)) (hφ : FKind.Formats .f32)
    (hacc : (0x00000000#32 : BitVec 32) = 0x00000000#32) (c : Fin m) :
    multiReduction .add [0] ⟨1, ![m]⟩ z 0x00000000#32 h hφ hacc (ix1 c) = ∑ j : Fin n, z (ix2 j c) := by
  refine (Ideal.multiReduction_add_single z 0x00000000#32 h hφ hacc (ix1 c)).trans ?_
  exact Finset.sum_congr rfl fun k _ => congrArg z (lift_col h c k)

/-- On the extended reals nothing differs from itself, so a select on "differs from itself" keeps the value. -/
theorem select_ne_self (v a : FVec Ideal S2048x1 .f32) (i : S2048x1.Idx) :
    select (cmpf .one v v) a v i = v i := by
  rw [select_apply, cmpf_apply]
  have h0 : FloatOps.cmpf (F := Ideal) .one (v i) (v i) = 0#1 := by
    show Ideal.cmp .one (v i) (v i) = 0#1
    unfold Ideal.cmp
    simp
  rw [h0, select_zero]

set_option maxHeartbeats 400000 in
/-- The stored block at lane `l`: the resident value there plus the sum over the 2048 rows of the quotient of the two
    columns. -/
theorem pay1_apply (p q : FVec Ideal S2048x1 .f32) (o : Vec Ideal S1x128 .f32) (l : Fin 128) :
    k1_pay1 (F := Ideal) p q o (ix2 (0 : Fin 1) l)
      = o (ix2 (0 : Fin 1) l) + ∑ j : Fin 2048, Ideal.div (p (ix2 j (0 : Fin 1))) (q (ix2 j (0 : Fin 1))) := by
  unfold k1_pay1
  rw [addf_apply, shapeCast_self, broadcastTo_a1_ab_apply, shapeCast_self, shapeCast_a_a1_apply, multiReduction_add_col]
  refine congrArg (o (ix2 (0 : Fin 1) l) + ·) (Finset.sum_congr rfl fun j _ => ?_)
  rw [select_ne_self, divf_apply]

/-- The zero block the first point of a half stores, at lane `l`. -/
theorem pay2_apply (l : Fin 128) : k1_pay2 (F := Ideal) (ix2 (0 : Fin 1) l) = w0 := rfl

/-- The quotient of the two columns at row `j` is the row's Pearson correlation in the tiled program's form. -/
theorem rowValue (x y : Vec Ideal S2048x512 .f32) (j : Fin 2048) :
    Ideal.div (k1_pay5 (F := Ideal) x y (ix2 j (0 : Fin 1))) (k1_pay6 (F := Ideal) x y (ix2 j (0 : Fin 1)))
      = pearsonK w512 (rowOf x j) (rowOf y j) := by
  rw [pay5_apply, pay6_apply]
  rfl

/-- The sum over a block pair's 2048 rows of the row correlations. -/
def blockSum (x y : Vec Ideal S2048x512 .f32) : EReal := ∑ j : Fin 2048, pearsonK w512 (rowOf x j) (rowOf y j)

/-- The body's stored block at lane `l`: the resident value plus the block pair's sum of row correlations. -/
theorem body_apply (x y : Vec Ideal S2048x512 .f32) (o : Vec Ideal S1x128 .f32) (l : Fin 128) :
    k1_pay1 (F := Ideal) (k1_pay5 (F := Ideal) x y) (k1_pay6 (F := Ideal) x y) o (ix2 (0 : Fin 1) l)
      = o (ix2 (0 : Fin 1) l) + blockSum x y := by
  rw [pay1_apply]
  exact congrArg (o (ix2 (0 : Fin 1) l) + ·) (Finset.sum_congr rfl fun j _ => rowValue x y j)

end Cert.KernelIdeal.Region1

end
-- ==== Proof.Region1Pieces.lean ====
/-
  What the body of the tiled program's second pass leaves in its resident block, at any float instance: at a half's
  first point the block is reset to the zero block and the payload of the two input blocks is added to it; at its
  second point the payload is added to what the point before left.
-/
import proofs.«173397_j30520037605625_2_alg».proof.Proof.Iface
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]

theorem offsets_zero : (![0, 0] : Fin 2 → Nat) = fun _ => 0 := funext fun a => by fin_cases a <;> rfl

set_option maxHeartbeats 400000 in
/-- A half's second point: the one covering store holds the payload of the two input blocks over the block's running
    contents `o`. -/
theorem out_B (c : Dev nD) (i : grid1.Coords) (a2 : Memref sig .tc .vmem S2048x512 .f32) (h2 : a2.IsWhole)
    (a3 : Memref sig .tc .vmem S2048x512 .f32) (h3 : a3.IsWhole) (a4 : Memref sig .tc .vmem S1x128 .f32) (h4 : a4.IsWhole)
    (hc : ¬cond1_0 i) (x y : Vec F S2048x512 .f32) (o : Vec F S1x128 .f32) :
    out1_B_2 c i a2 h2 a3 h3 a4 h4 hc x y o = k1_pay1 (k1_pay5 x y) (k1_pay6 x y) o := by
  unfold out1_B_2
  rw [View.read_writes_eq_canon _ _ _ (cover1_B_2 c i a2 h2 a3 h3 a4 h4 hc x y o)]
  unfold kernelRun1_B
  dsimp only
  sl_unfold_words
  rw [View.canon_unit_zero offsets_zero]
  simp only [View.readAt_eq_ld, h2.read_unread, h3.read_unread, h4.read_unread,
    View.ld_unit_zero (S := S1x128) offsets_zero, View.ld_unit_zero (S := S2048x512) offsets_zero]

set_option maxHeartbeats 400000 in
/-- A half's first point: the zero block is stored, read back, and the payload of the two input blocks added to it. -/
theorem out_A (c : Dev nD) (i : grid1.Coords) (a2 : Memref sig .tc .vmem S2048x512 .f32) (h2 : a2.IsWhole)
    (a3 : Memref sig .tc .vmem S2048x512 .f32) (h3 : a3.IsWhole) (a4 : Memref sig .tc .vmem S1x128 .f32) (h4 : a4.IsWhole)
    (hc : cond1_0 i) (x y : Vec F S2048x512 .f32) :
    out1_A_2 c i a2 h2 a3 h3 a4 h4 hc x y = k1_pay1 (k1_pay5 x y) (k1_pay6 x y) (k1_pay2 (F := F)) := by
  unfold out1_A_2
  rw [View.read_writes_eq_canon _ _ _ (cover1_A_2 c i a2 h2 a3 h3 a4 h4 hc x y)]
  unfold kernelRun1_A
  dsimp only
  sl_unfold_words
  rw [View.canon_cons_unit_zero (S := S1x128) offsets_zero, View.readCov_unit_zero (S := S1x128) _ offsets_zero]
  simp only [View.readAt_eq_ld, h2.read_unread, h3.read_unread,
    View.ld_unit_zero (S := S1x128) offsets_zero, View.ld_unit_zero (S := S2048x512) offsets_zero]

end Cert.KernelIdeal.Region1

end
-- ==== Proof.Region1Sum.lean ====
/-
  The sum over one half of the 8192 spots is the sum over its two tiles of 2048 spots: half `h` is tiles `2h` and
  `2h + 1`. Pure regrouping of a finite sum in the extended reals; no finiteness is needed.
-/
import proofs.«173397_j30520037605625_2_alg».proof.Proof.Spec
import proofs.«173397_j30520037605625_2_alg».proof.Proof.LibBlockSum

noncomputable section

namespace Cert.KernelIdeal.Region1

open Cert.Spec

/-- The sum of `f` over one tile of the spots: spots `2048·t … 2048·t + 2047`. -/
def tileSum (f : Fin 8192 → EReal) (t : Fin 4) : EReal :=
  ∑ j : Fin 2048, f ⟨2048 * t.val + j.val, by have := t.isLt; have := j.isLt; omega⟩

/-- A half is its two tiles. -/
theorem halfSum_eq_tiles (f : Fin 8192 → EReal) (h : Fin 2) :
    halfSum f h = tileSum f ⟨2 * h.val, by have := h.isLt; omega⟩ + tileSum f ⟨2 * h.val + 1, by have := h.isLt; omega⟩ := by
  have hh := h.isLt
  unfold halfSum tileSum
  rw [← Cert.LibBlockSum.sum_blocks_mul 2 2048
    (fun k : Fin (2 * 2048) => f ⟨4096 * h.val + k.val, by have := k.isLt; omega⟩), Fin.sum_univ_two]
  refine congrArg₂ (· + ·) (Finset.sum_congr rfl fun j _ => congrArg f (Fin.ext ?_))
    (Finset.sum_congr rfl fun j _ => congrArg f (Fin.ext ?_))
  · show 4096 * h.val + (2048 * (0 : Fin 2).val + j.val) = 2048 * (2 * h.val) + j.val
    have : ((0 : Fin 2) : ℕ) = 0 := rfl
    omega
  · show 4096 * h.val + (2048 * (1 : Fin 2).val + j.val) = 2048 * (2 * h.val + 1) + j.val
    have : ((1 : Fin 2) : ℕ) = 1 := rfl
    omega

end Cert.KernelIdeal.Region1

end
-- ==== Proof.Region1Acc.lean ====
/-
  The resident block of the tiled program's second pass after each point, over the extended reals: a half's first point
  leaves the zero word plus that tile's sum of row correlations in every lane, its second point adds the next tile's
  sum, and the two tiles together are the half's 4096 spots.
-/
import proofs.«173397_j30520037605625_2_alg».proof.Proof.Region1Row
import proofs.«173397_j30520037605625_2_alg».proof.Proof.Region1Pieces
import proofs.«173397_j30520037605625_2_alg».proof.Proof.Region1Sum

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen Cert.Spec

variable (V : (c : Dev nD) → (b : Ref sig .tc) → Buf (Elt Ideal) ((c : Thread nD τ).loc b))

/-- The pass has four points. -/
theorem point_lt (t : Fin cfg1.N) : t.val < 4 := lt_of_lt_of_eq t.isLt (show cfg1.N = 4 from N_1)

/-- Point `t` reads tile `t` of the spots. -/
def tile (t : Fin cfg1.N) : Fin 4 := ⟨t.val, point_lt t⟩

/-- The first input window's block index at point `t` is `(t, 0)`. -/
theorem index0 : ∀ t : Fin cfg1.N, win1_0.index t 0 = t.val ∧ win1_0.index t 1 = 0 :=
  (by decide +kernel : ∀ t : Fin grid1.N, win1_0.index t 0 = t.val ∧ win1_0.index t 1 = 0)

/-- The second input window's block index at point `t` is `(t, 0)`. -/
theorem index1 : ∀ t : Fin cfg1.N, win1_1.index t 0 = t.val ∧ win1_1.index t 1 = 0 :=
  (by decide +kernel : ∀ t : Fin grid1.N, win1_1.index t 0 = t.val ∧ win1_1.index t 1 = 0)

set_option maxHeartbeats 400000 in
/-- Row `j` of the first window's block at point `t` is row `2048·t + j` of the first latent array. -/
theorem rowOf_iblk0 (c : Dev nD) (t : Fin cfg1.N) (j : Fin 2048) :
    rowOf (iblk1 V c 0 t) j
      = arr2 (V c main_arg2) ⟨2048 * t.val + j.val, by have := point_lt t; have := j.isLt; omega⟩ := by
  funext k
  unfold rowOf arr2 iblk1
  rw [View.read_apply]
  show V c main_arg2 _ = V c main_arg2 _
  congr 1
  funext a
  apply Fin.ext
  match a with
  | ⟨0, _⟩ => show win1_0.index t 0 * 2048 + 1 * j.val = 2048 * t.val + j.val; rw [(index0 t).1]; omega
  | ⟨1, _⟩ => show win1_0.index t 1 * 512 + 1 * k.val = k.val; rw [(index0 t).2]; omega

set_option maxHeartbeats 400000 in
/-- Row `j` of the second window's block at point `t` is row `2048·t + j` of the second latent array. -/
theorem rowOf_iblk1 (c : Dev nD) (t : Fin cfg1.N) (j : Fin 2048) :
    rowOf (iblk1 V c 1 t) j
      = arr2 (V c main_arg3) ⟨2048 * t.val + j.val, by have := point_lt t; have := j.isLt; omega⟩ := by
  funext k
  unfold rowOf arr2 iblk1
  rw [View.read_apply]
  show V c main_arg3 _ = V c main_arg3 _
  congr 1
  funext a
  apply Fin.ext
  match a with
  | ⟨0, _⟩ => show win1_1.index t 0 * 2048 + 1 * j.val = 2048 * t.val + j.val; rw [(index1 t).1]; omega
  | ⟨1, _⟩ => show win1_1.index t 1 * 512 + 1 * k.val = k.val; rw [(index1 t).2]; omega

/-- The block pair at point `t` sums the row correlations of tile `t`. -/
theorem blockSum_iblk (c : Dev nD) (t : Fin cfg1.N) :
    blockSum (iblk1 V c 0 t) (iblk1 V c 1 t)
      = tileSum (rowK (arr2 (V c main_arg2)) (arr2 (V c main_arg3))) (tile t) := by
  unfold blockSum tileSum
  refine Finset.sum_congr rfl fun j _ => ?_
  rw [rowOf_iblk0 V c t j, rowOf_iblk1 V c t j]
  rfl

set_option maxHeartbeats 400000 in
/-- After a half's first point every lane holds the zero word plus the tile's sum. -/
theorem acc_first (c : Dev nD) (t : Fin cfg1.N) (h0 : t.val % 2 = 0) (l : Fin 128) :
    outsAt1 V c t.val t.isLt (ix2 (0 : Fin 1) l) = w0 + blockSum (iblk1 V c 0 t) (iblk1 V c 1 t) := by
  rw [outsAt1_A V c t h0]
  refine (congrFun (out_A (F := Ideal) c (grid1.coords t) (ms1_0 t) (hs1_0 t) (ms1_1 t) (hs1_1 t) (ms1_2 t) (hs1_2 t)
    ((hcond1_0 t).mpr h0) (iblk1 V c 0 t) (iblk1 V c 1 t)) (ix2 (0 : Fin 1) l)).trans ?_
  refine (body_apply (iblk1 V c 0 t) (iblk1 V c 1 t) (k1_pay2 (F := Ideal)) l).trans ?_
  rw [pay2_apply]

set_option maxHeartbeats 400000 in
/-- After a half's second point every lane holds what the first point left plus the tile's sum. -/
theorem acc_second (c : Dev nD) (t : Fin cfg1.N) (h1 : ¬t.val % 2 = 0) (l : Fin 128) :
    outsAt1 V c t.val t.isLt (ix2 (0 : Fin 1) l)
      = outsAt1 V c (t.val - 1) (Nat.lt_of_le_of_lt (Nat.sub_le _ _) t.isLt) (ix2 (0 : Fin 1) l)
        + blockSum (iblk1 V c 0 t) (iblk1 V c 1 t) := by
  rw [outsAt1_B V c t h1]
  refine (congrFun (out_B (F := Ideal) c (grid1.coords t) (ms1_0 t) (hs1_0 t) (ms1_1 t) (hs1_1 t) (ms1_2 t) (hs1_2 t)
    (fun h => h1 ((hcond1_0 t).mp h)) (iblk1 V c 0 t) (iblk1 V c 1 t)
    (outsAt1 V c (t.val - 1) (Nat.lt_of_le_of_lt (Nat.sub_le _ _) t.isLt))) (ix2 (0 : Fin 1) l)).trans ?_
  exact body_apply (iblk1 V c 0 t) (iblk1 V c 1 t) (outsAt1 V c (t.val - 1) (Nat.lt_of_le_of_lt (Nat.sub_le _ _) t.isLt)) l

set_option maxHeartbeats 400000 in
/-- After a half's second point `t` every lane holds the half's sum of row correlations: half `t / 2`. -/
theorem acc_half (c : Dev nD) (t : Fin cfg1.N) (h1 : t.val % 2 = 1) (l : Fin 128) :
    outsAt1 V c t.val t.isLt (ix2 (0 : Fin 1) l)
      = halfSum (rowK (arr2 (V c main_arg2)) (arr2 (V c main_arg3))) ⟨t.val / 2, by have := point_lt t; omega⟩ := by
  have hlt := point_lt t
  have hB : ¬t.val % 2 = 0 := by omega
  have hp : t.val - 1 < cfg1.N := Nat.lt_of_le_of_lt (Nat.sub_le _ _) t.isLt
  have e := acc_first V c ⟨t.val - 1, hp⟩ (by show (t.val - 1) % 2 = 0; omega) l
  refine (acc_second V c t hB l).trans ?_
  refine (congrArg (· + blockSum (iblk1 V c 0 t) (iblk1 V c 1 t)) e).trans ?_
  rw [blockSum_iblk V c t, blockSum_iblk V c ⟨t.val - 1, hp⟩, halfSum_eq_tiles, w0_eq, zero_add]
  refine congrArg₂ (· + ·) (congrArg (tileSum _) (Fin.ext ?_)) (congrArg (tileSum _) (Fin.ext ?_))
  · show t.val - 1 = 2 * (t.val / 2); omega
  · show t.val = 2 * (t.val / 2) + 1; omega

end Cert.KernelIdeal.Region1

end
-- ==== Proof.Region1.lean ====
/-
  The value of the tiled program's second pass: after the run, lane `l` of its result array holds the sum over half
  `l / 128` of the 8192 spots of the per-spot latent correlation. The resident block is written back at each half's
  second point, where it holds that half's sum in every lane; the two write-backs cover the 256 lanes.
-/
import proofs.«173397_j30520037605625_2_alg».proof.Proof.Region1Acc

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen Cert.Spec

variable (V : (c : Dev nD) → (b : Ref sig .tc) → Buf (Elt Ideal) ((c : Thread nD τ).loc b))

/-- The result array as one function of its index: lane `l` holds the sum over half `l / 128`. -/
def result (c : Dev nD) : Buf (Elt Ideal) ((c : Thread nD τ).loc main_v37) :=
  fun i : S1x256.Idx => halfSum (rowK (arr2 (V c main_arg2)) (arr2 (V c main_arg3)))
    ⟨(i 1).val / 128, by have := idx2_lt1 i; omega⟩

/-- After a half's second point the whole resident block holds the half's sum. -/
theorem acc_half_idx (c : Dev nD) (t : Fin cfg1.N) (h1 : t.val % 2 = 1) (y : S1x128.Idx) :
    outsAt1 V c t.val t.isLt y
      = halfSum (rowK (arr2 (V c main_arg2)) (arr2 (V c main_arg3))) ⟨t.val / 2, by have := point_lt t; omega⟩ := by
  obtain ⟨p, q, rfl⟩ : ∃ (p : Fin 1) (q : Fin 128), y = ix2 p q := ⟨y 0, y 1, eq_ix2 y⟩
  obtain rfl : p = 0 := Subsingleton.elim _ _
  exact acc_half V c t h1 q

/-- The result window's block index at point `t` is `(0, t / 2)`. -/
theorem index2 : ∀ t : Fin cfg1.N, win1_2.index t 0 = 0 ∧ win1_2.index t 1 = t.val / 2 :=
  (by decide +kernel : ∀ t : Fin grid1.N, win1_2.index t 0 = 0 ∧ win1_2.index t 1 = t.val / 2)

set_option maxHeartbeats 400000 in
/-- What a half's second point writes back is its block of `result`. -/
theorem flushed_eq (c : Dev nD) (t : Fin cfg1.N) (hf : (cfg1.win 2).flush t = true) :
    (dat1 V c).flushed 2 t = ((cfg1.win 2).blk t).view.read (Elt Ideal) (result V c) := by
  have h1 : t.val % 2 = 1 := (flush1_2 t).mp hf
  funext y
  rw [View.read_apply]
  show (cfg1.win 2).cut (grid1.coords t) ((dat1 V c).after 2 t) y = _
  rw [after1_2]
  refine (acc_half_idx V c t h1 _).trans ?_
  unfold result
  refine congrArg (halfSum _) (Fin.ext ?_)
  have hy : (y 1).val < 128 := (y 1).isLt
  show t.val / 2 = (win1_2.index t 1 * 128 + 1 * (y 1).val) / 128
  rw [(index2 t).2]
  omega

set_option maxHeartbeats 400000 in
/-- The two write-backs cover the 256 lanes: lane `l` lies in the block written back at point `1` or `3`. -/
theorem cover (i : S1x256.Idx) :
    ∃ t : Fin cfg1.N, (cfg1.win 2).flush t = true ∧ i ∈ ((cfg1.win 2).blk t).view.set := by
  have h0 : (i 0 : Nat) < 1 := (i 0).isLt
  have h1 : (i 1 : Nat) < 256 := (i 1).isLt
  by_cases hl : (i 1 : Nat) < 128
  · refine ⟨t1_1, (flush1_2 t1_1).mpr rfl, ?_⟩
    show i ∈ ((View.whole main_v37).slice (win1_2.rect t1_1)).set
    rw [View.set_slice_whole, Rect.mem_set_unit]
    intro a
    match a with
    | ⟨0, _⟩ =>
      show win1_2.index t1_1 0 * win1_2.size 0 ≤ (i 0 : Nat)
        ∧ (i 0 : Nat) < win1_2.index t1_1 0 * win1_2.size 0 + win1_2.xsize (grid1.coords t1_1) 0
      rw [show win1_2.index t1_1 0 * win1_2.size 0 = 0 from by decide +kernel,
        show win1_2.xsize (grid1.coords t1_1) 0 = 1 from by decide +kernel]; omega
    | ⟨1, _⟩ =>
      show win1_2.index t1_1 1 * win1_2.size 1 ≤ (i 1 : Nat)
        ∧ (i 1 : Nat) < win1_2.index t1_1 1 * win1_2.size 1 + win1_2.xsize (grid1.coords t1_1) 1
      rw [show win1_2.index t1_1 1 * win1_2.size 1 = 0 from by decide +kernel,
        show win1_2.xsize (grid1.coords t1_1) 1 = 128 from by decide +kernel]; omega
  · refine ⟨t1_3, (flush1_2 t1_3).mpr rfl, ?_⟩
    show i ∈ ((View.whole main_v37).slice (win1_2.rect t1_3)).set
    rw [View.set_slice_whole, Rect.mem_set_unit]
    intro a
    match a with
    | ⟨0, _⟩ =>
      show win1_2.index t1_3 0 * win1_2.size 0 ≤ (i 0 : Nat)
        ∧ (i 0 : Nat) < win1_2.index t1_3 0 * win1_2.size 0 + win1_2.xsize (grid1.coords t1_3) 0
      rw [show win1_2.index t1_3 0 * win1_2.size 0 = 0 from by decide +kernel,
        show win1_2.xsize (grid1.coords t1_3) 0 = 1 from by decide +kernel]; omega
    | ⟨1, _⟩ =>
      show win1_2.index t1_3 1 * win1_2.size 1 ≤ (i 1 : Nat)
        ∧ (i 1 : Nat) < win1_2.index t1_3 1 * win1_2.size 1 + win1_2.xsize (grid1.coords t1_3) 1
      rw [show win1_2.index t1_3 1 * win1_2.size 1 = 128 from by decide +kernel,
        show win1_2.xsize (grid1.coords t1_3) 1 = 128 from by decide +kernel]; omega

/-- So the result array ends holding `result`. -/
theorem final (c : Dev nD) : (dat1 V c).arrAt 2 cfg1.N = result V c :=
  (dat1 V c).arrAt_eq_of_cover 2 (result V c) (flushed_eq V c) (cover)

/-- THE SECOND PASS: lane `l` of its result array holds the sum of the per-spot correlations over half `l / 128`. -/
theorem region1 : Cert.KernelIdeal.Iface.Region1 V := fun c l =>
  (congrFun (final V c) (ix2 (0 : Fin 1) l)).trans rfl

end Cert.KernelIdeal.Region1

end
-- ==== Proof.KTailDefs.lean ====
/-
  The host operations of the tiled program around its two passes, as terms over arrays: the per-gene quotient array
  formed from the five arrays of per-gene sums, the row selected from it, and the three scalars' closing arithmetic.
  Named here once so that every later statement carries them unopened.
-/
import proofs.«173397_j30520037605625_2_alg».proof.Proof.Iface

set_option maxRecDepth 16384

noncomputable section

namespace Cert.KernelIdeal.KTail

open Cert.KernelIdeal Cert.KernelIdeal.Gen Cert.Spec
open Idealize.ShloMosaic Idealize.ShloMosaic.TcCoe Idealize.ShloMosaic.ValueIdx Idealize.SL.Sem

/-- A scalar word spread over the row of 4096 genes. -/
def spread (b : BitVec 32) : FVec Ideal S1x4096 .f32 :=
  broadcastInDim S1x4096 ![] bcast_S_S1x4096 (constant (F := Ideal) S_ .f32 b)

/-- The per-gene quotient array of the first stretch, from the five arrays of sums: with every array divided by the
    word 8192, (X − S1·S2) over √max(Q1 − S1², 0) · √max(Q2 − S2², 0). -/
def quot (S1 S2 Q1 Q2 X : FVec Ideal S1x4096 .f32) : FVec Ideal S1x4096 .f32 :=
  Host.divf
    (subf (Host.divf X (spread 0x46000000#32))
      (mulf (Host.divf S1 (spread 0x46000000#32)) (Host.divf S2 (spread 0x46000000#32))))
    (mulf
      (Host.sqrt (maximumf
        (subf (Host.divf Q1 (spread 0x46000000#32))
          (mulf (Host.divf S1 (spread 0x46000000#32)) (Host.divf S1 (spread 0x46000000#32))))
        (spread 0x00000000#32)))
      (Host.sqrt (maximumf
        (subf (Host.divf Q2 (spread 0x46000000#32))
          (mulf (Host.divf S2 (spread 0x46000000#32)) (Host.divf S2 (spread 0x46000000#32))))
        (spread 0x00000000#32))))

/-- The selected row: the zero word where the quotient differs from itself, the quotient elsewhere. -/
def sel (q : FVec Ideal S1x4096 .f32) : FVec Ideal S1x4096 .f32 :=
  select (cmpf .une q q) (spread 0x00000000#32) q

/-- One minus the total of a row (started from the zero word) over the word 4096. -/
def pccTail (x : FVec Ideal S1x4096 .f32) : FVec Ideal S_ .f32 :=
  subf (constant (F := Ideal) S_ .f32 0x3F800000#32)
    (Host.divf (Host.reduceAdd x (constant (F := Ideal) S_ .f32 0x00000000#32) reducesTo_S1x4096_S_d0_1 h_S_)
      (constant (F := Ideal) S_ .f32 0x45800000#32))

/-- The total of Q1 − 2·X + Q2 (started from the zero word) over the word 2^25. -/
def mseTail (Q1 Q2 X : FVec Ideal S1x4096 .f32) : FVec Ideal S_ .f32 :=
  Host.divf
    (Host.reduceAdd (addf (subf Q1 (mulf (spread 0x40000000#32) X)) Q2)
      (constant (F := Ideal) S_ .f32 0x00000000#32) reducesTo_S1x4096_S_d0_1 h_S_)
    (constant (F := Ideal) S_ .f32 0x4C000000#32)

/-- One minus (lane 0 plus lane 128 of a 256-lane row) over the word 8192. -/
def latTail (y : FVec Ideal S1x256 .f32) : FVec Ideal S_ .f32 :=
  subf (constant (F := Ideal) S_ .f32 0x3F800000#32)
    (Host.divf
      (addf (shapeCast S_ (extractStridedSlice S1x1 ![0, 0] y slices_S1x256_S1x1_0_0) shapeCasts_S1x1_S_)
        (shapeCast S_ (extractStridedSlice S1x1 ![0, 128] y slices_S1x256_S1x1_0_128) shapeCasts_S1x1_S_))
      (constant (F := Ideal) S_ .f32 0x46000000#32))

end Cert.KernelIdeal.KTail

end
-- ==== Proof.KTailWalk.lean ====
/-
  What each buffer that matters holds after a stretch of the tiled program's host operations, as a function of what
  the stretch found in the buffers it reads. Every statement is over an arbitrary valuation, so no array is opened.

  The first stretch forms the per-gene quotient array, the array of tests "the quotient differs from itself" and a row
  of zero words; the second selects per gene; the third closes the gene-correlation scalar and the squared-error scalar;
  the last closes the latent-correlation scalar from lanes 0 and 128 of the second pass's row.
-/
import proofs.«173397_j30520037605625_2_alg».proof.Proof.KTailDefs
import Idealize.ShloMosaic.Lib.StableHlo.Run

set_option maxRecDepth 16384

noncomputable section

namespace Cert.KernelIdeal.KTail

open Cert.KernelIdeal Cert.KernelIdeal.Gen Cert.Spec
open Idealize.ShloMosaic Idealize.ShloMosaic.TcCoe Idealize.ShloMosaic.ValueIdx Idealize.SL.Sem

/-- No operation of the named stretch writes the buffer the goal reads. -/
local macro "untouched" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (V : Valuation τ sig (Elt Ideal))

/-! ## The first stretch -/

theorem ops1_v24 : StableHlo.after hostOps1 V (Proc.devRef .tc main_v24)
    = quot (V (Proc.devRef .tc main_v0_0)) (V (Proc.devRef .tc main_v0_1)) (V (Proc.devRef .tc main_v0_2))
        (V (Proc.devRef .tc main_v0_3)) (V (Proc.devRef .tc main_v0_4)) := by
  after_results_simp; rfl

theorem ops1_v0_2 : StableHlo.after hostOps1 V (Proc.devRef .tc main_v0_2) = V (Proc.devRef .tc main_v0_2) := by
  untouched hostOps1
theorem ops1_v0_3 : StableHlo.after hostOps1 V (Proc.devRef .tc main_v0_3) = V (Proc.devRef .tc main_v0_3) := by
  untouched hostOps1
theorem ops1_v0_4 : StableHlo.after hostOps1 V (Proc.devRef .tc main_v0_4) = V (Proc.devRef .tc main_v0_4) := by
  untouched hostOps1
theorem ops1_arg2 : StableHlo.after hostOps1 V (Proc.devRef .tc main_arg2) = V (Proc.devRef .tc main_arg2) := by
  untouched hostOps1
theorem ops1_arg3 : StableHlo.after hostOps1 V (Proc.devRef .tc main_arg3) = V (Proc.devRef .tc main_arg3) := by
  untouched hostOps1

theorem ops1_v25 : StableHlo.after hostOps1 V (Proc.devRef .tc main_v25)
    = cmpf .une
        (quot (V (Proc.devRef .tc main_v0_0)) (V (Proc.devRef .tc main_v0_1)) (V (Proc.devRef .tc main_v0_2))
          (V (Proc.devRef .tc main_v0_3)) (V (Proc.devRef .tc main_v0_4)))
        (quot (V (Proc.devRef .tc main_v0_0)) (V (Proc.devRef .tc main_v0_1)) (V (Proc.devRef .tc main_v0_2))
          (V (Proc.devRef .tc main_v0_3)) (V (Proc.devRef .tc main_v0_4))) := by
  after_results_simp; rfl

theorem ops1_v26 : StableHlo.after hostOps1 V (Proc.devRef .tc main_v26) = spread 0x00000000#32 := by
  after_results_simp; rfl

/-! ## The second stretch -/

theorem ops11_v27 : StableHlo.after hostOps1_1 V (Proc.devRef .tc main_v27)
    = select (V (Proc.devRef .tc main_v25)) (V (Proc.devRef .tc main_v26)) (V (Proc.devRef .tc main_v24)) := by
  after_results; rfl

theorem ops11_v0_2 : StableHlo.after hostOps1_1 V (Proc.devRef .tc main_v0_2) = V (Proc.devRef .tc main_v0_2) := by
  untouched hostOps1_1
theorem ops11_v0_3 : StableHlo.after hostOps1_1 V (Proc.devRef .tc main_v0_3) = V (Proc.devRef .tc main_v0_3) := by
  untouched hostOps1_1
theorem ops11_v0_4 : StableHlo.after hostOps1_1 V (Proc.devRef .tc main_v0_4) = V (Proc.devRef .tc main_v0_4) := by
  untouched hostOps1_1
theorem ops11_arg2 : StableHlo.after hostOps1_1 V (Proc.devRef .tc main_arg2) = V (Proc.devRef .tc main_arg2) := by
  untouched hostOps1_1
theorem ops11_arg3 : StableHlo.after hostOps1_1 V (Proc.devRef .tc main_arg3) = V (Proc.devRef .tc main_arg3) := by
  untouched hostOps1_1

/-! ## The third stretch -/

theorem ops12_v30 : StableHlo.after hostOps1_2 V (Proc.devRef .tc main_v30) = pccTail (V (Proc.devRef .tc main_v27)) := by
  after_results; rfl

theorem ops12_v36 : StableHlo.after hostOps1_2 V (Proc.devRef .tc main_v36)
    = mseTail (V (Proc.devRef .tc main_v0_2)) (V (Proc.devRef .tc main_v0_3)) (V (Proc.devRef .tc main_v0_4)) := by
  after_results; rfl

theorem ops12_arg2 : StableHlo.after hostOps1_2 V (Proc.devRef .tc main_arg2) = V (Proc.devRef .tc main_arg2) := by
  untouched hostOps1_2
theorem ops12_arg3 : StableHlo.after hostOps1_2 V (Proc.devRef .tc main_arg3) = V (Proc.devRef .tc main_arg3) := by
  untouched hostOps1_2

/-! ## The last stretch -/

theorem ops2_v44 : StableHlo.after hostOps2 V (Proc.devRef .tc main_v44) = latTail (V (Proc.devRef .tc main_v37)) := by
  after_results; rfl

theorem ops2_v30 : StableHlo.after hostOps2 V (Proc.devRef .tc main_v30) = V (Proc.devRef .tc main_v30) := by
  untouched hostOps2
theorem ops2_v36 : StableHlo.after hostOps2 V (Proc.devRef .tc main_v36) = V (Proc.devRef .tc main_v36) := by
  untouched hostOps2

end Cert.KernelIdeal.KTail

end
-- ==== Proof.KTailMath.lean ====
/-
  The tiled program's host arithmetic read at an index, over arbitrary arrays: the per-gene quotient is the one-pass
  correlation `pccCol` of the five sums at that gene; the selection returns the quotient (an extended real never
  differs from itself); a total sum of a row of 4096, started from a word, is that word plus the sum over the genes;
  and the two scalars' closing arithmetic in the words of `Spec`.
-/
import proofs.«173397_j30520037605625_2_alg».proof.Proof.KTailDefs
import Idealize.ShloMosaic.Lib.IdealHost

set_option maxRecDepth 16384

noncomputable section

namespace Cert.KernelIdeal.KTail

open Cert.KernelIdeal Cert.KernelIdeal.Gen Cert.Spec
open Idealize.ShloMosaic Idealize.ShloMosaic.TcCoe Idealize.ShloMosaic.ValueIdx Idealize.SL.Sem

/-- A spread word reads the word's value at every gene. -/
theorem spread_apply (b : BitVec 32) (i : S1x4096.Idx) : spread b i = Ideal.ofBits .f32 b := by
  unfold spread; rw [broadcastInDim_scalar_apply]; rfl

/-- The host's square root at an index is the extended reals' square root of the element. -/
theorem hostSqrt_apply (a : FVec Ideal S1x4096 .f32) (i : S1x4096.Idx) : Host.sqrt a i = Ideal.sqrt (a i) := rfl

/-- The per-gene quotient at a gene is the one-pass correlation of the five sums at that gene. -/
theorem quot_apply (S1 S2 Q1 Q2 X : FVec Ideal S1x4096 .f32) (i : S1x4096.Idx) :
    quot S1 S2 Q1 Q2 X i = pccCol (S1 i) (S2 i) (Q1 i) (Q2 i) (X i) := by
  unfold quot pccCol w8192 w0
  simp only [hostDivf_apply, subf_apply, mulf_apply, maximumf_apply, hostSqrt_apply, spread_apply]

/-- An extended real does not differ from itself. -/
theorem cmp_une_self (x : EReal) : Ideal.cmp .une x x = 0#1 := by simp [Ideal.cmp]

/-- The selection returns the quotient everywhere. -/
theorem sel_eq (q : FVec Ideal S1x4096 .f32) : sel q = q := by
  funext i
  unfold sel
  rw [select_apply, cmpf_apply]
  show Scalar.select (Ideal.cmp .une (q i) (q i)) _ _ = _
  rw [cmp_une_self, select_zero]

/-- The host's total sum of a row of 4096 from a word: the word plus the sum over the genes. -/
theorem total_apply (x : FVec Ideal S1x4096 .f32) (b : BitVec 32) (j : S_.Idx) :
    Host.reduceAdd x (constant (F := Ideal) S_ .f32 b) reducesTo_S1x4096_S_d0_1 h_S_ j
      = Ideal.ofBits .f32 b + ∑ g : Fin 4096, x (ix2 (0 : Fin 1) g) := by
  rw [hostReduceAdd_apply, Ideal.hostReduceAdd_total _ (fun a => a.elim0), sum_idx2, Fin.sum_univ_one]
  rfl

/-- One minus the mean over the genes, in the words of `Spec`. -/
theorem pccTail_apply (x : FVec Ideal S1x4096 .f32) (j : S_.Idx) :
    pccTail x j = w1 - Ideal.div (w0 + ∑ g : Fin 4096, x (ix2 (0 : Fin 1) g)) w4096 := by
  unfold pccTail
  rw [subf_apply, hostDivf_apply, total_apply]
  rfl

/-- The mean squared difference from the three arrays of sums, in the words of `Spec`. -/
theorem mseTail_apply (Q1 Q2 X : FVec Ideal S1x4096 .f32) (j : S_.Idx) :
    mseTail Q1 Q2 X j
      = Ideal.div (w0 + ∑ g : Fin 4096,
          ((Q1 (ix2 (0 : Fin 1) g) - w2 * X (ix2 (0 : Fin 1) g)) + Q2 (ix2 (0 : Fin 1) g))) w2p25 := by
  unfold mseTail
  rw [hostDivf_apply, total_apply]
  simp only [addf_apply, subf_apply, mulf_apply, spread_apply]
  rfl

end Cert.KernelIdeal.KTail

end
-- ==== Proof.KTailStats.lean ====
/-
  The two scalars the tiled program forms from its first pass, at the last boundary of its run: one minus the mean
  over the genes of the one-pass correlation, and the mean squared difference from the sums of squares and of cross
  products. First over arbitrary arrays whose entries are the named column sums; then the run's buffers are walked
  from the last boundary back to the first pass's exit, where the five result arrays hold those sums.
-/
import proofs.«173397_j30520037605625_2_alg».proof.Proof.KTailWalk
import proofs.«173397_j30520037605625_2_alg».proof.Proof.KTailMath

set_option maxRecDepth 16384

noncomputable section

namespace Cert.KernelIdeal.KTail

open Cert.KernelIdeal Cert.KernelIdeal.Gen Cert.Spec
open Idealize.ShloMosaic Idealize.ShloMosaic.TcCoe Idealize.ShloMosaic.ValueIdx Idealize.SL.Sem

/-! ## Over arbitrary arrays holding the column sums -/

/-- One minus the mean of the per-gene quotients is `K_pcc`, when the five arrays hold the five column sums. -/
theorem pcc_value (S1 S2 Q1 Q2 X : FVec Ideal S1x4096 .f32) (sf o : Fin 8192 → Fin 4096 → EReal)
    (h1 : ∀ g : Fin 4096, S1 (ix2 (0 : Fin 1) g) = colSum sf g)
    (h2 : ∀ g : Fin 4096, S2 (ix2 (0 : Fin 1) g) = colSum o g)
    (h3 : ∀ g : Fin 4096, Q1 (ix2 (0 : Fin 1) g) = colSum (fun r k => sf r k * sf r k) g)
    (h4 : ∀ g : Fin 4096, Q2 (ix2 (0 : Fin 1) g) = colSum (fun r k => o r k * o r k) g)
    (h5 : ∀ g : Fin 4096, X (ix2 (0 : Fin 1) g) = colSum (fun r k => sf r k * o r k) g) :
    pccTail (quot S1 S2 Q1 Q2 X) = fun _ => K_pcc sf o := by
  funext j
  rw [pccTail_apply]
  unfold K_pcc
  simp only [quot_apply, h1, h2, h3, h4, h5]

/-- The closing arithmetic of the squared error is `K_mse`, when the three arrays hold their column sums. -/
theorem mse_value (Q1 Q2 X : FVec Ideal S1x4096 .f32) (sf o : Fin 8192 → Fin 4096 → EReal)
    (h3 : ∀ g : Fin 4096, Q1 (ix2 (0 : Fin 1) g) = colSum (fun r k => sf r k * sf r k) g)
    (h4 : ∀ g : Fin 4096, Q2 (ix2 (0 : Fin 1) g) = colSum (fun r k => o r k * o r k) g)
    (h5 : ∀ g : Fin 4096, X (ix2 (0 : Fin 1) g) = colSum (fun r k => sf r k * o r k) g) :
    mseTail Q1 Q2 X = fun _ => K_mse sf o := by
  funext j
  rw [mseTail_apply]
  unfold K_mse
  simp only [h3, h4, h5]

/-! ## The run's buffers, from the last boundary back to the first pass's exit -/

variable (m : (ℓ : Loc nD τ sig) → Buf (Elt Ideal) ℓ) (ρ : Dev nD → PrngReg)

/-- After the selection the row is the quotient array of the first pass's five result arrays. -/
theorem W3_v27 (c : Dev nD) : W3 (F := Ideal) m ρ c (Proc.devRef .tc main_v27)
    = quot (W1 m ρ c (Proc.devRef .tc main_v0_0)) (W1 m ρ c (Proc.devRef .tc main_v0_1))
        (W1 m ρ c (Proc.devRef .tc main_v0_2)) (W1 m ρ c (Proc.devRef .tc main_v0_3))
        (W1 m ρ c (Proc.devRef .tc main_v0_4)) := by
  have e24 : W2 (F := Ideal) m ρ c (Proc.devRef .tc main_v24) = _ := ops1_v24 (W1 m ρ c)
  have e25 : W2 (F := Ideal) m ρ c (Proc.devRef .tc main_v25) = _ := ops1_v25 (W1 m ρ c)
  have e26 : W2 (F := Ideal) m ρ c (Proc.devRef .tc main_v26) = _ := ops1_v26 (W1 m ρ c)
  refine (ops11_v27 (W2 m ρ c)).trans ?_
  rw [e24, e25, e26]
  exact sel_eq _

theorem W6_v30 (c : Dev nD) : W6 (F := Ideal) m ρ c (Proc.devRef .tc main_v30)
    = pccTail (quot (W1 m ρ c (Proc.devRef .tc main_v0_0)) (W1 m ρ c (Proc.devRef .tc main_v0_1))
        (W1 m ρ c (Proc.devRef .tc main_v0_2)) (W1 m ρ c (Proc.devRef .tc main_v0_3))
        (W1 m ρ c (Proc.devRef .tc main_v0_4))) :=
  (ops2_v30 (W5 m ρ c)).trans ((W5_of_ne m ρ c main_v30 (by decide)).trans
    ((ops12_v30 (W3 m ρ c)).trans (congrArg pccTail (W3_v27 m ρ c))))

theorem W3_v0_2 (c : Dev nD) : W3 (F := Ideal) m ρ c (Proc.devRef .tc main_v0_2) = W1 m ρ c (Proc.devRef .tc main_v0_2) :=
  (ops11_v0_2 (W2 m ρ c)).trans (ops1_v0_2 (W1 m ρ c))
theorem W3_v0_3 (c : Dev nD) : W3 (F := Ideal) m ρ c (Proc.devRef .tc main_v0_3) = W1 m ρ c (Proc.devRef .tc main_v0_3) :=
  (ops11_v0_3 (W2 m ρ c)).trans (ops1_v0_3 (W1 m ρ c))
theorem W3_v0_4 (c : Dev nD) : W3 (F := Ideal) m ρ c (Proc.devRef .tc main_v0_4) = W1 m ρ c (Proc.devRef .tc main_v0_4) :=
  (ops11_v0_4 (W2 m ρ c)).trans (ops1_v0_4 (W1 m ρ c))

theorem W6_v36 (c : Dev nD) : W6 (F := Ideal) m ρ c (Proc.devRef .tc main_v36)
    = mseTail (W1 m ρ c (Proc.devRef .tc main_v0_2)) (W1 m ρ c (Proc.devRef .tc main_v0_3)) (W1 m ρ c (Proc.devRef .tc main_v0_4)) := by
  refine (ops2_v36 (W5 m ρ c)).trans ((W5_of_ne m ρ c main_v36 (by decide)).trans
    ((ops12_v36 (W3 m ρ c)).trans ?_))
  rw [W3_v0_2, W3_v0_3, W3_v0_4]

/-! ## The two scalars -/

/-- The first pass's result array `k` (window `3 + k`) at gene `g`, as the run leaves it. -/
theorem W1_v0_0 (c : Dev nD) (g : Fin 4096) :
    W1 (F := Ideal) m ρ c (Proc.devRef .tc main_v0_0) (ix2 (0 : Fin 1) g) = (dat0 (F := Ideal) (V0 m ρ) c).arrAt 3 cfg0.N (ix2 (0 : Fin 1) g) :=
  congrFun (W1_arr m ρ c 3) (ix2 (0 : Fin 1) g)
theorem W1_v0_1 (c : Dev nD) (g : Fin 4096) :
    W1 (F := Ideal) m ρ c (Proc.devRef .tc main_v0_1) (ix2 (0 : Fin 1) g) = (dat0 (F := Ideal) (V0 m ρ) c).arrAt 4 cfg0.N (ix2 (0 : Fin 1) g) :=
  congrFun (W1_arr m ρ c 4) (ix2 (0 : Fin 1) g)
theorem W1_v0_2 (c : Dev nD) (g : Fin 4096) :
    W1 (F := Ideal) m ρ c (Proc.devRef .tc main_v0_2) (ix2 (0 : Fin 1) g) = (dat0 (F := Ideal) (V0 m ρ) c).arrAt 5 cfg0.N (ix2 (0 : Fin 1) g) :=
  congrFun (W1_arr m ρ c 5) (ix2 (0 : Fin 1) g)
theorem W1_v0_3 (c : Dev nD) (g : Fin 4096) :
    W1 (F := Ideal) m ρ c (Proc.devRef .tc main_v0_3) (ix2 (0 : Fin 1) g) = (dat0 (F := Ideal) (V0 m ρ) c).arrAt 6 cfg0.N (ix2 (0 : Fin 1) g) :=
  congrFun (W1_arr m ρ c 6) (ix2 (0 : Fin 1) g)
theorem W1_v0_4 (c : Dev nD) (g : Fin 4096) :
    W1 (F := Ideal) m ρ c (Proc.devRef .tc main_v0_4) (ix2 (0 : Fin 1) g) = (dat0 (F := Ideal) (V0 m ρ) c).arrAt 7 cfg0.N (ix2 (0 : Fin 1) g) :=
  congrFun (W1_arr m ρ c 7) (ix2 (0 : Fin 1) g)

theorem pcc (h0 : Iface.Region0 (V0 (F := Ideal) m ρ)) (c : Dev nD) :
    W6 (F := Ideal) m ρ c (Proc.devRef .tc main_v30)
      = fun _ => K_pcc (arr2 (m ((c.tc : Thread nD τ).loc main_arg0)))
          (scaled (arr2 (m ((c.tc : Thread nD τ).loc main_arg1))) (col1 (m ((c.tc : Thread nD τ).loc main_arg4)))) :=
  (W6_v30 m ρ c).trans
    (pcc_value (W1 m ρ c (Proc.devRef .tc main_v0_0)) (W1 m ρ c (Proc.devRef .tc main_v0_1))
      (W1 m ρ c (Proc.devRef .tc main_v0_2)) (W1 m ρ c (Proc.devRef .tc main_v0_3))
      (W1 m ρ c (Proc.devRef .tc main_v0_4))
      (arr2 (m ((c.tc : Thread nD τ).loc main_arg0)))
      (scaled (arr2 (m ((c.tc : Thread nD τ).loc main_arg1))) (col1 (m ((c.tc : Thread nD τ).loc main_arg4))))
      (fun g => (W1_v0_0 m ρ c g).trans (h0 c g).1)
      (fun g => (W1_v0_1 m ρ c g).trans (h0 c g).2.1)
      (fun g => (W1_v0_2 m ρ c g).trans (h0 c g).2.2.1)
      (fun g => (W1_v0_3 m ρ c g).trans (h0 c g).2.2.2.1)
      (fun g => (W1_v0_4 m ρ c g).trans (h0 c g).2.2.2.2))

theorem mse (h0 : Iface.Region0 (V0 (F := Ideal) m ρ)) (c : Dev nD) :
    W6 (F := Ideal) m ρ c (Proc.devRef .tc main_v36)
      = fun _ => K_mse (arr2 (m ((c.tc : Thread nD τ).loc main_arg0)))
          (scaled (arr2 (m ((c.tc : Thread nD τ).loc main_arg1))) (col1 (m ((c.tc : Thread nD τ).loc main_arg4)))) :=
  (W6_v36 m ρ c).trans
    (mse_value (W1 m ρ c (Proc.devRef .tc main_v0_2)) (W1 m ρ c (Proc.devRef .tc main_v0_3))
      (W1 m ρ c (Proc.devRef .tc main_v0_4))
      (arr2 (m ((c.tc : Thread nD τ).loc main_arg0)))
      (scaled (arr2 (m ((c.tc : Thread nD τ).loc main_arg1))) (col1 (m ((c.tc : Thread nD τ).loc main_arg4))))
      (fun g => (W1_v0_2 m ρ c g).trans (h0 c g).2.2.1)
      (fun g => (W1_v0_3 m ρ c g).trans (h0 c g).2.2.2.1)
      (fun g => (W1_v0_4 m ρ c g).trans (h0 c g).2.2.2.2))

end Cert.KernelIdeal.KTail

end
-- ==== Proof.KTailLat.lean ====
/-
  The latent-correlation scalar of the tiled program, read off the last boundary's contents: the closing host
  arithmetic takes lanes 0 and 128 of the second pass's 256-lane row — the sums of the per-spot correlations over the
  first and the second half of the spots —, adds them, divides by the word 8192 and subtracts from the word one. The
  two argument arrays the pass read are still what the launch memory held, since nothing before the pass writes them.
-/
import proofs.«173397_j30520037605625_2_alg».proof.Proof.Iface
import proofs.«173397_j30520037605625_2_alg».proof.Proof.KTailWalk
import Idealize.ShloMosaic.Lib.IdealHost
import Idealize.ShloMosaic.Lib.ValueLayout

set_option maxRecDepth 16384

noncomputable section

namespace Cert.KernelIdeal.KTail

open Cert.KernelIdeal Cert.KernelIdeal.Gen Cert.Spec
open Idealize.ShloMosaic Idealize.ShloMosaic.TcCoe Idealize.ShloMosaic.ValueIdx Idealize.SL.Sem

/-- A one-element matrix recast as a scalar reads its only element: both row-major positions are 0. -/
theorem scalar_of_1x1 {α : Type} (X : S1x1.Idx → α) (i : S_.Idx) :
    shapeCast S_ X shapeCasts_S1x1_S_ i = X (ix2 (0 : Fin 1) (0 : Fin 1)) := by
  refine shapeCast_apply X shapeCasts_S1x1_S_ i (ix2 (0 : Fin 1) (0 : Fin 1)) ?_
  rw [Shape.rowMajor_val_two]
  exact (Shape.rowMajorPi_zero _ i).symm

/-- The closing arithmetic read at its one index: the word one minus (lane 0 plus lane 128) over the word 8192. -/
theorem latTail_apply (y : FVec Ideal S1x256 .f32) (i : S_.Idx) :
    latTail y i = w1 - Ideal.div (y (ix2 (0 : Fin 1) (⟨0, by norm_num⟩ : Fin 256))
      + y (ix2 (0 : Fin 1) (⟨128, by norm_num⟩ : Fin 256))) w8192 := by
  unfold latTail
  rw [subf_apply, hostDivf_apply, addf_apply, constant_apply, constant_apply, scalar_of_1x1, scalar_of_1x1,
    slice2_axis1_apply 0 y slices_S1x256_S1x1_0_0 (0 : Fin 1) (0 : Fin 1) (⟨0, by norm_num⟩ : Fin 256) rfl,
    slice2_axis1_apply 128 y slices_S1x256_S1x1_0_128 (0 : Fin 1) (0 : Fin 1) (⟨128, by norm_num⟩ : Fin 256) rfl]
  rfl

/-- At the second pass's entry the first latent array is still the launch memory's. -/
theorem V4_arg2 (m : (ℓ : Loc nD τ sig) → Buf (Elt Ideal) ℓ) (ρ : Dev nD → PrngReg) (c : Dev nD) :
    V4 (F := Ideal) m ρ c main_arg2 = m ((c.tc : Thread nD τ).loc main_arg2) :=
  calc W4 (F := Ideal) m ρ c (Proc.devRef .tc main_arg2)
    _ = W3 (F := Ideal) m ρ c (Proc.devRef .tc main_arg2) := ops12_arg2 _
    _ = W2 (F := Ideal) m ρ c (Proc.devRef .tc main_arg2) := ops11_arg2 _
    _ = W1 (F := Ideal) m ρ c (Proc.devRef .tc main_arg2) := ops1_arg2 _
    _ = W0 (F := Ideal) m ρ c (Proc.devRef .tc main_arg2) := W1_of_ne m ρ c main_arg2 (by decide)
    _ = m ((c.tc : Thread nD τ).loc main_arg2) := rfl

/-- At the second pass's entry the second latent array is still the launch memory's. -/
theorem V4_arg3 (m : (ℓ : Loc nD τ sig) → Buf (Elt Ideal) ℓ) (ρ : Dev nD → PrngReg) (c : Dev nD) :
    V4 (F := Ideal) m ρ c main_arg3 = m ((c.tc : Thread nD τ).loc main_arg3) :=
  calc W4 (F := Ideal) m ρ c (Proc.devRef .tc main_arg3)
    _ = W3 (F := Ideal) m ρ c (Proc.devRef .tc main_arg3) := ops12_arg3 _
    _ = W2 (F := Ideal) m ρ c (Proc.devRef .tc main_arg3) := ops11_arg3 _
    _ = W1 (F := Ideal) m ρ c (Proc.devRef .tc main_arg3) := ops1_arg3 _
    _ = W0 (F := Ideal) m ρ c (Proc.devRef .tc main_arg3) := W1_of_ne m ρ c main_arg3 (by decide)
    _ = m ((c.tc : Thread nD τ).loc main_arg3) := rfl

/-- THE LATENT SCALAR AT THE RETURN. Lane 0 holds the first half's sum and lane 128 the second half's (128 / 128 = 1),
    so the closing arithmetic is the tiled form of the scalar, of the launch memory's two latent arrays. -/
theorem lat (m : (ℓ : Loc nD τ sig) → Buf (Elt Ideal) ℓ) (ρ : Dev nD → PrngReg)
    (h1 : Iface.Region1 (V4 (F := Ideal) m ρ)) (c : Dev nD) :
    W6 (F := Ideal) m ρ c (Proc.devRef .tc main_v44)
      = fun _ => K_lat (arr2 (m ((c.tc : Thread nD τ).loc main_arg2))) (arr2 (m ((c.tc : Thread nD τ).loc main_arg3))) := by
  have hrow : W5 (F := Ideal) m ρ c (Proc.devRef .tc main_v37) = (dat1 (F := Ideal) (V4 m ρ) c).arrAt 2 cfg1.N :=
    W5_arr m ρ c 2
  have l0 := h1 c (⟨0, by norm_num⟩ : Fin 256)
  have l1 := h1 c (⟨128, by norm_num⟩ : Fin 256)
  rw [V4_arg2, V4_arg3] at l0 l1
  funext i
  show StableHlo.after hostOps2 (W5 (F := Ideal) m ρ c) (Proc.devRef .tc main_v44) i = _
  rw [ops2_v44, latTail_apply, hrow, l0, l1]
  rfl

end Cert.KernelIdeal.KTail

end
-- ==== Proof.KTail.lean ====
/-
  The three result buffers of the tiled program at the last boundary of its run, from what its two passes leave: the
  latent-correlation scalar from the second pass's row, the squared-error and gene-correlation scalars from the first
  pass's five arrays of column sums.
-/
import proofs.«173397_j30520037605625_2_alg».proof.Proof.KTailStats
import proofs.«173397_j30520037605625_2_alg».proof.Proof.KTailLat

set_option maxRecDepth 16384

noncomputable section

namespace Cert.KernelIdeal.KTail

open Cert.KernelIdeal Cert.KernelIdeal.Gen Cert.Spec
open Idealize.ShloMosaic Idealize.ShloMosaic.TcCoe Idealize.ShloMosaic.ValueIdx Idealize.SL.Sem

theorem results (m : (ℓ : Loc nD τ sig) → Buf (Elt Ideal) ℓ) (ρ : Dev nD → PrngReg)
    (h0 : Iface.Region0 (V0 (F := Ideal) m ρ)) (h1 : Iface.Region1 (V4 (F := Ideal) m ρ)) : Iface.Results m ρ :=
  fun c => ⟨lat m ρ h1 c, mse m ρ h0 c, pcc m ρ h0 c⟩

end Cert.KernelIdeal.KTail

end
-- ==== Proof.RefRun.lean ====
/-
  The plain program's run. Its @main is a straight line of 124 array operations once the four calls it makes
  (a select; a mean that skips undefined entries, itself calling a sum that does, itself calling a select; and the same
  two over the genes) are replaced by the callee's operations over the call's own buffers. This module lists those
  operations in order (`ops`), shows @main is exactly that line (`main_eq`), that every buffer an operation touches is
  a TensorCore reference (`ops_sub`), and reads the run back (`run_main`): every weakly fair execution terminates with
  each buffer at the fold of the operations' results over the launch contents. No operation writes an argument
  (`kept_arg0` … `kept_arg4`).
-/
import proofs.«173397_j30520037605625_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- @main's operations in order, each call replaced by its callee's operations over that call's buffers: the
    per-spot correlation of the two latent codes (operations 1–44 after the weighted predictions), its mean over the
    defined entries and the complement to one; the same per gene on the transposed arrays; the mean squared difference. -/
abbrev ops : List (HloOp τ sig (Elt F)) :=
  [ StableHlo.unary main_arg4 main_v0 (broadcastInDim S8192x4096 ![0, 1] bcast_S8192x1_S8192x4096_0_1 : (⟨S8192x1, .f32⟩ : BufTy).Contents (Elt F) → (⟨S8192x4096, .f32⟩ : BufTy).Contents (Elt F)),
    StableHlo.binary main_arg1 main_v0 main_v1 (mulf : (⟨S8192x4096, .f32⟩ : BufTy).Contents (Elt F) → (⟨S8192x4096, .f32⟩ : BufTy).Contents (Elt F) → (⟨S8192x4096, .f32⟩ : BufTy).Contents (Elt F)),
    StableHlo.nullary main_cst (constant S_ .f32 0x00000000#32),
    StableHlo.binary main_arg2 main_cst main_v2 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.unary main_v2 main_v3 (broadcastInDim S8192x1 ![0] bcast_S8192_S8192x1_0 : (⟨S8192, .f32⟩ : BufTy).Contents (Elt F) → (⟨S8192x1, .f32⟩ : BufTy).Contents (Elt F)),
    StableHlo.nullary main_cst_0 (constant S_ .f32 0x44000000#32),
    StableHlo.unary main_cst_0 main_v4 (broadcastInDim S8192x1 ![] bcast_S_S8192x1 : (⟨S_, .f32⟩ : BufTy).Contents (Elt F) → (⟨S8192x1, .f32⟩ : BufTy).Contents (Elt F)),
    StableHlo.binary main_v3 main_v4 main_v5 (Host.divf : (⟨S8192x1, .f32⟩ : BufTy).Contents (Elt F) → (⟨S8192x1, .f32⟩ : BufTy).Contents (Elt F) → (⟨S8192x1, .f32⟩ : BufTy).Contents (Elt F)),
    StableHlo.nullary main_cst_1 (constant S_ .f32 0x00000000#32),
    StableHlo.binary main_arg3 main_cst_1 main_v6 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.unary main_v6 main_v7 (broadcastInDim S8192x1 ![0] bcast_S8192_S8192x1_0 : (⟨S8192, .f32⟩ : BufTy).Contents (Elt F) → (⟨S8192x1, .f32⟩ : BufTy).Contents (Elt F)),
    StableHlo.nullary main_cst_2 (constant S_ .f32 0x44000000#32),
    StableHlo.unary main_cst_2 main_v8 (broadcastInDim S8192x1 ![] bcast_S_S8192x1 : (⟨S_, .f32⟩ : BufTy).Contents (Elt F) → (⟨S8192x1, .f32⟩ : BufTy).Contents (Elt F)),
    StableHlo.binary main_v7 main_v8 main_v9 (Host.divf : (⟨S8192x1, .f32⟩ : BufTy).Contents (Elt F) → (⟨S8192x1, .f32⟩ : BufTy).Contents (Elt F) → (⟨S8192x1, .f32⟩ : BufTy).Contents (Elt F)),
    StableHlo.unary main_v5 main_v10 (broadcastInDim S8192x512 ![0, 1] bcast_S8192x1_S8192x512_0_1 : (⟨S8192x1, .f32⟩ : BufTy).Contents (Elt F) → (⟨S8192x512, .f32⟩ : BufTy).Contents (Elt F)),
    StableHlo.binary main_arg2 main_v10 main_v11 (subf : (⟨S8192x512, .f32⟩ : BufTy).Contents (Elt F) → (⟨S8192x512, .f32⟩ : BufTy).Contents (Elt F) → (⟨S8192x512, .f32⟩ : BufTy).Contents (Elt F)),
    StableHlo.unary main_v9 main_v12 (broadcastInDim S8192x512 ![0, 1] bcast_S8192x1_S8192x512_0_1 : (⟨S8192x1, .f32⟩ : BufTy).Contents (Elt F) → (⟨S8192x512, .f32⟩ : BufTy).Contents (Elt F)),
    StableHlo.binary main_arg3 main_v12 main_v13 (subf : (⟨S8192x512, .f32⟩ : BufTy).Contents (Elt F) → (⟨S8192x512, .f32⟩ : BufTy).Contents (Elt F) → (⟨S8192x512, .f32⟩ : BufTy).Contents (Elt F)),
    StableHlo.binary main_v11 main_v11 main_v14 (mulf : (⟨S8192x512, .f32⟩ : BufTy).Contents (Elt F) → (⟨S8192x512, .f32⟩ : BufTy).Contents (Elt F) → (⟨S8192x512, .f32⟩ : BufTy).Contents (Elt F)),
    StableHlo.nullary main_cst_3 (constant S_ .f32 0x00000000#32),
    StableHlo.binary main_v14 main_cst_3 main_v15 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.nullary main_cst_4 (constant S_ .f32 0x44000000#32),
    StableHlo.unary main_cst_4 main_v16 (broadcastInDim S8192 ![] bcast_S_S8192 : (⟨S_, .f32⟩ : BufTy).Contents (Elt F) → (⟨S8192, .f32⟩ : BufTy).Contents (Elt F)),
    StableHlo.binary main_v15 main_v16 main_v17 (Host.divf : (⟨S8192, .f32⟩ : BufTy).Contents (Elt F) → (⟨S8192, .f32⟩ : BufTy).Contents (Elt F) → (⟨S8192, .f32⟩ : BufTy).Contents (Elt F)),
    StableHlo.unary main_v17 main_v18 (Host.sqrt : (⟨S8192, .f32⟩ : BufTy).Contents (Elt F) → (⟨S8192, .f32⟩ : BufTy).Contents (Elt F)),
    StableHlo.binary main_v13 main_v13 main_v19 (mulf : (⟨S8192x512, .f32⟩ : BufTy).Contents (Elt F) → (⟨S8192x512, .f32⟩ : BufTy).Contents (Elt F) → (⟨S8192x512, .f32⟩ : BufTy).Contents (Elt F)),
    StableHlo.nullary main_cst_5 (constant S_ .f32 0x00000000#32),
    StableHlo.binary main_v19 main_cst_5 main_v20 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.nullary main_cst_6 (constant S_ .f32 0x44000000#32),
    StableHlo.unary main_cst_6 main_v21 (broadcastInDim S8192 ![] bcast_S_S8192 : (⟨S_, .f32⟩ : BufTy).Contents (Elt F) → (⟨S8192, .f32⟩ : BufTy).Contents (Elt F)),
    StableHlo.binary main_v20 main_v21 main_v22 (Host.divf : (⟨S8192, .f32⟩ : BufTy).Contents (Elt F) → (⟨S8192, .f32⟩ : BufTy).Contents (Elt F) → (⟨S8192, .f32⟩ : BufTy).Contents (Elt F)),
    StableHlo.unary main_v22 main_v23 (Host.sqrt : (⟨S8192, .f32⟩ : BufTy).Contents (Elt F) → (⟨S8192, .f32⟩ : BufTy).Contents (Elt F)),
    StableHlo.binary main_v11 main_v13 main_v24 (mulf : (⟨S8192x512, .f32⟩ : BufTy).Contents (Elt F) → (⟨S8192x512, .f32⟩ : BufTy).Contents (Elt F) → (⟨S8192x512, .f32⟩ : BufTy).Contents (Elt F)),
    StableHlo.nullary main_cst_7 (constant S_ .f32 0x00000000#32),
    StableHlo.binary main_v24 main_cst_7 main_v25 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.nullary main_cst_8 (constant S_ .f32 0x44000000#32),
    StableHlo.unary main_cst_8 main_v26 (broadcastInDim S8192 ![] bcast_S_S8192 : (⟨S_, .f32⟩ : BufTy).Contents (Elt F) → (⟨S8192, .f32⟩ : BufTy).Contents (Elt F)),
    StableHlo.binary main_v25 main_v26 main_v27 (Host.divf : (⟨S8192, .f32⟩ : BufTy).Contents (Elt F) → (⟨S8192, .f32⟩ : BufTy).Contents (Elt F) → (⟨S8192, .f32⟩ : BufTy).Contents (Elt F)),
    StableHlo.binary main_v18 main_v23 main_v28 (mulf : (⟨S8192, .f32⟩ : BufTy).Contents (Elt F) → (⟨S8192, .f32⟩ : BufTy).Contents (Elt F) → (⟨S8192, .f32⟩ : BufTy).Contents (Elt F)),
    StableHlo.binary main_v27 main_v28 main_v29 (Host.divf : (⟨S8192, .f32⟩ : BufTy).Contents (Elt F) → (⟨S8192, .f32⟩ : BufTy).Contents (Elt F) → (⟨S8192, .f32⟩ : BufTy).Contents (Elt F)),
    StableHlo.binary main_v29 main_v29 main_v30 (cmpf .une : (⟨S8192, .f32⟩ : BufTy).Contents (Elt F) → (⟨S8192, .f32⟩ : BufTy).Contents (Elt F) → (⟨S8192, .i1⟩ : BufTy).Contents (Elt F)),
    StableHlo.nullary main_cst_9 (constant S_ .f32 0x00000000#32),
    StableHlo.unary main_cst_9 main_v31 (broadcastInDim S8192 ![] bcast_S_S8192 : (⟨S_, .f32⟩ : BufTy).Contents (Elt F) → (⟨S8192, .f32⟩ : BufTy).Contents (Elt F)),
    StableHlo.TRef.ternary (.of main_v30 : StableHlo.TRef sig ⟨S8192, .i1⟩) (.of main_v31 : StableHlo.TRef sig ⟨S8192, .f32⟩) (.of main_v29 : StableHlo.TRef sig ⟨S8192, .f32⟩) main_call0.v0 select,
    StableHlo.TRef.binary (.of main_v32 : StableHlo.TRef sig ⟨S8192, .f32⟩) (.of main_v32 : StableHlo.TRef sig ⟨S8192, .f32⟩) main_call1.v0 (cmpf .une),
    StableHlo.TRef.unary main_call1.v0 main_call1.v1 noti,
    StableHlo.TRef.unary main_call1.v1 main_call1.v2 (extui 32 · natLt_1_32),
    StableHlo.TRef.unary main_call1.v2 main_call1.v3 (sitofp .f32),
    StableHlo.TRef.nullary main_call1.cst (constant S_ .f32 0x00000000#32),
    StableHlo.TRef.binary main_call1.v3 main_call1.cst main_call1.v4 (fun x v => Host.reduceAdd x v reducesTo_S8192_S_d0 h_S_),
    StableHlo.TRef.binary (.of main_v32 : StableHlo.TRef sig ⟨S8192, .f32⟩) (.of main_v32 : StableHlo.TRef sig ⟨S8192, .f32⟩) main_call1.call0.v0 (cmpf .une),
    StableHlo.TRef.nullary main_call1.call0.cst (constant S_ .f32 0x00000000#32),
    StableHlo.TRef.unary main_call1.call0.cst main_call1.call0.call0.v0 (broadcastInDim S8192 ![] bcast_S_S8192),
    StableHlo.TRef.ternary main_call1.call0.v0 main_call1.call0.call0.v0 (.of main_v32 : StableHlo.TRef sig ⟨S8192, .f32⟩) main_call1.call0.call0.v1 select,
    StableHlo.TRef.nullary main_call1.call0.cst_0 (constant S_ .f32 0x00000000#32),
    StableHlo.TRef.binary main_call1.call0.call0.v1 main_call1.call0.cst_0 main_call1.call0.v2 (fun x v => Host.reduceAdd x v reducesTo_S8192_S_d0 h_S_),
    StableHlo.TRef.binary main_call1.call0.v2 main_call1.v4 main_call1.v6 Host.divf,
    StableHlo.nullary main_cst_10 (constant S_ .f32 0x3F800000#32),
    StableHlo.binary main_cst_10 main_v33 main_v34 (subf : (⟨S_, .f32⟩ : BufTy).Contents (Elt F) → (⟨S_, .f32⟩ : BufTy).Contents (Elt F) → (⟨S_, .f32⟩ : BufTy).Contents (Elt F)),
    StableHlo.unary main_arg0 main_v35 ((transpose S4096x8192 [1, 0] · transposes_S8192x4096_S4096x8192_1_0) : (⟨S8192x4096, .f32⟩ : BufTy).Contents (Elt F) → (⟨S4096x8192, .f32⟩ : BufTy).Contents (Elt F)),
    StableHlo.unary main_v1 main_v36 ((transpose S4096x8192 [1, 0] · transposes_S8192x4096_S4096x8192_1_0) : (⟨S8192x4096, .f32⟩ : BufTy).Contents (Elt F) → (⟨S4096x8192, .f32⟩ : BufTy).Contents (Elt F)),
    StableHlo.nullary main_cst_11 (constant S_ .f32 0x00000000#32),
    StableHlo.binary main_v35 main_cst_11 main_v37 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.unary main_v37 main_v38 (broadcastInDim S4096x1 ![0] bcast_S4096_S4096x1_0 : (⟨S4096, .f32⟩ : BufTy).Contents (Elt F) → (⟨S4096x1, .f32⟩ : BufTy).Contents (Elt F)),
    StableHlo.nullary main_cst_12 (constant S_ .f32 0x46000000#32),
    StableHlo.unary main_cst_12 main_v39 (broadcastInDim S4096x1 ![] bcast_S_S4096x1 : (⟨S_, .f32⟩ : BufTy).Contents (Elt F) → (⟨S4096x1, .f32⟩ : BufTy).Contents (Elt F)),
    StableHlo.binary main_v38 main_v39 main_v40 (Host.divf : (⟨S4096x1, .f32⟩ : BufTy).Contents (Elt F) → (⟨S4096x1, .f32⟩ : BufTy).Contents (Elt F) → (⟨S4096x1, .f32⟩ : BufTy).Contents (Elt F)),
    StableHlo.nullary main_cst_13 (constant S_ .f32 0x00000000#32),
    StableHlo.binary main_v36 main_cst_13 main_v41 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.unary main_v41 main_v42 (broadcastInDim S4096x1 ![0] bcast_S4096_S4096x1_0 : (⟨S4096, .f32⟩ : BufTy).Contents (Elt F) → (⟨S4096x1, .f32⟩ : BufTy).Contents (Elt F)),
    StableHlo.nullary main_cst_14 (constant S_ .f32 0x46000000#32),
    StableHlo.unary main_cst_14 main_v43 (broadcastInDim S4096x1 ![] bcast_S_S4096x1 : (⟨S_, .f32⟩ : BufTy).Contents (Elt F) → (⟨S4096x1, .f32⟩ : BufTy).Contents (Elt F)),
    StableHlo.binary main_v42 main_v43 main_v44 (Host.divf : (⟨S4096x1, .f32⟩ : BufTy).Contents (Elt F) → (⟨S4096x1, .f32⟩ : BufTy).Contents (Elt F) → (⟨S4096x1, .f32⟩ : BufTy).Contents (Elt F)),
    StableHlo.unary main_v40 main_v45 (broadcastInDim S4096x8192 ![0, 1] bcast_S4096x1_S4096x8192_0_1 : (⟨S4096x1, .f32⟩ : BufTy).Contents (Elt F) → (⟨S4096x8192, .f32⟩ : BufTy).Contents (Elt F)),
    StableHlo.binary main_v35 main_v45 main_v46 (subf : (⟨S4096x8192, .f32⟩ : BufTy).Contents (Elt F) → (⟨S4096x8192, .f32⟩ : BufTy).Contents (Elt F) → (⟨S4096x8192, .f32⟩ : BufTy).Contents (Elt F)),
    StableHlo.unary main_v44 main_v47 (broadcastInDim S4096x8192 ![0, 1] bcast_S4096x1_S4096x8192_0_1 : (⟨S4096x1, .f32⟩ : BufTy).Contents (Elt F) → (⟨S4096x8192, .f32⟩ : BufTy).Contents (Elt F)),
    StableHlo.binary main_v36 main_v47 main_v48 (subf : (⟨S4096x8192, .f32⟩ : BufTy).Contents (Elt F) → (⟨S4096x8192, .f32⟩ : BufTy).Contents (Elt F) → (⟨S4096x8192, .f32⟩ : BufTy).Contents (Elt F)),
    StableHlo.binary main_v46 main_v46 main_v49 (mulf : (⟨S4096x8192, .f32⟩ : BufTy).Contents (Elt F) → (⟨S4096x8192, .f32⟩ : BufTy).Contents (Elt F) → (⟨S4096x8192, .f32⟩ : BufTy).Contents (Elt F)),
    StableHlo.nullary main_cst_15 (constant S_ .f32 0x00000000#32),
    StableHlo.binary main_v49 main_cst_15 main_v50 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.nullary main_cst_16 (constant S_ .f32 0x46000000#32),
    StableHlo.unary main_cst_16 main_v51 (broadcastInDim S4096 ![] bcast_S_S4096 : (⟨S_, .f32⟩ : BufTy).Contents (Elt F) → (⟨S4096, .f32⟩ : BufTy).Contents (Elt F)),
    StableHlo.binary main_v50 main_v51 main_v52 (Host.divf : (⟨S4096, .f32⟩ : BufTy).Contents (Elt F) → (⟨S4096, .f32⟩ : BufTy).Contents (Elt F) → (⟨S4096, .f32⟩ : BufTy).Contents (Elt F)),
    StableHlo.unary main_v52 main_v53 (Host.sqrt : (⟨S4096, .f32⟩ : BufTy).Contents (Elt F) → (⟨S4096, .f32⟩ : BufTy).Contents (Elt F)),
    StableHlo.binary main_v48 main_v48 main_v54 (mulf : (⟨S4096x8192, .f32⟩ : BufTy).Contents (Elt F) → (⟨S4096x8192, .f32⟩ : BufTy).Contents (Elt F) → (⟨S4096x8192, .f32⟩ : BufTy).Contents (Elt F)),
    StableHlo.nullary main_cst_17 (constant S_ .f32 0x00000000#32),
    StableHlo.binary main_v54 main_cst_17 main_v55 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.nullary main_cst_18 (constant S_ .f32 0x46000000#32),
    StableHlo.unary main_cst_18 main_v56 (broadcastInDim S4096 ![] bcast_S_S4096 : (⟨S_, .f32⟩ : BufTy).Contents (Elt F) → (⟨S4096, .f32⟩ : BufTy).Contents (Elt F)),
    StableHlo.binary main_v55 main_v56 main_v57 (Host.divf : (⟨S4096, .f32⟩ : BufTy).Contents (Elt F) → (⟨S4096, .f32⟩ : BufTy).Contents (Elt F) → (⟨S4096, .f32⟩ : BufTy).Contents (Elt F)),
    StableHlo.unary main_v57 main_v58 (Host.sqrt : (⟨S4096, .f32⟩ : BufTy).Contents (Elt F) → (⟨S4096, .f32⟩ : BufTy).Contents (Elt F)),
    StableHlo.binary main_v46 main_v48 main_v59 (mulf : (⟨S4096x8192, .f32⟩ : BufTy).Contents (Elt F) → (⟨S4096x8192, .f32⟩ : BufTy).Contents (Elt F) → (⟨S4096x8192, .f32⟩ : BufTy).Contents (Elt F)),
    StableHlo.nullary main_cst_19 (constant S_ .f32 0x00000000#32),
    StableHlo.binary main_v59 main_cst_19 main_v60 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.nullary main_cst_20 (constant S_ .f32 0x46000000#32),
    StableHlo.unary main_cst_20 main_v61 (broadcastInDim S4096 ![] bcast_S_S4096 : (⟨S_, .f32⟩ : BufTy).Contents (Elt F) → (⟨S4096, .f32⟩ : BufTy).Contents (Elt F)),
    StableHlo.binary main_v60 main_v61 main_v62 (Host.divf : (⟨S4096, .f32⟩ : BufTy).Contents (Elt F) → (⟨S4096, .f32⟩ : BufTy).Contents (Elt F) → (⟨S4096, .f32⟩ : BufTy).Contents (Elt F)),
    StableHlo.binary main_v53 main_v58 main_v63 (mulf : (⟨S4096, .f32⟩ : BufTy).Contents (Elt F) → (⟨S4096, .f32⟩ : BufTy).Contents (Elt F) → (⟨S4096, .f32⟩ : BufTy).Contents (Elt F)),
    StableHlo.binary main_v62 main_v63 main_v64 (Host.divf : (⟨S4096, .f32⟩ : BufTy).Contents (Elt F) → (⟨S4096, .f32⟩ : BufTy).Contents (Elt F) → (⟨S4096, .f32⟩ : BufTy).Contents (Elt F)),
    StableHlo.binary main_v64 main_v64 main_v65 (cmpf .une : (⟨S4096, .f32⟩ : BufTy).Contents (Elt F) → (⟨S4096, .f32⟩ : BufTy).Contents (Elt F) → (⟨S4096, .i1⟩ : BufTy).Contents (Elt F)),
    StableHlo.nullary main_cst_21 (constant S_ .f32 0x00000000#32),
    StableHlo.unary main_cst_21 main_v66 (broadcastInDim S4096 ![] bcast_S_S4096 : (⟨S_, .f32⟩ : BufTy).Contents (Elt F) → (⟨S4096, .f32⟩ : BufTy).Contents (Elt F)),
    StableHlo.TRef.ternary (.of main_v65 : StableHlo.TRef sig ⟨S4096, .i1⟩) (.of main_v66 : StableHlo.TRef sig ⟨S4096, .f32⟩) (.of main_v64 : StableHlo.TRef sig ⟨S4096, .f32⟩) main_call2.v0 select,
    StableHlo.TRef.binary (.of main_v67 : StableHlo.TRef sig ⟨S4096, .f32⟩) (.of main_v67 : StableHlo.TRef sig ⟨S4096, .f32⟩) main_call3.v0 (cmpf .une),
    StableHlo.TRef.unary main_call3.v0 main_call3.v1 noti,
    StableHlo.TRef.unary main_call3.v1 main_call3.v2 (extui 32 · natLt_1_32),
    StableHlo.TRef.unary main_call3.v2 main_call3.v3 (sitofp .f32),
    StableHlo.TRef.nullary main_call3.cst (constant S_ .f32 0x00000000#32),
    StableHlo.TRef.binary main_call3.v3 main_call3.cst main_call3.v4 (fun x v => Host.reduceAdd x v reducesTo_S4096_S_d0 h_S_),
    StableHlo.TRef.binary (.of main_v67 : StableHlo.TRef sig ⟨S4096, .f32⟩) (.of main_v67 : StableHlo.TRef sig ⟨S4096, .f32⟩) main_call3.call0.v0 (cmpf .une),
    StableHlo.TRef.nullary main_call3.call0.cst (constant S_ .f32 0x00000000#32),
    StableHlo.TRef.unary main_call3.call0.cst main_call3.call0.call0.v0 (broadcastInDim S4096 ![] bcast_S_S4096),
    StableHlo.TRef.ternary main_call3.call0.v0 main_call3.call0.call0.v0 (.of main_v67 : StableHlo.TRef sig ⟨S4096, .f32⟩) main_call3.call0.call0.v1 select,
    StableHlo.TRef.nullary main_call3.call0.cst_0 (constant S_ .f32 0x00000000#32),
    StableHlo.TRef.binary main_call3.call0.call0.v1 main_call3.call0.cst_0 main_call3.call0.v2 (fun x v => Host.reduceAdd x v reducesTo_S4096_S_d0 h_S_),
    StableHlo.TRef.binary main_call3.call0.v2 main_call3.v4 main_call3.v6 Host.divf,
    StableHlo.nullary main_cst_22 (constant S_ .f32 0x3F800000#32),
    StableHlo.binary main_cst_22 main_v68 main_v69 (subf : (⟨S_, .f32⟩ : BufTy).Contents (Elt F) → (⟨S_, .f32⟩ : BufTy).Contents (Elt F) → (⟨S_, .f32⟩ : BufTy).Contents (Elt F)),
    StableHlo.binary main_v1 main_arg0 main_v70 (subf : (⟨S8192x4096, .f32⟩ : BufTy).Contents (Elt F) → (⟨S8192x4096, .f32⟩ : BufTy).Contents (Elt F) → (⟨S8192x4096, .f32⟩ : BufTy).Contents (Elt F)),
    StableHlo.binary main_v70 main_v70 main_v71 (mulf : (⟨S8192x4096, .f32⟩ : BufTy).Contents (Elt F) → (⟨S8192x4096, .f32⟩ : BufTy).Contents (Elt F) → (⟨S8192x4096, .f32⟩ : BufTy).Contents (Elt F)),
    StableHlo.nullary main_cst_23 (constant S_ .f32 0x00000000#32),
    StableHlo.binary main_v71 main_cst_23 main_v72 ((fun x v => Host.reduceAdd x v reducesTo_S8192x4096_S_d0_1 h_S_) : (⟨S8192x4096, .f32⟩ : BufTy).Contents (Elt F) → (⟨S_, .f32⟩ : BufTy).Contents (Elt F) → (⟨S_, .f32⟩ : BufTy).Contents (Elt F)),
    StableHlo.nullary main_cst_24 (constant S_ .f32 0x4C000000#32),
    StableHlo.binary main_v72 main_cst_24 main_v73 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line: the two windows and the called functions unfolded, both sides are one chain of
    steps once sequencing is reassociated. -/
theorem main_eq (c : Dev nD) : main (F := F) c = seq ops := by
  simp only [main, main_part0, main_part1, fn_where.body, fn_where_0.body, fn_nansum.body, fn_nanmean.body,
    fn_where_1.body, fn_where_4.body, fn_nansum_3.body, fn_nanmean_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every buffer an operation reads or writes is a TensorCore reference. -/
theorem ops_sub : (ops : List (HloOp τ sig (Elt F))).Forall fun op => op.bufs ⊆ tcRefs τ sig :=
  ⟨unary_bufs_sub .., binary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., binary_bufs_sub .., binary_bufs_sub .., binary_bufs_sub .., nullary_bufs_sub .., unary_bufs_sub .., ternary_bufs_sub .., binary_bufs_sub .., unary_bufs_sub .., unary_bufs_sub .., unary_bufs_sub .., nullary_bufs_sub .., binary_bufs_sub .., binary_bufs_sub .., nullary_bufs_sub .., unary_bufs_sub .., ternary_bufs_sub .., nullary_bufs_sub .., binary_bufs_sub .., binary_bufs_sub .., nullary_bufs_sub .., binary_bufs_sub .., unary_bufs_sub .., unary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., binary_bufs_sub .., binary_bufs_sub .., binary_bufs_sub .., nullary_bufs_sub .., unary_bufs_sub .., ternary_bufs_sub .., binary_bufs_sub .., unary_bufs_sub .., unary_bufs_sub .., unary_bufs_sub .., nullary_bufs_sub .., binary_bufs_sub .., binary_bufs_sub .., nullary_bufs_sub .., unary_bufs_sub .., ternary_bufs_sub .., nullary_bufs_sub .., binary_bufs_sub .., binary_bufs_sub .., nullary_bufs_sub .., binary_bufs_sub .., binary_bufs_sub .., binary_bufs_sub .., nullary_bufs_sub .., binary_bufs_sub .., nullary_bufs_sub .., binary_bufs_sub ..⟩

/-- At the compiled mesh, for any float values, from any memory with zero counters: every weakly fair execution of
    @main terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation writes an argument: each of the five keeps its launch contents through the whole line. -/

set_option maxHeartbeats 4000000 in
theorem kept_arg0 (V : Valuation τ sig (Elt F)) :
    after ops V (main_arg0 : DevRef τ sig) = V (main_arg0 : DevRef τ sig) := by
  after_results_simp

set_option maxHeartbeats 4000000 in
theorem kept_arg1 (V : Valuation τ sig (Elt F)) :
    after ops V (main_arg1 : DevRef τ sig) = V (main_arg1 : DevRef τ sig) := by
  after_results_simp

set_option maxHeartbeats 4000000 in
theorem kept_arg2 (V : Valuation τ sig (Elt F)) :
    after ops V (main_arg2 : DevRef τ sig) = V (main_arg2 : DevRef τ sig) := by
  after_results_simp

set_option maxHeartbeats 4000000 in
theorem kept_arg3 (V : Valuation τ sig (Elt F)) :
    after ops V (main_arg3 : DevRef τ sig) = V (main_arg3 : DevRef τ sig) := by
  after_results_simp

set_option maxHeartbeats 4000000 in
theorem kept_arg4 (V : Valuation τ sig (Elt F)) :
    after ops V (main_arg4 : DevRef τ sig) = V (main_arg4 : DevRef τ sig) := by
  after_results_simp

end Cert.ReferenceIdeal.RefRun

end
-- ==== Proof.RefLatChain.lean ====
/-
  The plain program's latent-correlation scalar, read as mathematics.

  For two arrays x, y of 8192 rows by 512 codes the plain program takes, row by row, the mean of each array (the zero
  word plus the row's sum, over the word 512), the centred differences, the means of the three products of centred
  differences, the square roots of the two variances, and the quotient: the two-pass Pearson correlation of the row.
  A "not a number" test (an element unequal to itself) is never true on the extended reals, so the selections it guards
  return the correlations unchanged, the count of kept rows is a sum of ones, and the result is one minus the sum of
  the correlations over that count: Spec's R_lat.
-/
import proofs.«173397_j30520037605625_2_alg».proof.Proof.Gen.ReferenceIdeal
import proofs.«173397_j30520037605625_2_alg».proof.Proof.Arr
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws
import Idealize.ShloMosaic.Lib.StableHlo.Run

noncomputable section

namespace Cert.ReferenceIdeal.RefLat

open Cert.ReferenceIdeal Cert.Spec
open Idealize.ShloMosaic Idealize.ShloMosaic.TcCoe Idealize.SL.Sem Idealize.ShloMosaic.StableHlo
open Idealize.ShloMosaic.ValueIdx
open Cert.ReferenceIdeal.Gen

/-! ## The chain of operations, as pure functions of the two arrays -/

/-- The rank-0 array of the zero word. -/
def zeroW : FVec Ideal S_ .f32 := constant (F := Ideal) S_ .f32 0x00000000#32
/-- The rank-0 array of the word 512. -/
def w512W : FVec Ideal S_ .f32 := constant (F := Ideal) S_ .f32 0x44000000#32
/-- The rank-0 array of the word one. -/
def oneW : FVec Ideal S_ .f32 := constant (F := Ideal) S_ .f32 0x3F800000#32

/-- The sum of each row over the 512 codes, from the zero word. -/
def rowSum (z : FVec Ideal S8192x512 .f32) : FVec Ideal S8192 .f32 :=
  Host.reduceAdd (F := Ideal) z zeroW reducesTo_S8192x512_S8192_d1 h_S_

/-- Each row's mean, kept as a one-column array: the row sum over the word 512. -/
def meanCol (z : FVec Ideal S8192x512 .f32) : FVec Ideal S8192x1 .f32 :=
  Host.divf (F := Ideal) (broadcastInDim S8192x1 ![0] bcast_S8192_S8192x1_0 (rowSum z))
    (broadcastInDim S8192x1 ![] bcast_S_S8192x1 w512W)

/-- The array minus its row means. -/
def centred (z : FVec Ideal S8192x512 .f32) : FVec Ideal S8192x512 .f32 :=
  subf (F := Ideal) z (broadcastInDim S8192x512 ![0, 1] bcast_S8192x1_S8192x512_0_1 (meanCol z))

/-- Each row's mean, as a vector over the rows: the row sum over the word 512. -/
def meanRow (z : FVec Ideal S8192x512 .f32) : FVec Ideal S8192 .f32 :=
  Host.divf (F := Ideal) (rowSum z) (broadcastInDim S8192 ![] bcast_S_S8192 w512W)

/-- The row-wise correlation: the mean product of the centred arrays over the product of the square roots of their
    mean squares. -/
def corr (x y : FVec Ideal S8192x512 .f32) : FVec Ideal S8192 .f32 :=
  Host.divf (F := Ideal) (meanRow (mulf (F := Ideal) (centred x) (centred y)))
    (mulf (F := Ideal) (Host.sqrt (F := Ideal) (meanRow (mulf (F := Ideal) (centred x) (centred x))))
      (Host.sqrt (F := Ideal) (meanRow (mulf (F := Ideal) (centred y) (centred y)))))

/-- The correlations with every "not a number" replaced by the zero word. -/
def kept (r : FVec Ideal S8192 .f32) : FVec Ideal S8192 .f32 :=
  select (cmpf (F := Ideal) .une r r) (broadcastInDim S8192 ![] bcast_S_S8192 zeroW) r

/-- The number of elements that are numbers, as a float sum of ones. -/
def count (r : FVec Ideal S8192 .f32) : FVec Ideal S_ .f32 :=
  Host.reduceAdd (F := Ideal)
    (sitofp (F := Ideal) .f32 (extui 32 (noti (cmpf (F := Ideal) .une r r)) natLt_1_32))
    zeroW reducesTo_S8192_S_d0 h_S_

/-- The sum of the elements that are numbers. -/
def total (r : FVec Ideal S8192 .f32) : FVec Ideal S_ .f32 :=
  Host.reduceAdd (F := Ideal)
    (select (cmpf (F := Ideal) .une r r) (broadcastInDim S8192 ![] bcast_S_S8192 zeroW) r)
    zeroW reducesTo_S8192_S_d0 h_S_

/-- The whole chain: one minus the mean, over the rows that are numbers, of the kept correlations. -/
def latChain (x y : FVec Ideal S8192x512 .f32) : FVec Ideal S_ .f32 :=
  subf (F := Ideal) oneW (Host.divf (F := Ideal) (total (kept (corr x y))) (count (kept (corr x y))))

/-! ## Index bookkeeping -/

/-- The evidence naming the index a row's sum runs over. -/
theorem red2 : S8192x512.Reduces [1] S8192 := by decide

/-- A row index with the code put back is the pair. -/
theorem lift2 (r : Fin 8192) (k : Fin (S8192x512.size 1)) : red2.lift (ix1 r) k = ix2 r (⟨k.val, k.isLt⟩ : Fin 512) := by
  funext c; apply Fin.ext
  fin_cases c <;> rfl

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The operations read at an index -/

theorem zeroW_apply (j : S_.Idx) : zeroW j = w0 := rfl
theorem w512W_apply (j : S_.Idx) : w512W j = w512 := rfl
theorem oneW_apply (j : S_.Idx) : oneW j = w1 := rfl

set_option maxHeartbeats 400000 in
/-- A row sum at a row: the zero word plus the sum of the row. -/
theorem rowSum_apply (z : FVec Ideal S8192x512 .f32) (i : Fin 8192) :
    rowSum z (ix1 i) = w0 + ∑ k : Fin 512, z (ix2 i k) := by
  unfold rowSum
  rw [hostReduceAdd_apply, Ideal.hostReduceAdd_single reducesTo_S8192x512_S8192_d1 red2]
  refine congrArg (fun s => w0 + s) ?_
  exact Finset.sum_congr rfl fun k _ => congrArg z (lift2 i k)

set_option maxHeartbeats 400000 in
/-- The sum over the rows of a vector: the zero word plus the sum of its elements. -/
theorem sumAll_apply (r : FVec Ideal S8192 .f32) (j : S_.Idx) :
    Host.reduceAdd (F := Ideal) r zeroW reducesTo_S8192_S_d0 h_S_ j = w0 + ∑ i : Fin 8192, r (ix1 i) := by
  rw [hostReduceAdd_apply, Ideal.hostReduceAdd_total reducesTo_S8192_S_d0 (fun b => b.elim0)]
  refine congrArg (fun s => w0 + s) ?_
  exact sum_idx1 r

set_option maxHeartbeats 400000 in
/-- A row's mean in the one-column array: Spec's mean of the row with the count word 512. -/
theorem meanCol_apply (z : FVec Ideal S8192x512 .f32) (i : Fin 8192) :
    meanCol z (ix2 i (0 : Fin 1)) = meanR w512 (arr2 z i) := by
  unfold meanCol
  rw [hostDivf_apply, broadcastInDim_scalar_apply, w512W_apply,
    broadcastInDim_apply ![0] bcast_S8192_S8192x1_0 (rowSum z) (ix2 i (0 : Fin 1)) (ix1 i) (fun a => by fin_cases a; rfl),
    rowSum_apply]
  rfl

set_option maxHeartbeats 400000 in
/-- A centred element: the element minus its row's mean. -/
theorem centred_apply (z : FVec Ideal S8192x512 .f32) (i : Fin 8192) (k : Fin 512) :
    centred z (ix2 i k) = arr2 z i k - meanR w512 (arr2 z i) := by
  unfold centred
  rw [subf_apply,
    broadcastInDim_apply ![0, 1] bcast_S8192x1_S8192x512_0_1 (meanCol z) (ix2 i k) (ix2 i (0 : Fin 1))
      (fun a => by fin_cases a <;> rfl),
    meanCol_apply]
  rfl

set_option maxHeartbeats 400000 in
/-- A row's mean in the vector over the rows: Spec's mean of the row with the count word 512. -/
theorem meanRow_apply (z : FVec Ideal S8192x512 .f32) (i : Fin 8192) :
    meanRow z (ix1 i) = meanR w512 (fun k => z (ix2 i k)) := by
  unfold meanRow
  rw [hostDivf_apply, broadcastInDim_scalar_apply, w512W_apply, rowSum_apply]
  rfl

set_option maxHeartbeats 400000 in
/-- The row-wise correlation at a row: Spec's two-pass Pearson correlation of the two rows with the count word 512. -/
theorem corr_apply (x y : FVec Ideal S8192x512 .f32) (i : Fin 8192) :
    corr x y (ix1 i) = pearsonR w512 (arr2 x i) (arr2 y i) := by
  unfold corr
  rw [hostDivf_apply, mulf_apply]
  show Ideal.div (meanRow (mulf (centred x) (centred y)) (ix1 i))
      (Ideal.sqrt (meanRow (mulf (centred x) (centred x)) (ix1 i)) * Ideal.sqrt (meanRow (mulf (centred y) (centred y)) (ix1 i)))
    = pearsonR w512 (arr2 x i) (arr2 y i)
  rw [meanRow_apply, meanRow_apply, meanRow_apply]
  simp only [mulf_apply, centred_apply]
  rfl

/-! ## The "not a number" test on the extended reals -/

/-- No extended real is unequal to itself. -/
theorem une_self (a : EReal) : Ideal.cmp .une a a = 0#1 := by
  simp [Ideal.cmp]

/-- So the selection guarded by the test returns the vector unchanged … -/
theorem kept_eq (r : FVec Ideal S8192 .f32) : kept r = r := by
  funext j
  unfold kept
  rw [select_apply, cmpf_apply, Ideal.cmpf_def, une_self, select_zero]

/-- … each element counts as one … -/
theorem one_apply (r : FVec Ideal S8192 .f32) (j : S8192.Idx) :
    (sitofp (F := Ideal) .f32 (extui 32 (noti (cmpf (F := Ideal) .une r r)) natLt_1_32)) j = (1 : EReal) := by
  rw [sitofp_apply, extui_apply]
  show (((((~~~(FloatOps.cmpf .une (r j) (r j))) : BitVec 1).setWidth 32).toInt : ℝ) : EReal) = 1
  rw [Ideal.cmpf_def, une_self]
  have h : ((~~~(0#1 : BitVec 1)).setWidth 32).toInt = 1 := by decide
  rw [h]; norm_num

set_option maxHeartbeats 400000 in
/-- … the count is the zero word plus a sum of ones … -/
theorem count_apply (r : FVec Ideal S8192 .f32) (j : S_.Idx) :
    count r j = w0 + ∑ _i : Fin 8192, (1 : EReal) := by
  unfold count
  rw [sumAll_apply]
  simp only [one_apply]

set_option maxHeartbeats 400000 in
/-- … and the total is the zero word plus the sum of the elements. -/
theorem total_apply (r : FVec Ideal S8192 .f32) (j : S_.Idx) :
    total r j = w0 + ∑ i : Fin 8192, r (ix1 i) := by
  have h : total r = Host.reduceAdd (F := Ideal) (kept r) zeroW reducesTo_S8192_S_d0 h_S_ := rfl
  rw [h, kept_eq, sumAll_apply]

/-! ## The chain is Spec's scalar -/

set_option maxHeartbeats 400000 in
/-- The whole chain, at its one index, is the plain program's latent-correlation scalar of the two arrays. -/
theorem latChain_eq (x y : FVec Ideal S8192x512 .f32) :
    latChain x y = fun _ => R_lat (arr2 x) (arr2 y) := by
  funext j
  unfold latChain
  rw [subf_apply, hostDivf_apply, oneW_apply, kept_eq, total_apply, count_apply]
  simp only [corr_apply]
  rfl

end Cert.ReferenceIdeal.RefLat

end
-- ==== Proof.RefLat.lean ====
/-
  The plain program's first result buffer, read through its run: after the program's operations it holds the chain of
  array operations of the companion module applied to the launch contents of the two latent-code arrays, and that
  chain is Spec's latent-correlation scalar.
-/
import proofs.«173397_j30520037605625_2_alg».proof.Proof.RefLatChain
import proofs.«173397_j30520037605625_2_alg».proof.Proof.RefRun

noncomputable section

namespace Cert.ReferenceIdeal.RefLat

open Cert.ReferenceIdeal Cert.Spec
open Idealize.ShloMosaic Idealize.ShloMosaic.TcCoe Idealize.SL.Sem Idealize.ShloMosaic.StableHlo
open Idealize.ShloMosaic.ValueIdx
open Cert.ReferenceIdeal.Gen

/-! ## The plain program's result buffer -/

set_option maxHeartbeats 4000000 in
/-- After the plain program's operations the buffer of its first result holds the chain of the two latent-code
    arrays' launch contents. -/
theorem v34_chain (V : Valuation τ sig (Elt Ideal)) :
    after (RefRun.ops (F := Ideal)) V (main_v34 : DevRef τ sig)
      = latChain (V (main_arg2 : DevRef τ sig)) (V (main_arg3 : DevRef τ sig)) := by
  after_results_simp
  rfl

/-- After the plain program's operations the buffer of its first result holds the latent-correlation scalar of the
    two latent-code arrays' launch contents. -/
theorem v34_eq (V : Valuation τ sig (Elt Ideal)) :
    after (RefRun.ops (F := Ideal)) V (main_v34 : DevRef τ sig)
      = fun _ => Cert.Spec.R_lat (Cert.Spec.arr2 (V (main_arg2 : DevRef τ sig))) (Cert.Spec.arr2 (V (main_arg3 : DevRef τ sig))) :=
  (v34_chain V).trans (latChain_eq _ _)

end Cert.ReferenceIdeal.RefLat

end
-- ==== Proof.RefMse.lean ====
/-
  The plain program's mean-squared-error result. Its chain is: the per-spot weight broadcast along the genes, times the
  predictions (the weighted predictions o), minus the features, squared, summed over both axes by the host sum from the
  zero word, divided by the word 2^25. The host sum over every axis is the initial value plus the sum over all indices,
  and a sum over the indices of a rank-2 array is the double sum over rows and columns: so the chain is
  (w0 + Σ_r Σ_c (o r c − sf r c)²) / w2p25, which is R_mse. The chain is stated as a function of three arbitrary arrays;
  the run read at the result buffer is that function at the argument arrays.
-/
import proofs.«173397_j30520037605625_2_alg».proof.Proof.Gen.ReferenceIdeal
import proofs.«173397_j30520037605625_2_alg».proof.Proof.Arr
import Idealize.ShloMosaic.Lib.ValueIdx
import Idealize.ShloMosaic.Lib.Pipeline.Value
import Idealize.ShloMosaic.PureOps.Ideal.Laws
import Idealize.ShloMosaic.Lib.StableHlo.Run
import proofs.«173397_j30520037605625_2_alg».proof.Proof.RefRun

noncomputable section

open scoped BigOperators

namespace Cert.ReferenceIdeal.RefMse

open Idealize.ShloMosaic Idealize.ShloMosaic.ValueIdx Idealize.SL.Sem
open Idealize.ShloMosaic.TcCoe Idealize.ShloMosaic.StableHlo
open Cert.ReferenceIdeal Cert.ReferenceIdeal.Facts₀

/-- The mean-squared-error chain of the plain program as one function of its three inputs: the per-spot weight
    broadcast along the genes, times the predictions, minus the features, squared, summed over both axes from the zero
    word, over the word 2^25. -/
def mseChain (sf p : S8192x4096.Idx → EReal) (nu : S8192x1.Idx → EReal) : S_.Idx → EReal :=
  let v0 : FVec Ideal S8192x4096 .f32 := broadcastInDim S8192x4096 ![0, 1] bcast_S8192x1_S8192x4096_0_1 nu
  let v1 : FVec Ideal S8192x4096 .f32 := mulf (F := Ideal) (φ := .f32) p v0
  let v70 : FVec Ideal S8192x4096 .f32 := subf (F := Ideal) (φ := .f32) v1 sf
  let v71 : FVec Ideal S8192x4096 .f32 := mulf (F := Ideal) (φ := .f32) v70 v70
  let cst_23 : FVec Ideal S_ .f32 := constant (F := Ideal) S_ .f32 0x00000000#32
  let v72 : FVec Ideal S_ .f32 := (fun x v => Host.reduceAdd (F := Ideal) (φ := .f32) x v reducesTo_S8192x4096_S_d0_1 h_S_) v71 cst_23
  let cst_24 : FVec Ideal S_ .f32 := constant (F := Ideal) S_ .f32 0x4C000000#32
  Host.divf (F := Ideal) (φ := .f32) v72 cst_24

/-- A one-column array broadcast along a second axis, read at (r, c), is the column's entry at row r. -/
theorem bcast_col (h : S8192x1.BroadcastsInDim S8192x4096 (![0, 1] : Fin 2 → Fin S8192x4096.rank))
    (nu : S8192x1.Idx → EReal) (r : Fin 8192) (c : Fin 4096) :
    broadcastInDim S8192x4096 ![0, 1] h nu (ix2 r c) = nu (ix2 r (0 : Fin 1)) :=
  broadcastInDim_apply _ _ _ _ _ (fun a => match a with | ⟨0, _⟩ => rfl | ⟨1, _⟩ => rfl)

/-- The chain is the mean squared difference of the weighted predictions and the features: the host sum over both
    axes is the zero word plus the sum over all indices, which is the double sum over rows and columns; each summand
    is (p r c · nu r − sf r c)². -/
theorem mseChain_eq (sf p : S8192x4096.Idx → EReal) (nu : S8192x1.Idx → EReal) :
    mseChain sf p nu = fun _ => Cert.Spec.R_mse (Cert.Spec.arr2 sf) (Cert.Spec.scaled (Cert.Spec.arr2 p) (Cert.Spec.col1 nu)) := by
  funext j
  show Ideal.div (Ideal.hostReduceAdd reducesTo_S8192x4096_S_d0_1
      (fun i => (p i * broadcastInDim S8192x4096 ![0, 1] bcast_S8192x1_S8192x4096_0_1 nu i - sf i)
        * (p i * broadcastInDim S8192x4096 ![0, 1] bcast_S8192x1_S8192x4096_0_1 nu i - sf i))
      (Ideal.ofBits .f32 0x00000000#32) j) (Ideal.ofBits .f32 0x4C000000#32) = _
  rw [Ideal.hostReduceAdd_total _ (fun b => b.elim0), sum_idx2]
  unfold Cert.Spec.R_mse Cert.Spec.scaled Cert.Spec.arr2 Cert.Spec.col1 Cert.Spec.w0 Cert.Spec.w2p25
  refine congrArg (fun t => Ideal.div (Ideal.ofBits .f32 0x00000000#32 + t) (Ideal.ofBits .f32 0x4C000000#32)) ?_
  refine Finset.sum_congr rfl fun r _ => Finset.sum_congr rfl fun c _ => ?_
  rw [bcast_col]

set_option maxHeartbeats 400000 in
/-- The plain program's second result is the mean squared difference: reading the run at that buffer gives the chain
    above at the three argument arrays. -/
theorem v73_eq (V : Valuation τ sig (Elt Ideal)) :
    after (RefRun.ops (F := Ideal)) V (main_v73 : DevRef τ sig)
      = fun _ => Cert.Spec.R_mse (Cert.Spec.arr2 (V (main_arg0 : DevRef τ sig)))
          (Cert.Spec.scaled (Cert.Spec.arr2 (V (main_arg1 : DevRef τ sig))) (Cert.Spec.col1 (V (main_arg4 : DevRef τ sig)))) := by
  refine Eq.trans ?_ (mseChain_eq (V (main_arg0 : DevRef τ sig)) (V (main_arg1 : DevRef τ sig)) (V (main_arg4 : DevRef τ sig)))
  after_results_simp
  rfl

end Cert.ReferenceIdeal.RefMse

end
-- ==== Proof.RefPcc.lean ====
/-
  The plain program's per-gene correlation result as a function of its three argument arrays, and its value.

  The weighted predictions `o = p · nu` and the features `sf` are transposed to gene-major arrays; along each gene's row
  of 8192 spots the two-pass Pearson correlation is taken (row sums from the zero word, means over the count word 8192,
  centred differences, three more row sums, two square roots, one quotient). A test "x ≠ x" that no extended real
  satisfies leaves the quotient as it is, the count of kept genes is a sum of ones, and the result is one minus the
  kept genes' sum over that count: `Spec.R_pcc`.
-/
import proofs.«173397_j30520037605625_2_alg».proof.Proof.Gen.ReferenceIdeal
import proofs.«173397_j30520037605625_2_alg».proof.Proof.Arr
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import proofs.«173397_j30520037605625_2_alg».proof.Proof.RefRun

noncomputable section

namespace Cert.ReferenceIdeal.RefPcc

open Cert.ReferenceIdeal Cert.ReferenceIdeal.Gen Cert.Spec
open Idealize.ShloMosaic Idealize.ShloMosaic.ValueIdx

/-! ## The chain's pieces, as functions of whole arrays -/

/-- The scalar words the chain spells, as rank-0 arrays. -/
def zeroW : FVec Ideal S_ .f32 := constant S_ .f32 0x00000000#32
def countW : FVec Ideal S_ .f32 := constant S_ .f32 0x46000000#32
def oneW : FVec Ideal S_ .f32 := constant S_ .f32 0x3F800000#32

/-- The sum along each gene's row, from the zero word. -/
def rowSum (x : FVec Ideal S4096x8192 .f32) : FVec Ideal S4096 .f32 :=
  Host.reduceAdd x zeroW reducesTo_S4096x8192_S4096_d1 h_S_

/-- Each gene's mean, kept as a one-column array. -/
def rowMeanCol (x : FVec Ideal S4096x8192 .f32) : FVec Ideal S4096x1 .f32 :=
  Host.divf (broadcastInDim S4096x1 ![0] bcast_S4096_S4096x1_0 (rowSum x))
    (broadcastInDim S4096x1 ![] bcast_S_S4096x1 countW)

/-- The array less its row means. -/
def centred (x : FVec Ideal S4096x8192 .f32) : FVec Ideal S4096x8192 .f32 :=
  subf x (broadcastInDim S4096x8192 ![0, 1] bcast_S4096x1_S4096x8192_0_1 (rowMeanCol x))

/-- Each gene's mean, as a vector. -/
def rowMean (z : FVec Ideal S4096x8192 .f32) : FVec Ideal S4096 .f32 :=
  Host.divf (rowSum z) (broadcastInDim S4096 ![] bcast_S_S4096 countW)

/-- The per-gene correlation of two gene-major arrays. -/
def corr (x y : FVec Ideal S4096x8192 .f32) : FVec Ideal S4096 .f32 :=
  Host.divf (rowMean (mulf (centred x) (centred y)))
    (mulf (Host.sqrt (rowMean (mulf (centred x) (centred x)))) (Host.sqrt (rowMean (mulf (centred y) (centred y)))))

/-- A value that differs from itself replaced by the zero word. -/
def nanFix (q : FVec Ideal S4096 .f32) : FVec Ideal S4096 .f32 :=
  select (cmpf .une q q) (broadcastInDim S4096 ![] bcast_S_S4096 zeroW) q

/-- The number of values equal to themselves, as a float sum of ones. -/
def keptCount (w : FVec Ideal S4096 .f32) : FVec Ideal S_ .f32 :=
  Host.reduceAdd (sitofp .f32 (extui 32 (noti (cmpf .une w w)) natLt_1_32) : FVec Ideal S4096 .f32) zeroW
    reducesTo_S4096_S_d0 h_S_

/-- The sum of the values equal to themselves. -/
def keptSum (w : FVec Ideal S4096 .f32) : FVec Ideal S_ .f32 :=
  Host.reduceAdd (select (cmpf .une w w) (broadcastInDim S4096 ![] bcast_S_S4096 zeroW) w : FVec Ideal S4096 .f32) zeroW
    reducesTo_S4096_S_d0 h_S_

/-- The mean of the values equal to themselves. -/
def keptMean (w : FVec Ideal S4096 .f32) : FVec Ideal S_ .f32 := Host.divf (keptSum w) (keptCount w)

/-- The whole chain: from the features `sf`, the predictions `p` and the weights `nu` to the result scalar. -/
def pccChain (sf p : FVec Ideal S8192x4096 .f32) (nu : FVec Ideal S8192x1 .f32) : FVec Ideal S_ .f32 :=
  subf oneW (keptMean (nanFix (corr
    (transpose S4096x8192 [1, 0] sf transposes_S8192x4096_S4096x8192_1_0)
    (transpose S4096x8192 [1, 0] (mulf p (broadcastInDim S8192x4096 ![0, 1] bcast_S8192x1_S8192x4096_0_1 nu))
      transposes_S8192x4096_S4096x8192_1_0))))

/-! ## Reading the pieces at an index -/

/-- The words, read at the scalar shape's index. -/
theorem zeroW_apply (j : S_.Idx) : zeroW j = w0 := rfl
theorem countW_apply (j : S_.Idx) : countW j = w8192 := rfl
theorem oneW_apply (j : S_.Idx) : oneW j = w1 := rfl

/-- A gene's row sum is the zero word plus the sum over the 8192 spots. -/
theorem rowSum_apply (x : FVec Ideal S4096x8192 .f32) (g : Fin 4096) :
    rowSum x (ix1 g) = w0 + ∑ r : Fin 8192, x (ix2 g r) := by
  have h : S4096x8192.Reduces [1] S4096 := by decide
  unfold rowSum Host.reduceAdd
  refine (Ideal.hostReduceAdd_single reducesTo_S4096x8192_S4096_d1 h x _ (ix1 g)).trans ?_
  show w0 + ∑ r : Fin 8192, x (h.lift (ix1 g) r) = _
  refine congrArg (w0 + ·) (Finset.sum_congr rfl fun r _ => congrArg x ?_)
  funext c
  match c with
  | ⟨0, _⟩ => rfl
  | ⟨1, _⟩ => rfl

/-- A scalar broadcast to any shape reads the scalar everywhere. -/
theorem bcast0_apply {t : Shape} (h : S_.BroadcastsInDim t (![] : Fin 0 → Fin t.rank)) (x : FVec Ideal S_ .f32) (j : t.Idx) :
    broadcastInDim t ![] h x j = x ix0 :=
  broadcastInDim_apply _ h x j ix0 fun a => a.elim0

/-- A gene's mean, in the one-column array: the plain mean of its row at the count word. -/
theorem rowMeanCol_apply (x : FVec Ideal S4096x8192 .f32) (g : Fin 4096) :
    rowMeanCol x (ix2 g (0 : Fin 1)) = meanR w8192 fun r => x (ix2 g r) := by
  unfold rowMeanCol
  show Ideal.div (broadcastInDim S4096x1 ![0] bcast_S4096_S4096x1_0 (rowSum x) (ix2 g (0 : Fin 1)))
      (broadcastInDim S4096x1 ![] bcast_S_S4096x1 countW (ix2 g (0 : Fin 1))) = _
  rw [bcast0_apply, countW_apply,
    broadcastInDim_apply _ bcast_S4096_S4096x1_0 (rowSum x) (ix2 g (0 : Fin 1)) (ix1 g)
      (fun a => match a with | ⟨0, _⟩ => rfl),
    rowSum_apply]
  rfl

/-- The centred array at (gene, spot): the entry less the gene's mean. -/
theorem centred_apply (x : FVec Ideal S4096x8192 .f32) (g : Fin 4096) (r : Fin 8192) :
    centred x (ix2 g r) = x (ix2 g r) - meanR w8192 fun r => x (ix2 g r) := by
  unfold centred
  show x (ix2 g r) - broadcastInDim S4096x8192 ![0, 1] bcast_S4096x1_S4096x8192_0_1 (rowMeanCol x) (ix2 g r) = _
  rw [broadcastInDim_apply _ bcast_S4096x1_S4096x8192_0_1 (rowMeanCol x) (ix2 g r) (ix2 g (0 : Fin 1))
      (fun a => match a with | ⟨0, _⟩ => rfl | ⟨1, _⟩ => rfl),
    rowMeanCol_apply]

/-- A gene's mean, in the vector: the plain mean of its row at the count word. -/
theorem rowMean_apply (z : FVec Ideal S4096x8192 .f32) (g : Fin 4096) :
    rowMean z (ix1 g) = meanR w8192 fun r => z (ix2 g r) := by
  unfold rowMean
  show Ideal.div (rowSum z (ix1 g)) (broadcastInDim S4096 ![] bcast_S_S4096 countW (ix1 g)) = _
  rw [bcast0_apply, countW_apply, rowSum_apply]
  rfl

/-- The per-gene correlation is the two-pass Pearson correlation of the two rows. -/
theorem corr_apply (x y : FVec Ideal S4096x8192 .f32) (g : Fin 4096) :
    corr x y (ix1 g) = pearsonR w8192 (fun r => x (ix2 g r)) (fun r => y (ix2 g r)) := by
  unfold corr
  show Ideal.div (rowMean (mulf (centred x) (centred y)) (ix1 g))
      (Ideal.sqrt (rowMean (mulf (centred x) (centred x)) (ix1 g))
        * Ideal.sqrt (rowMean (mulf (centred y) (centred y)) (ix1 g))) = _
  rw [rowMean_apply, rowMean_apply, rowMean_apply]
  simp only [mulf_apply, centred_apply]
  rfl

/-! ## The tail: the test "differs from itself", the count and the kept sum -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's quotient read at an index. -/
theorem hostDivf_apply {s : Shape} {φ : FTy} (a b : FVec Ideal s φ) (i : s.Idx) :
    Host.divf a b i = Ideal.div (a i) (b i) := rfl

/-- No extended real differs from itself. -/
theorem cmp_une_self (a : EReal) : Ideal.cmp .une a a = 0#1 := by
  unfold Ideal.cmp
  simp

/-- So the replacement of such values changes nothing. -/
theorem nanFix_eq (q : FVec Ideal S4096 .f32) : nanFix q = q := by
  funext j
  unfold nanFix
  rw [select_apply, cmpf_apply, Ideal.cmpf_def, cmp_une_self, select_zero]

/-- The count of kept values is the zero word plus a sum of 4096 ones. -/
theorem keptCount_eq (w : FVec Ideal S4096 .f32) : keptCount w = fun _ => w0 + ∑ _g : Fin 4096, (1 : EReal) := by
  funext j
  unfold keptCount Host.reduceAdd
  refine (Ideal.hostReduceAdd_total reducesTo_S4096_S_d0 (fun b => b.elim0) _ _ j).trans ?_
  rw [sum_idx1, zeroW_apply]
  refine congrArg (w0 + ·) (Finset.sum_congr rfl fun k _ => ?_)
  rw [sitofp_apply, extui_apply]
  show FloatOps.sitofp (F := Ideal) .f32 ((~~~(FloatOps.cmpf .une (w (ix1 k)) (w (ix1 k)))).setWidth 32) = 1
  rw [Ideal.cmpf_def, cmp_une_self]
  show (((BitVec.setWidth 32 (~~~(0#1 : BitVec 1))).toInt : ℝ) : EReal) = 1
  have e : (BitVec.setWidth 32 (~~~(0#1 : BitVec 1))).toInt = 1 := by decide
  rw [e]
  simp

/-- The kept sum is the zero word plus the sum of all 4096 values. -/
theorem keptSum_eq (w : FVec Ideal S4096 .f32) : keptSum w = fun _ => w0 + ∑ g : Fin 4096, w (ix1 g) := by
  funext j
  unfold keptSum Host.reduceAdd
  refine (Ideal.hostReduceAdd_total reducesTo_S4096_S_d0 (fun b => b.elim0) _ _ j).trans ?_
  rw [sum_idx1, zeroW_apply]
  refine congrArg (w0 + ·) (Finset.sum_congr rfl fun k _ => ?_)
  rw [select_apply, cmpf_apply, Ideal.cmpf_def, cmp_une_self, select_zero]

/-! ## The chain's value -/

/-- The weights broadcast along the genes read, at (spot, gene), the spot's weight. -/
theorem nuB_apply (nu : FVec Ideal S8192x1 .f32) (r : Fin 8192) (g : Fin 4096) :
    broadcastInDim S8192x4096 ![0, 1] bcast_S8192x1_S8192x4096_0_1 nu (ix2 r g) = nu (ix2 r (0 : Fin 1)) :=
  broadcastInDim_apply _ bcast_S8192x1_S8192x4096_0_1 nu (ix2 r g) (ix2 r (0 : Fin 1))
    fun a => match a with | ⟨0, _⟩ => rfl | ⟨1, _⟩ => rfl

/-- A spot-major array transposed reads, at (gene, spot), the array at (spot, gene). -/
theorem transposed_apply (x : FVec Ideal S8192x4096 .f32) (g : Fin 4096) (r : Fin 8192) :
    transpose S4096x8192 [1, 0] x transposes_S8192x4096_S4096x8192_1_0 (ix2 g r) = x (ix2 r g) :=
  transpose_ix2_apply x transposes_S8192x4096_S4096x8192_1_0 g r

/-- The chain computes the plain program's form of one minus the mean per-gene correlation. -/
theorem pccChain_eq (sf p : FVec Ideal S8192x4096 .f32) (nu : FVec Ideal S8192x1 .f32) :
    pccChain sf p nu = fun _ => R_pcc (arr2 sf) (scaled (arr2 p) (col1 nu)) := by
  funext j
  unfold pccChain keptMean
  rw [subf_apply, hostDivf_apply, nanFix_eq, keptSum_eq, keptCount_eq, oneW_apply]
  unfold R_pcc
  refine congrArg (fun s => w1 - Ideal.div (w0 + s) (w0 + ∑ _g : Fin 4096, (1 : EReal)))
    (Finset.sum_congr rfl fun g _ => ?_)
  rw [corr_apply]
  refine congr (congrArg (pearsonR w8192) (funext fun r => ?_)) (funext fun r => ?_)
  · exact transposed_apply sf g r
  · rw [transposed_apply, mulf_apply, nuB_apply]
    rfl

/-! ## The plain program's run ends in the chain -/

section Run

open Idealize.ShloMosaic.TcCoe Idealize.SL.Sem Idealize.ShloMosaic.StableHlo

/-- After the plain program's operations the third result buffer holds the chain of the three argument arrays. -/
theorem v69_chain (V : Valuation τ sig (Elt Ideal)) :
    after (RefRun.ops (F := Ideal)) V (main_v69 : DevRef τ sig)
      = pccChain (V (main_arg0 : DevRef τ sig)) (V (main_arg1 : DevRef τ sig)) (V (main_arg4 : DevRef τ sig)) := by
  after_results_simp
  rfl

/-- So it holds the plain program's form of one minus the mean per-gene correlation of the features and the weighted
    predictions. -/
theorem v69_eq (V : Valuation τ sig (Elt Ideal)) :
    after (RefRun.ops (F := Ideal)) V (main_v69 : DevRef τ sig)
      = fun _ => Cert.Spec.R_pcc (Cert.Spec.arr2 (V (main_arg0 : DevRef τ sig)))
          (Cert.Spec.scaled (Cert.Spec.arr2 (V (main_arg1 : DevRef τ sig))) (Cert.Spec.col1 (V (main_arg4 : DevRef τ sig)))) :=
  (v69_chain V).trans (pccChain_eq _ _ _)

end Run

end Cert.ReferenceIdeal.RefPcc

end
-- ==== Proof.Finite.lean ====
/-
  From the precondition to "every entry of every input is a real number". The precondition says that, on every device,
  the conjunction over the five argument arrays of "every entry x satisfies |x| < +∞" is the one-bit word 1. At the
  extended reals |x| is max x (-x), the compared word 0x7F800000 is +∞, and max x (-x) < +∞ fails at both infinities: so
  each entry is a real. One lemma reads the test back for an array of any shape; the theorem splits the conjunction and
  applies it to the five arrays.
-/
import proofs.«173397_j30520037605625_2_alg».proof.Proof.Gen.KernelIdeal
import proofs.«173397_j30520037605625_2_alg».proof.Proof.Gen.Pre_finite_inputs
import proofs.«173397_j30520037605625_2_alg».proof.Defs
import proofs.«173397_j30520037605625_2_alg».proof.Proof.Arr
import Idealize.ShloMosaic.Lib.ReduceAll
import Idealize.ShloMosaic.Lib.ValueIdx

noncomputable section

namespace Cert.KernelIdeal.Finite

open Idealize.ShloMosaic Idealize.ShloMosaic.ValueIdx Idealize.SL.Sem
open Cert.KernelIdeal

/-- An extended real whose absolute value max x (-x) is below +∞ is a real number: of the three kinds of extended
    real, -∞ has absolute value +∞, and so has +∞. -/
theorem real_of_abs_lt_top (x : EReal) (h : max x (-x) < ⊤) : ∃ r : ℝ, x = (r : EReal) := by
  induction x using EReal.rec with
  | bot => simp at h
  | coe r => exact ⟨r, rfl⟩
  | top => simp at h

/-- The f32 word 0x7F800000 (sign 0, exponent all ones, fraction 0) denotes +∞. -/
theorem inf_word : Ideal.ofBits .f32 0x7F800000#32 = (⊤ : EReal) := by simp [Ideal.ofBits, Ideal.ieee]

/-- A one-bit word made from a truth value is 1 exactly when the truth value is true. -/
theorem ofBool_eq_one (b : Bool) : BitVec.ofBool b = 1#1 ↔ b = true := by cases b <;> decide

/-- The scalar shape has one index. -/
instance : Subsingleton Cert.Pre_finite_inputs.S_.Idx := ⟨fun a b => funext fun d => d.elim0⟩

/-- THE ALL-FINITE TEST OF ONE ARRAY, READ BACK, at any shape: if the conjunction over every index of
    "|x i| < +∞" (the comparison of |x| against the broadcast word +∞, reduced by "and" from 1 over all axes) is 1,
    then every entry of x is a real number. The conjunction being 1 makes each compared bit 1; the bit at i is the
    truth value of max (x i) (-(x i)) < ⊤; and an extended real with that property is a real. -/
theorem all_real {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) (φ := .f32) .olt (Host.absf (F := Ideal) (φ := .f32) x)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, x i = (r : EReal) := by
  have h1 := Host.reduce_andi_all _ _ hr hu ix0 e i
  have h2 : Ideal.cmp .olt (max (x i) (-(x i))) (Ideal.ofBits .f32 0x7F800000#32) = 1#1 := h1
  rw [inf_word] at h2
  unfold Ideal.cmp at h2
  rw [ofBool_eq_one] at h2
  exact real_of_abs_lt_top _ (of_decide_eq_true h2)

/-- THE PRECONDITION DECODED: under the all-finite precondition every entry of each of the five argument arrays, on
    every device, is a real number. The precondition's word at the scalar index is the conjunction of the five
    arrays' all-finite tests; it is 1, so each test is 1, and each test read back (`all_real`) gives the entries. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
      (∀ r k, ∃ x : ℝ, Cert.Spec.arr2 (m ((c.tc : Thread nD τ).loc main_arg0)) r k = (x : EReal))
    ∧ (∀ r k, ∃ x : ℝ, Cert.Spec.arr2 (m ((c.tc : Thread nD τ).loc main_arg1)) r k = (x : EReal))
    ∧ (∀ i k, ∃ x : ℝ, Cert.Spec.arr2 (m ((c.tc : Thread nD τ).loc main_arg2)) i k = (x : EReal))
    ∧ (∀ i k, ∃ x : ℝ, Cert.Spec.arr2 (m ((c.tc : Thread nD τ).loc main_arg3)) i k = (x : EReal))
    ∧ (∀ r, ∃ x : ℝ, Cert.Spec.col1 (m ((c.tc : Thread nD τ).loc main_arg4)) r = (x : EReal)) := by
  have e := congrFun (h c) ix0
  dsimp only [Cert.Pre_finite_inputs.fn, Cert.Pre_finite_inputs.fn_part1, andi] at e
  simp only [IntOp.andi_eq_one] at e
  obtain ⟨⟨⟨⟨e0, e1⟩, e2⟩, e3⟩, e4⟩ := e
  exact ⟨fun r k => all_real _ _ _ _ e0 (ix2 r k), fun r k => all_real _ _ _ _ e1 (ix2 r k),
    fun i k => all_real _ _ _ _ e2 (ix2 i k), fun i k => all_real _ _ _ _ e3 (ix2 i k),
    fun r => all_real _ _ _ _ e4 (ix2 r 0)⟩

end Cert.KernelIdeal.Finite

end
-- ==== Proof.AlgCoe.lean ====
/-
  How the real numbers sit inside the extended reals: finite sums, quotients by a nonzero real, and the clamp of a
  non-negative real at zero all stay real, and the float words are the reals they spell.
-/
import proofs.«173397_j30520037605625_2_alg».proof.Proof.Spec

noncomputable section

namespace Cert.Spec.Alg

open Idealize.ShloMosaic

/-- A finite sum of reals, read in the extended reals, is the real sum. -/
theorem coe_sum {K : Type} (s : Finset K) (f : K → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- The quotient of a real by a nonzero real is the real quotient. -/
theorem div_coe_coe (x : ℝ) {y : ℝ} (hy : y ≠ 0) :
    Ideal.div ((x : ℝ) : EReal) ((y : ℝ) : EReal) = ((x / y : ℝ) : EReal) := by
  rw [Ideal.div_coe hy, ← EReal.coe_mul, mul_one_div]

/-- Clamping a non-negative real below at zero changes nothing. -/
theorem max_coe_zero {x : ℝ} (hx : 0 ≤ x) : max ((x : ℝ) : EReal) w0 = ((x : ℝ) : EReal) := by
  rw [w0_eq]
  exact max_eq_left (EReal.coe_nonneg.mpr hx)

/-- Adding the zero word on the left changes nothing. -/
theorem w0_add (x : EReal) : w0 + x = x := by rw [w0_eq, zero_add]

/-- Summing `n` ones from the zero word gives the real `n`. -/
theorem count_ones (n : ℕ) : w0 + ∑ _i : Fin n, (1 : EReal) = ((n : ℝ) : EReal) := by
  rw [w0_add, ← EReal.coe_one, coe_sum Finset.univ (fun _ : Fin n => (1 : ℝ)), Finset.sum_const, Finset.card_univ,
    Fintype.card_fin, nsmul_eq_mul, mul_one]

/-- The count of the 8192 spots, summed from the zero word, is the word `w8192`. -/
theorem count_8192 : w0 + ∑ _i : Fin 8192, (1 : EReal) = w8192 := by
  rw [count_ones, w8192_eq, Nat.cast_ofNat]

/-- The count of the 4096 genes, summed from the zero word, is the word `w4096`. -/
theorem count_4096 : w0 + ∑ _c : Fin 4096, (1 : EReal) = w4096 := by
  rw [count_ones, w4096_eq, Nat.cast_ofNat]

end Cert.Spec.Alg

end
-- ==== Proof.AlgReal.lean ====
/-
  The real-number identities behind the one-pass forms, over an arbitrary finite index type: the mean, the centred
  covariance, its non-negativity on the diagonal, the one-pass form `E[xy] − E[x]·E[y]` of the covariance, and the
  expansion of a sum of squared differences summed over a second index.
-/
import Mathlib.Algebra.BigOperators.Field
import Mathlib.Algebra.Order.BigOperators.Ring.Finset
import Mathlib.Data.Real.Basic
import Mathlib.Tactic.Ring
import Mathlib.Tactic.FieldSimp
import Mathlib.Tactic.Positivity

noncomputable section

namespace Cert.Spec.Alg

variable {K : Type} [Fintype K]

/-- The mean of a finite real family with count `N`. -/
def mu (N : ℝ) (x : K → ℝ) : ℝ := (∑ k, x k) / N

/-- The centred covariance of two finite real families with count `N`. -/
def cov (N : ℝ) (x y : K → ℝ) : ℝ := (∑ k, (x k - mu N x) * (y k - mu N y)) / N

/-- A variance is a sum of squares over a positive count, so it is non-negative. -/
theorem cov_self_nonneg {N : ℝ} (hN : 0 < N) (x : K → ℝ) : 0 ≤ cov N x x :=
  div_nonneg (Finset.sum_nonneg fun k _ => mul_self_nonneg (x k - mu N x)) hN.le

/-- Expanding a sum of products of shifted terms. -/
theorem sum_shift_mul (x y : K → ℝ) (a b : ℝ) :
    ∑ k, (x k - a) * (y k - b)
      = ∑ k, x k * y k - b * ∑ k, x k - a * ∑ k, y k + (Fintype.card K : ℝ) * (a * b) := by
  have h : ∀ k, (x k - a) * (y k - b) = x k * y k - b * x k - a * y k + a * b := fun k => by ring
  simp only [h, Finset.sum_add_distrib, Finset.sum_sub_distrib, ← Finset.mul_sum, Finset.sum_const, Finset.card_univ,
    nsmul_eq_mul]
  ring

/-- THE ONE-PASS COVARIANCE. When the count is the number of indices, `E[xy] − E[x]·E[y]` is the centred covariance. -/
theorem onepass_eq_cov {N : ℝ} (hN : N ≠ 0) (hc : (Fintype.card K : ℝ) = N) (x y : K → ℝ) :
    (∑ k, x k * y k) / N - (∑ k, x k) / N * ((∑ k, y k) / N) = cov N x y := by
  unfold cov mu
  rw [sum_shift_mul, hc]
  field_simp
  ring

/-- THE EXPANDED SQUARE. Summed over both indices, `Σ s² − 2 Σ s·o + Σ o²` per column is the sum of `(o − s)²`. -/
theorem sum_sq_expand {R C : Type} [Fintype R] [Fintype C] (s o : R → C → ℝ) :
    ∑ c, ((∑ r, s r c * s r c - 2 * ∑ r, s r c * o r c) + ∑ r, o r c * o r c)
      = ∑ r, ∑ c, (o r c - s r c) * (o r c - s r c) := by
  rw [Finset.sum_comm]
  refine Finset.sum_congr rfl fun c _ => ?_
  rw [Finset.mul_sum, ← Finset.sum_sub_distrib, ← Finset.sum_add_distrib]
  refine Finset.sum_congr rfl fun r _ => ?_
  ring

end Cert.Spec.Alg

end
-- ==== Proof.AlgLift.lean ====
/-
  The three correlation forms on real data: with every entry real, the two-pass form, the centred-and-clamped form and
  the one-pass form from five sums are all the same quotient `cov / (√v₁ · √v₂)` with the same real covariance and
  variances. The square roots and the last quotient are left closed.
-/
import proofs.«173397_j30520037605625_2_alg».proof.Proof.Spec
import proofs.«173397_j30520037605625_2_alg».proof.Proof.AlgCoe
import proofs.«173397_j30520037605625_2_alg».proof.Proof.AlgReal

noncomputable section

namespace Cert.Spec.Alg

open Idealize.ShloMosaic

variable {K : Type} [Fintype K]

/-- The common value of the three correlation forms on real data. -/
def corr (N : ℝ) (x y : K → ℝ) : EReal :=
  Ideal.div ((cov N x y : ℝ) : EReal)
    (Ideal.sqrt ((cov N x x : ℝ) : EReal) * Ideal.sqrt ((cov N y y : ℝ) : EReal))

/-- The plain mean of a real family is its real mean. -/
theorem meanR_coe {N : ℝ} (hN : N ≠ 0) (x : K → ℝ) :
    meanR ((N : ℝ) : EReal) (fun k => ((x k : ℝ) : EReal)) = ((mu N x : ℝ) : EReal) := by
  unfold meanR mu
  rw [w0_add, coe_sum, div_coe_coe _ hN]

/-- The tiled mean of a real family is its real mean. -/
theorem meanK_coe {N : ℝ} (hN : N ≠ 0) (x : K → ℝ) :
    meanK ((N : ℝ) : EReal) (fun k => ((x k : ℝ) : EReal)) = ((mu N x : ℝ) : EReal) := by
  unfold meanK mu
  rw [coe_sum, div_coe_coe _ hN]

/-- The plain mean of the centred products is the real covariance. -/
theorem meanR_centred {N : ℝ} (hN : N ≠ 0) (x y : K → ℝ) :
    meanR ((N : ℝ) : EReal) (fun k =>
        (((x k : ℝ) : EReal) - meanR ((N : ℝ) : EReal) (fun k => ((x k : ℝ) : EReal)))
          * (((y k : ℝ) : EReal) - meanR ((N : ℝ) : EReal) (fun k => ((y k : ℝ) : EReal))))
      = ((cov N x y : ℝ) : EReal) := by
  rw [meanR_coe hN x, meanR_coe hN y]
  have h : (fun k => (((x k : ℝ) : EReal) - ((mu N x : ℝ) : EReal)) * (((y k : ℝ) : EReal) - ((mu N y : ℝ) : EReal)))
      = fun k => (((x k - mu N x) * (y k - mu N y) : ℝ) : EReal) :=
    funext fun k => by rw [EReal.coe_mul, EReal.coe_sub, EReal.coe_sub]
  rw [h, meanR_coe hN]
  rfl

/-- The tiled mean of the centred products is the real covariance. -/
theorem meanK_centred {N : ℝ} (hN : N ≠ 0) (x y : K → ℝ) :
    meanK ((N : ℝ) : EReal) (fun k =>
        (((x k : ℝ) : EReal) - meanK ((N : ℝ) : EReal) (fun k => ((x k : ℝ) : EReal)))
          * (((y k : ℝ) : EReal) - meanK ((N : ℝ) : EReal) (fun k => ((y k : ℝ) : EReal))))
      = ((cov N x y : ℝ) : EReal) := by
  rw [meanK_coe hN x, meanK_coe hN y]
  have h : (fun k => (((x k : ℝ) : EReal) - ((mu N x : ℝ) : EReal)) * (((y k : ℝ) : EReal) - ((mu N y : ℝ) : EReal)))
      = fun k => (((x k - mu N x) * (y k - mu N y) : ℝ) : EReal) :=
    funext fun k => by rw [EReal.coe_mul, EReal.coe_sub, EReal.coe_sub]
  rw [h, meanK_coe hN]
  rfl

/-- The two-pass correlation of real families. -/
theorem pearsonR_coe {N : ℝ} (hN : N ≠ 0) (x y : K → ℝ) :
    pearsonR ((N : ℝ) : EReal) (fun k => ((x k : ℝ) : EReal)) (fun k => ((y k : ℝ) : EReal)) = corr N x y := by
  unfold pearsonR corr
  rw [meanR_centred hN x y, meanR_centred hN x x, meanR_centred hN y y]

/-- The centred-and-clamped correlation of real families: each variance is non-negative, so its clamp is the identity. -/
theorem pearsonK_coe {N : ℝ} (hN : 0 < N) (x y : K → ℝ) :
    pearsonK ((N : ℝ) : EReal) (fun k => ((x k : ℝ) : EReal)) (fun k => ((y k : ℝ) : EReal)) = corr N x y := by
  unfold pearsonK corr
  rw [meanK_centred hN.ne' x y, meanK_centred hN.ne' x x, meanK_centred hN.ne' y y,
    max_coe_zero (cov_self_nonneg hN x), max_coe_zero (cov_self_nonneg hN y)]

/-- The one-pass correlation from the five sums of two real families over 8192 indices. -/
theorem pccCol_coe (hc : (Fintype.card K : ℝ) = 8192) (x y : K → ℝ) :
    pccCol ((∑ k, x k : ℝ) : EReal) ((∑ k, y k : ℝ) : EReal) ((∑ k, x k * x k : ℝ) : EReal)
        ((∑ k, y k * y k : ℝ) : EReal) ((∑ k, x k * y k : ℝ) : EReal)
      = corr 8192 x y := by
  have hN : (8192 : ℝ) ≠ 0 := by norm_num
  have hP : (0 : ℝ) < 8192 := by norm_num
  unfold pccCol corr
  rw [w8192_eq, div_coe_coe _ hN, div_coe_coe _ hN, div_coe_coe _ hN, div_coe_coe _ hN, div_coe_coe _ hN,
    ← EReal.coe_mul, ← EReal.coe_mul, ← EReal.coe_mul, ← EReal.coe_sub, ← EReal.coe_sub, ← EReal.coe_sub,
    onepass_eq_cov hN hc x y, onepass_eq_cov hN hc x x, onepass_eq_cov hN hc y y,
    max_coe_zero (cov_self_nonneg hP x), max_coe_zero (cov_self_nonneg hP y)]

end Cert.Spec.Alg

end
-- ==== Proof.AlgLat.lean ====
/-
  The latent-code scalar: the tiled form (centred, clamped, two half sums over a literal count) equals the plain form
  (two-pass, one sum, a count obtained by summing ones) when every entry is real.
-/
import proofs.«173397_j30520037605625_2_alg».proof.Proof.Spec
import proofs.«173397_j30520037605625_2_alg».proof.Proof.LibBlockSum
import proofs.«173397_j30520037605625_2_alg».proof.Proof.AlgCoe
import proofs.«173397_j30520037605625_2_alg».proof.Proof.AlgLift

noncomputable section

namespace Cert.Spec.Alg

open Idealize.ShloMosaic

/-- THE TWO HALVES. The sums over the two halves of the spots add up to the sum over all spots; this is regrouping in
    a commutative additive monoid, so it holds for infinite terms too. -/
theorem halfSum_add (f : Fin 8192 → EReal) : halfSum f 0 + halfSum f 1 = ∑ i : Fin 8192, f i := by
  have h := Cert.LibBlockSum.sum_blocks_mul 2 4096 f
  rw [Fin.sum_univ_two] at h
  exact h

/-- THE LATENT SCALAR. With real entries each spot's clamped correlation is its two-pass correlation (possibly infinite,
    when a variance vanishes: the last quotient is never opened), the two half sums regroup into the full sum, and the
    count of ones is the literal count. -/
theorem K_lat_eq (a b : Fin 8192 → Fin 512 → EReal) (ha : ∀ i k, ∃ x : ℝ, a i k = (x : EReal))
    (hb : ∀ i k, ∃ x : ℝ, b i k = (x : EReal)) : K_lat a b = R_lat a b := by
  choose x hx using ha
  choose y hy using hb
  obtain rfl : a = fun i k => ((x i k : ℝ) : EReal) := funext fun i => funext fun k => hx i k
  obtain rfl : b = fun i k => ((y i k : ℝ) : EReal) := funext fun i => funext fun k => hy i k
  have hrow : rowK (fun i k => ((x i k : ℝ) : EReal)) (fun i k => ((y i k : ℝ) : EReal))
      = fun i => pearsonR w512 (fun k => ((x i k : ℝ) : EReal)) (fun k => ((y i k : ℝ) : EReal)) :=
    funext fun i => by
      unfold rowK
      rw [w512_eq, pearsonK_coe (by norm_num) (x i) (y i), pearsonR_coe (by norm_num) (x i) (y i)]
  unfold K_lat R_lat
  rw [hrow, halfSum_add, count_8192, w0_add]

end Cert.Spec.Alg

end
-- ==== Proof.AlgMse.lean ====
/-
  The mean-squared-difference scalar: the tiled form (per gene, `Σ s² − 2 Σ s·o + Σ o²` down the column) equals the plain
  form (the sum over spots and genes of `(o − s)²`) when every entry is real. The last quotient stays closed.
-/
import proofs.«173397_j30520037605625_2_alg».proof.Proof.Spec
import proofs.«173397_j30520037605625_2_alg».proof.Proof.AlgCoe
import proofs.«173397_j30520037605625_2_alg».proof.Proof.AlgReal

noncomputable section

namespace Cert.Spec.Alg

open Idealize.ShloMosaic

/-- A column sum of a real array is the real column sum. -/
theorem colSum_coe (f : Fin 8192 → Fin 4096 → ℝ) (c : Fin 4096) :
    colSum (fun r c => ((f r c : ℝ) : EReal)) c = ((∑ r, f r c : ℝ) : EReal) := by
  unfold colSum
  rw [coe_sum]

/-- THE MEAN SQUARED DIFFERENCE. With real entries both numerators are the same real: expand the square per gene and
    exchange the two sums. -/
theorem K_mse_eq (sf p : Fin 8192 → Fin 4096 → EReal) (nu : Fin 8192 → EReal)
    (hsf : ∀ r c, ∃ x : ℝ, sf r c = (x : EReal)) (hp : ∀ r c, ∃ x : ℝ, p r c = (x : EReal))
    (hnu : ∀ r, ∃ x : ℝ, nu r = (x : EReal)) : K_mse sf (scaled p nu) = R_mse sf (scaled p nu) := by
  choose s hs using hsf
  choose q hq using hp
  choose v hv using hnu
  obtain rfl : sf = fun r c => ((s r c : ℝ) : EReal) := funext fun r => funext fun c => hs r c
  obtain rfl : p = fun r c => ((q r c : ℝ) : EReal) := funext fun r => funext fun c => hq r c
  obtain rfl : nu = fun r => ((v r : ℝ) : EReal) := funext fun r => hv r
  have ho : scaled (fun r c => ((q r c : ℝ) : EReal)) (fun r => ((v r : ℝ) : EReal))
      = fun r c => ((q r c * v r : ℝ) : EReal) :=
    funext fun r => funext fun c => (EReal.coe_mul _ _).symm
  rw [ho]
  unfold K_mse R_mse
  have h1 : (fun r c => ((s r c : ℝ) : EReal) * ((s r c : ℝ) : EReal)) = fun r c => ((s r c * s r c : ℝ) : EReal) :=
    funext fun r => funext fun c => (EReal.coe_mul _ _).symm
  have h2 : (fun r c => ((s r c : ℝ) : EReal) * ((q r c * v r : ℝ) : EReal))
      = fun r c => ((s r c * (q r c * v r) : ℝ) : EReal) :=
    funext fun r => funext fun c => (EReal.coe_mul _ _).symm
  have h3 : (fun r c => ((q r c * v r : ℝ) : EReal) * ((q r c * v r : ℝ) : EReal))
      = fun r c => ((q r c * v r * (q r c * v r) : ℝ) : EReal) :=
    funext fun r => funext fun c => (EReal.coe_mul _ _).symm
  have hK : (fun c : Fin 4096 =>
        (colSum (fun r c => ((s r c : ℝ) : EReal) * ((s r c : ℝ) : EReal)) c
            - w2 * colSum (fun r c => ((s r c : ℝ) : EReal) * ((q r c * v r : ℝ) : EReal)) c)
          + colSum (fun r c => ((q r c * v r : ℝ) : EReal) * ((q r c * v r : ℝ) : EReal)) c)
      = fun c => (((∑ r, s r c * s r c - 2 * ∑ r, s r c * (q r c * v r)) + ∑ r, q r c * v r * (q r c * v r) : ℝ) : EReal) :=
    funext fun c => by
      rw [h1, h2, h3, colSum_coe, colSum_coe, colSum_coe, w2_eq, ← EReal.coe_mul, ← EReal.coe_sub, ← EReal.coe_add]
  have hR : (fun r : Fin 8192 => ∑ c : Fin 4096,
        (((q r c * v r : ℝ) : EReal) - ((s r c : ℝ) : EReal)) * (((q r c * v r : ℝ) : EReal) - ((s r c : ℝ) : EReal)))
      = fun r => ((∑ c : Fin 4096, (q r c * v r - s r c) * (q r c * v r - s r c) : ℝ) : EReal) :=
    funext fun r => by
      rw [← coe_sum]
      refine Finset.sum_congr rfl fun c _ => ?_
      rw [← EReal.coe_sub, ← EReal.coe_mul]
  rw [hK, hR, coe_sum, coe_sum, sum_sq_expand (fun r c => s r c) (fun r c => q r c * v r)]

end Cert.Spec.Alg

end
-- ==== Proof.AlgPcc.lean ====
/-
  The gene-correlation scalar: per gene, the one-pass correlation from the five column sums equals the two-pass
  correlation of the column, when every entry is real; and the count of genes obtained by summing ones is the literal
  count. The square roots and every correlation's last quotient stay closed.
-/
import proofs.«173397_j30520037605625_2_alg».proof.Proof.Spec
import proofs.«173397_j30520037605625_2_alg».proof.Proof.AlgCoe
import proofs.«173397_j30520037605625_2_alg».proof.Proof.AlgLift
import proofs.«173397_j30520037605625_2_alg».proof.Proof.AlgMse

noncomputable section

namespace Cert.Spec.Alg

open Idealize.ShloMosaic

/-- THE GENE-CORRELATION SCALAR. With real entries each gene's one-pass correlation and its two-pass correlation are the
    same quotient of the same real covariance by the same two square roots; the count of ones is the literal count. -/
theorem K_pcc_eq (sf p : Fin 8192 → Fin 4096 → EReal) (nu : Fin 8192 → EReal)
    (hsf : ∀ r c, ∃ x : ℝ, sf r c = (x : EReal)) (hp : ∀ r c, ∃ x : ℝ, p r c = (x : EReal))
    (hnu : ∀ r, ∃ x : ℝ, nu r = (x : EReal)) : K_pcc sf (scaled p nu) = R_pcc sf (scaled p nu) := by
  choose s hs using hsf
  choose q hq using hp
  choose v hv using hnu
  obtain rfl : sf = fun r c => ((s r c : ℝ) : EReal) := funext fun r => funext fun c => hs r c
  obtain rfl : p = fun r c => ((q r c : ℝ) : EReal) := funext fun r => funext fun c => hq r c
  obtain rfl : nu = fun r => ((v r : ℝ) : EReal) := funext fun r => hv r
  have ho : scaled (fun r c => ((q r c : ℝ) : EReal)) (fun r => ((v r : ℝ) : EReal))
      = fun r c => ((q r c * v r : ℝ) : EReal) :=
    funext fun r => funext fun c => (EReal.coe_mul _ _).symm
  rw [ho]
  unfold K_pcc R_pcc
  have h1 : (fun r c => ((s r c : ℝ) : EReal) * ((s r c : ℝ) : EReal)) = fun r c => ((s r c * s r c : ℝ) : EReal) :=
    funext fun r => funext fun c => (EReal.coe_mul _ _).symm
  have h2 : (fun r c => ((s r c : ℝ) : EReal) * ((q r c * v r : ℝ) : EReal))
      = fun r c => ((s r c * (q r c * v r) : ℝ) : EReal) :=
    funext fun r => funext fun c => (EReal.coe_mul _ _).symm
  have h3 : (fun r c => ((q r c * v r : ℝ) : EReal) * ((q r c * v r : ℝ) : EReal))
      = fun r c => ((q r c * v r * (q r c * v r) : ℝ) : EReal) :=
    funext fun r => funext fun c => (EReal.coe_mul _ _).symm
  have hcard : ((Fintype.card (Fin 8192) : ℕ) : ℝ) = 8192 := by rw [Fintype.card_fin, Nat.cast_ofNat]
  have hcol : ∀ c : Fin 4096,
      pccCol (colSum (fun r c => ((s r c : ℝ) : EReal)) c) (colSum (fun r c => ((q r c * v r : ℝ) : EReal)) c)
          (colSum (fun r c => ((s r c : ℝ) : EReal) * ((s r c : ℝ) : EReal)) c)
          (colSum (fun r c => ((q r c * v r : ℝ) : EReal) * ((q r c * v r : ℝ) : EReal)) c)
          (colSum (fun r c => ((s r c : ℝ) : EReal) * ((q r c * v r : ℝ) : EReal)) c)
        = pearsonR w8192 (fun r => ((s r c : ℝ) : EReal)) (fun r => ((q r c * v r : ℝ) : EReal)) := fun c => by
    rw [h1, h2, h3, colSum_coe, colSum_coe, colSum_coe, colSum_coe, colSum_coe,
      pccCol_coe hcard (fun r => s r c) (fun r => q r c * v r), w8192_eq,
      pearsonR_coe (by norm_num) (fun r => s r c) (fun r => q r c * v r)]
  rw [Finset.sum_congr rfl fun c _ => hcol c, count_4096]

end Cert.Spec.Alg

end
-- ==== Proof.lean ====
/-
  Three scalars — one minus the mean row-wise Pearson correlation of two latent codes, the mean squared difference of the
  weighted predictions `o = p · nu` and the features `sf`, and one minus the mean gene-wise Pearson correlation of `sf`
  and `o` — computed by a tiled program (two accumulation passes and host arithmetic on their sums) and by a plain
  program (centre first, then average), agree on the extended reals whenever every input is finite.

  The tiled program's first pass leaves the five gene-wise sums Σ sf, Σ o, Σ sf², Σ o², Σ sf·o (`Region0`); its host
  arithmetic forms each gene's correlation in one pass, E[xy] − E[x]E[y] over the clamped one-pass variances, and the
  total squared error as Σ sf² − 2 Σ sf·o + Σ o²; its second pass leaves, per half of the spots, the sum of the per-spot
  correlations (`Region1`), which the host adds and averages (`KTail`). The plain program's run is its operations folded
  over the launch memory (`RefRun`), read result by result (`RefLat`, `RefMse`, `RefPcc`). For real entries (`Finite`,
  from the precondition) the two one-pass identities Σ(x−μ)² / N = Σx²/N − μ² ≥ 0 and Σ(x−μ)(y−ν) / N = Σxy/N − μν, the
  expansion of the squared difference, and the regrouping of sums join the two sides (`Alg*`). The frames are the generated
  ones; the plain program's frame is its run with the results dropped.
-/
import proofs.«173397_j30520037605625_2_alg».proof.Defs
import proofs.«173397_j30520037605625_2_alg».proof.Proof.Gen.Kernel
import proofs.«173397_j30520037605625_2_alg».proof.Proof.Gen.Kernel.Frame
import proofs.«173397_j30520037605625_2_alg».proof.Proof.Gen.KernelIdeal
import proofs.«173397_j30520037605625_2_alg».proof.Proof.Gen.KernelIdeal.Frame
import proofs.«173397_j30520037605625_2_alg».proof.Proof.Gen.ReferenceIdeal
import proofs.«173397_j30520037605625_2_alg».proof.Proof.Gen.Pre_finite_inputs
import proofs.«173397_j30520037605625_2_alg».proof.Proof.Assemble
import proofs.«173397_j30520037605625_2_alg».proof.Proof.Region0
import proofs.«173397_j30520037605625_2_alg».proof.Proof.Region1
import proofs.«173397_j30520037605625_2_alg».proof.Proof.KTail
import proofs.«173397_j30520037605625_2_alg».proof.Proof.RefRun
import proofs.«173397_j30520037605625_2_alg».proof.Proof.RefLat
import proofs.«173397_j30520037605625_2_alg».proof.Proof.RefMse
import proofs.«173397_j30520037605625_2_alg».proof.Proof.RefPcc
import proofs.«173397_j30520037605625_2_alg».proof.Proof.Finite
import proofs.«173397_j30520037605625_2_alg».proof.Proof.AlgLat
import proofs.«173397_j30520037605625_2_alg».proof.Proof.AlgMse
import proofs.«173397_j30520037605625_2_alg».proof.Proof.AlgPcc

noncomputable section

namespace Cert.Proof

open Idealize.ShloMosaic Idealize.SL.Sem

/-- What the tiled program leaves in its result buffers: the two passes' values fed to the host arithmetic. -/
theorem results (m : (ℓ : Loc Cert.KernelIdeal.nD Cert.KernelIdeal.τ Cert.KernelIdeal.sig) → Buf (Elt Ideal) ℓ)
    (ρ : Dev Cert.KernelIdeal.nD → PrngReg) : Cert.KernelIdeal.Iface.Results m ρ :=
  Cert.KernelIdeal.KTail.results m ρ (Cert.KernelIdeal.Region0.region0 _) (Cert.KernelIdeal.Region1.region1 _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Assemble.frame_ri Cert.ReferenceIdeal.RefRun.ops Cert.ReferenceIdeal.RefRun.run_main
    Cert.ReferenceIdeal.RefRun.kept_arg0 Cert.ReferenceIdeal.RefRun.kept_arg1 Cert.ReferenceIdeal.RefRun.kept_arg2
    Cert.ReferenceIdeal.RefRun.kept_arg3 Cert.ReferenceIdeal.RefRun.kept_arg4,
  trivial,
  Assemble.algebraic Cert.ReferenceIdeal.RefRun.ops results Cert.ReferenceIdeal.RefRun.run_main
    Cert.ReferenceIdeal.RefRun.kept_arg0 Cert.ReferenceIdeal.RefRun.kept_arg1 Cert.ReferenceIdeal.RefRun.kept_arg2
    Cert.ReferenceIdeal.RefRun.kept_arg3 Cert.ReferenceIdeal.RefRun.kept_arg4
    Cert.ReferenceIdeal.RefLat.v34_eq Cert.ReferenceIdeal.RefMse.v73_eq Cert.ReferenceIdeal.RefPcc.v69_eq
    Cert.KernelIdeal.Finite.finite_of_pre Cert.Spec.Alg.K_lat_eq Cert.Spec.Alg.K_mse_eq Cert.Spec.Alg.K_pcc_eq⟩

end Cert.Proof

end
